-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x4096 : Shape := ⟨3, ![1, 4096, 4096]⟩
abbrev S1x4096 : Shape := ⟨2, ![1, 4096]⟩
abbrev S4096x11008 : Shape := ⟨2, ![4096, 11008]⟩
abbrev S11008x4096 : Shape := ⟨2, ![11008, 4096]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg5 : FVec F S4096x11008 .f32) (main_arg6 : FVec F S4096x11008 .f32) (main_arg7 : FVec F S11008x4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S4096x11008 .f32 := Host.absf main_arg5
  let main_cst_6 : FVec F S_ .f32 := constant S_ .f32 0x7F800000#32
  let main_v20 : FVec F S4096x11008 .f32 := broadcastInDim S4096x11008 ![] bcast_S_S4096x11008 main_cst_6
  let main_v21 : IVec S4096x11008 1 := cmpf .olt main_v19 main_v20
  let main_c_7 : IVec S_ 1 := constantI S_ 1 1#1
  let main_v22 : IVec S_ 1 := (fun x v => Host.reduce IntOp.andi x v reducesTo_S4096x11008_S_d0_1 h_S_) main_v21 main_c_7
  let main_v23 : IVec S_ 1 := andi main_v18 main_v22
  let main_v24 : FVec F S4096x11008 .f32 := Host.absf main_arg6
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S11008x4096 .f32 := Host.absf main_arg7
  let main_cst_10 : FVec F S_ .f32 := constant S_ .f32 0x7F800000#32
  let main_v30 : FVec F S11008x4096 .f32 := broadcastInDim S11008x4096 ![] bcast_S_S11008x4096 main_cst_10
  let main_v31 : IVec S11008x4096 1 := cmpf .olt main_v29 main_v30
  let main_c_11 : IVec S_ 1 := constantI S_ 1 1#1
  let main_v32 : IVec S_ 1 := (fun x v => Host.reduce IntOp.andi x v reducesTo_S11008x4096_S_d0_1 h_S_) main_v31 main_c_11
  let main_v33 : IVec S_ 1 := andi main_v28 main_v32
  main_v33

def fn {F : FTy → Type} [FloatOps F] (main_arg0 : FVec F S1x4096x4096 .f32) (main_arg1 : IVec S1x4096 32) (main_arg2 : FVec F S4096x11008 .f32) (main_arg3 : FVec F S4096x11008 .f32) (main_arg4 : FVec F S11008x4096 .f32) (main_arg5 : FVec F S4096x11008 .f32) (main_arg6 : FVec F S4096x11008 .f32) (main_arg7 : FVec F S11008x4096 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  let main_v4 : FVec F S4096x11008 .f32 := Host.absf main_arg2
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096x11008 .f32 := Host.absf main_arg3
  let main_cst_2 : FVec F S_ .f32 := constant S_ .f32 0x7F800000#32
  let main_v10 : FVec F S4096x11008 .f32 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  let main_v14 : FVec F S11008x4096 .f32 := Host.absf main_arg4
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg5 main_arg6 main_arg7 main_v13 main_v16
-- ==== Kernel.lean ====
abbrev S1x4096x4096 : Shape := ⟨3, ![1, 4096, 4096]⟩
abbrev S1x4096 : Shape := ⟨2, ![1, 4096]⟩
abbrev S4096x11008 : Shape := ⟨2, ![4096, 11008]⟩
abbrev S11008x4096 : Shape := ⟨2, ![11008, 4096]⟩
abbrev S4096x4096 : Shape := ⟨2, ![4096, 4096]⟩
abbrev S2048x4096 : Shape := ⟨2, ![2048, 4096]⟩
abbrev S1024x4096 : Shape := ⟨2, ![1024, 4096]⟩
abbrev S4096x128 : Shape := ⟨2, ![4096, 128]⟩
abbrev S128x4096 : Shape := ⟨2, ![128, 4096]⟩
abbrev S1024x128 : Shape := ⟨2, ![1024, 128]⟩
abbrev S128x256 : Shape := ⟨2, ![128, 256]⟩
abbrev S1024x256 : Shape := ⟨2, ![1024, 256]⟩

abbrev nBuf : Space → Nat
  | .hbm => 18
  | .vmem => 16
  | .smem => 0
  | _ => 0

abbrev bufTy : (tb : Table) → Fin (tcTables nBuf tb) → BufTy
  | .hbm, ⟨0, _⟩ => ⟨S1x4096x4096, .f32⟩
  | .hbm, ⟨1, _⟩ => ⟨S1x4096, .i32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S4096x4096, .f32⟩
  | .hbm, ⟨9, _⟩ => ⟨S4096x4096, .bf16⟩
  | .hbm, ⟨10, _⟩ => ⟨S2048x4096, .f32⟩
  | .hbm, ⟨11, _⟩ => ⟨S2048x4096, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S4096x4096, .f32⟩
  | .hbm, ⟨17, _⟩ => ⟨S1x4096x4096, .f32⟩
  | .local _ .vmem, ⟨0, _⟩ => ⟨S1024x4096, .bf16⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S128x4096, .f32⟩
  | .local _ .vmem, ⟨6, _⟩ => ⟨S128x4096, .f32⟩
  | .local _ .vmem, ⟨7, _⟩ => ⟨S1024x4096, .f32⟩
  | .local _ .vmem, ⟨8, _⟩ => ⟨S1024x4096, .bf16⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S128x4096, .f32⟩
  | .local _ .vmem, ⟨14, _⟩ => ⟨S128x4096, .f32⟩
  | .local _ .vmem, ⟨15, _⟩ => ⟨S1024x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨2, ![2, 86], ![false, false]⟩

@[reducible] def k0_t1_loop : Scf.Loop 32 :=
  let c0_i32_7 : BitVec 32 := 0#32
  let c16_i32 : BitVec 32 := 16#32
  let v15 : BitVec 32 := Scalar.addi c0_i32_7 c16_i32
  let c1_i32 : BitVec 32 := 1#32
  ⟨c0_i32_7, v15, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c256_i32 : BitVec 32 := 256#32
  let v16 : BitVec 32 := Scalar.muli arg7 c256_i32
  v16
def k0_off1 (k0_t1 : Fin k0_t1_loop.trips) : Fin 2 → Nat :=
  let c0_9 : Index := 0#32
  let c0_i32_7 : BitVec 32 := 0#32
  let c1_i32 : BitVec 32 := 1#32
  let arg7 : BitVec 32 := Scf.iv c0_i32_7 c1_i32 k0_t1
  let c256_i32 : BitVec 32 := 256#32
  let v16 : BitVec 32 := Scalar.muli arg7 c256_i32
  let v17 : BitVec 32 := v16
  let v18 : Index := Scalar.indexCast v17
  ![0, v18.toNat]
def k0_off2 (k0_t1 : Fin k0_t1_loop.trips) : Fin 2 → Nat :=
  let c0_11 : Index := 0#32
  let c0_i32_7 : BitVec 32 := 0#32
  let c1_i32 : BitVec 32 := 1#32
  let arg7 : BitVec 32 := Scf.iv c0_i32_7 c1_i32 k0_t1
  let c256_i32 : BitVec 32 := 256#32
  let v16 : BitVec 32 := Scalar.muli arg7 c256_i32
  let v17 : BitVec 32 := v16
  let v22 : Index := Scalar.indexCast v17
  ![0, v22.toNat]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev grid1 : Pipeline.Grid := ⟨2, ![2, 86], ![false, false]⟩

@[reducible] def k1_t1_loop : Scf.Loop 32 :=
  let c0_i32_7 : BitVec 32 := 0#32
  let c16_i32 : BitVec 32 := 16#32
  let v15 : BitVec 32 := Scalar.addi c0_i32_7 c16_i32
  let c1_i32 : BitVec 32 := 1#32
  ⟨c0_i32_7, v15, c1_i32⟩
def k1_mult1 (k1_t1 : Fin k1_t1_loop.trips) : BitVec 32 :=
  let c0_i32_7 : BitVec 32 := 0#32
  let c1_i32 : BitVec 32 := 1#32
  let arg7 : BitVec 32 := Scf.iv c0_i32_7 c1_i32 k1_t1
  let c256_i32 : BitVec 32 := 256#32
  let v16 : BitVec 32 := Scalar.muli arg7 c256_i32
  v16
def k1_off1 (k1_t1 : Fin k1_t1_loop.trips) : Fin 2 → Nat :=
  let c0_9 : Index := 0#32
  let c0_i32_7 : BitVec 32 := 0#32
  let c1_i32 : BitVec 32 := 1#32
  let arg7 : BitVec 32 := Scf.iv c0_i32_7 c1_i32 k1_t1
  let c256_i32 : BitVec 32 := 256#32
  let v16 : BitVec 32 := Scalar.muli arg7 c256_i32
  let v17 : BitVec 32 := v16
  let v18 : Index := Scalar.indexCast v17
  ![0, v18.toNat]
def k1_off2 (k1_t1 : Fin k1_t1_loop.trips) : Fin 2 → Nat :=
  let c0_11 : Index := 0#32
  let c0_i32_7 : BitVec 32 := 0#32
  let c1_i32 : BitVec 32 := 1#32
  let arg7 : BitVec 32 := Scf.iv c0_i32_7 c1_i32 k1_t1
  let c256_i32 : BitVec 32 := 256#32
  let v16 : BitVec 32 := Scalar.muli arg7 c256_i32
  let v17 : BitVec 32 := v16
  let v22 : Index := Scalar.indexCast v17
  ![0, v22.toNat]
def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

class Facts₀ : Prop where
  shapeCasts_S1x4096x4096_S4096x4096 : S1x4096x4096.ShapeCasts S4096x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x128_S4096x128_0_0 : ∀ a, (![0, 0] : Fin 2 → Nat) a + S4096x128.size a ≤ S4096x128.size a
  h_S4096x128 : 0 < S4096x128.numel
  h_S128x256 : 0 < S128x256.numel
  h_S1024x256 : 0 < S1024x256.numel
  shapeCasts_S1024x256_S1024x256 : S1024x256.ShapeCasts S1024x256
  slices_S2048x4096_S1024x4096_0_0 : S2048x4096.Slices ![0, 0] S1024x4096
  slices_S2048x4096_S1024x4096_1024_0 : S2048x4096.Slices ![1024, 0] S1024x4096
  concatenates_S1024x4096_S1024x4096_S1024x4096_S1024x4096_S4096x4096_d0 : Shape.Concatenates [S1024x4096, S1024x4096, S1024x4096, S1024x4096] S4096x4096 0
  bcast_S4096x4096_S1x4096x4096_1_2 : S4096x4096.BroadcastsInDim S1x4096x4096 (![1, 2] : Fin 2 → Fin S1x4096x4096.rank)
  dot_S1024x4096_S4096x128_S1024x128_1_0_0_1_n_n_wf : DotDims.WF S1024x4096 S4096x128 S1024x128 [1] [0] [0] [1] [] []
  dot_S1024x128_S128x256_S1024x256_1_0_0_1_n_n_wf : DotDims.WF S1024x128 S128x256 S1024x256 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S128x256.size a ≤ S128x4096.size a
  k0_off2_inb : ∀ k0_t1 : Fin k0_t1_loop.trips, ∀ a, (k0_off2 k0_t1) a + S1024x256.size a ≤ S1024x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x11008.size a
  hwx0_1 : ∀ i : grid0.Coords, EltTy.bits .f32 = 32 ∨ (Rect.block (s := S4096x11008) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x11008.size a
  hwx0_2 : ∀ i : grid0.Coords, EltTy.bits .f32 = 32 ∨ (Rect.block (s := S4096x11008) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S11008x4096.size a
  hwx0_3 : ∀ i : grid0.Coords, EltTy.bits .f32 = 32 ∨ (Rect.block (s := S11008x4096) S128x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S2048x4096.size a
  hwx0_4 : ∀ i : grid0.Coords, EltTy.bits .f32 = 32 ∨ (Rect.block (s := S2048x4096) S1024x4096.size (cc0_transform_4 i) (hinb0_4 i)).WholeWords (EltTy.packing .f32)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S128x256.size a ≤ S128x4096.size a
  k1_off2_inb : ∀ k1_t1 : Fin k1_t1_loop.trips, ∀ a, (k1_off2 k1_t1) a + S1024x256.size a ≤ S1024x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x11008.size a
  hwx1_1 : ∀ i : grid1.Coords, EltTy.bits .f32 = 32 ∨ (Rect.block (s := S4096x11008) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x11008.size a
  hwx1_2 : ∀ i : grid1.Coords, EltTy.bits .f32 = 32 ∨ (Rect.block (s := S4096x11008) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S11008x4096.size a
  hwx1_3 : ∀ i : grid1.Coords, EltTy.bits .f32 = 32 ∨ (Rect.block (s := S11008x4096) S128x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S2048x4096.size a
  hwx1_4 : ∀ i : grid1.Coords, EltTy.bits .f32 = 32 ∨ (Rect.block (s := S2048x4096) S1024x4096.size (cc1_transform_4 i) (hinb1_4 i)).WholeWords (EltTy.packing .f32)

variable [Facts₀]

def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_v1) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x4096.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x4096x4096 : Shape := ⟨3, ![1, 4096, 4096]⟩
abbrev S1x4096 : Shape := ⟨2, ![1, 4096]⟩
abbrev S4096x11008 : Shape := ⟨2, ![4096, 11008]⟩
abbrev S11008x4096 : Shape := ⟨2, ![11008, 4096]⟩
abbrev S1x1024x4096 : Shape := ⟨3, ![1, 1024, 4096]⟩
abbrev S1x1024x11008 : Shape := ⟨3, ![1, 1024, 11008]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S1x4096, .i32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S1x1024x4096, .f32⟩
  | .hbm, ⟨9, _⟩ => ⟨S1x1024x11008, .f32⟩
  | .hbm, ⟨10, _⟩ => ⟨S1x1024x11008, .f32⟩
  | .hbm, ⟨11, _⟩ => ⟨S1x1024x11008, .f32⟩
  | .hbm, ⟨12, _⟩ => ⟨S_, .f32⟩
  | .hbm, ⟨13, _⟩ => ⟨S1x1024x11008, .f32⟩
  | .hbm, ⟨14, _⟩ => ⟨S1x1024x11008, .f32⟩
  | .hbm, ⟨15, _⟩ => ⟨S_, .f32⟩
  | .hbm, ⟨16, _⟩ => ⟨S1x1024x11008, .f32⟩
  | .hbm, ⟨17, _⟩ => ⟨S1x1024x11008, .f32⟩
  | .hbm, ⟨18, _⟩ => ⟨S1x1024x11008, .f32⟩
  | .hbm, ⟨19, _⟩ => ⟨S1x1024x11008, .f32⟩
  | .hbm, ⟨20, _⟩ => ⟨S1x1024x11008, .f32⟩
  | .hbm, ⟨21, _⟩ => ⟨S1x1024x4096, .f32⟩
  | .hbm, ⟨22, _⟩ => ⟨S1x1024x4096, .f32⟩
  | .hbm, ⟨23, _⟩ => ⟨S1x1024x11008, .f32⟩
  | .hbm, ⟨24, _⟩ => ⟨S1x1024x11008, .f32⟩
  | .hbm, ⟨25, _⟩ => ⟨S1x1024x11008, .f32⟩
  | .hbm, ⟨26, _⟩ => ⟨S_, .f32⟩
  | .hbm, ⟨27, _⟩ => ⟨S1x1024x11008, .f32⟩
  | .hbm, ⟨28, _⟩ => ⟨S1x1024x11008, .f32⟩
  | .hbm, ⟨29, _⟩ => ⟨S_, .f32⟩
  | .hbm, ⟨30, _⟩ => ⟨S1x1024x11008, .f32⟩
  | .hbm, ⟨31, _⟩ => ⟨S1x1024x11008, .f32⟩
  | .hbm, ⟨32, _⟩ => ⟨S1x1024x11008, .f32⟩
  | .hbm, ⟨33, _⟩ => ⟨S1x1024x11008, .f32⟩
  | .hbm, ⟨34, _⟩ => ⟨S1x1024x11008, .f32⟩
  | .hbm, ⟨35, _⟩ => ⟨S1x1024x4096, .f32⟩
  | .hbm, ⟨36, _⟩ => ⟨S1x1024x4096, .f32⟩
  | .hbm, ⟨37, _⟩ => ⟨S1x1024x11008, .f32⟩
  | .hbm, ⟨38, _⟩ => ⟨S1x1024x11008, .f32⟩
  | .hbm, ⟨39, _⟩ => ⟨S1x1024x11008, .f32⟩
  | .hbm, ⟨40, _⟩ => ⟨S_, .f32⟩
  | .hbm, ⟨41, _⟩ => ⟨S1x1024x11008, .f32⟩
  | .hbm, ⟨42, _⟩ => ⟨S1x1024x11008, .f32⟩
  | .hbm, ⟨43, _⟩ => ⟨S_, .f32⟩
  | .hbm, ⟨44, _⟩ => ⟨S1x1024x11008, .f32⟩
  | .hbm, ⟨45, _⟩ => ⟨S1x1024x11008, .f32⟩
  | .hbm, ⟨46, _⟩ => ⟨S1x1024x11008, .f32⟩
  | .hbm, ⟨47, _⟩ => ⟨S1x1024x11008, .f32⟩
  | .hbm, ⟨48, _⟩ => ⟨S1x1024x11008, .f32⟩
  | .hbm, ⟨49, _⟩ => ⟨S1x1024x4096, .f32⟩
  | .hbm, ⟨50, _⟩ => ⟨S1x1024x4096, .f32⟩
  | .hbm, ⟨51, _⟩ => ⟨S1x1024x11008, .f32⟩
  | .hbm, ⟨52, _⟩ => ⟨S1x1024x11008, .f32⟩
  | .hbm, ⟨53, _⟩ => ⟨S1x1024x11008, .f32⟩
  | .hbm, ⟨54, _⟩ => ⟨S_, .f32⟩
  | .hbm, ⟨55, _⟩ => ⟨S1x1024x11008, .f32⟩
  | .hbm, ⟨56, _⟩ => ⟨S1x1024x11008, .f32⟩
  | .hbm, ⟨57, _⟩ => ⟨S_, .f32⟩
  | .hbm, ⟨58, _⟩ => ⟨S1x1024x11008, .f32⟩
  | .hbm, ⟨59, _⟩ => ⟨S1x1024x11008, .f32⟩
  | .hbm, ⟨60, _⟩ => ⟨S1x1024x11008, .f32⟩
  | .hbm, ⟨61, _⟩ => ⟨S1x1024x11008, .f32⟩
  | .hbm, ⟨62, _⟩ => ⟨S1x1024x11008, .f32⟩
  | .hbm, ⟨63, _⟩ => ⟨S1x1024x4096, .f32⟩
  | .hbm, ⟨64, _⟩ => ⟨S1x4096x4096, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call3_v0 : Ref sig .tc := ⟨.hbm, 52, rfl⟩
abbrev main_call3_v1 : Ref sig .tc := ⟨.hbm, 53, rfl⟩
abbrev main_call3_cst : Ref sig .tc := ⟨.hbm, 54, rfl⟩
abbrev main_call3_v2 : Ref sig .tc := ⟨.hbm, 55, rfl⟩
abbrev main_call3_v3 : Ref sig .tc := ⟨.hbm, 56, rfl⟩
abbrev main_call3_cst_0 : Ref sig .tc := ⟨.hbm, 57, rfl⟩
abbrev main_call3_v4 : Ref sig .tc := ⟨.hbm, 58, rfl⟩
abbrev main_call3_v5 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩

abbrev nD : Nat := 1
abbrev τ : Topo := Topo.v7x

variable {F : FTy → Type} [FloatOps F]

class Facts₀ : Prop where
  slices_S1x4096x4096_S1x1024x4096_0_0_0 : S1x4096x4096.Slices ![0, 0, 0] S1x1024x4096
  bcast_S_S1x1024x11008 : S_.BroadcastsInDim S1x1024x11008 (![] : Fin 0 → Fin S1x1024x11008.rank)
  slices_S1x4096x4096_S1x1024x4096_0_1024_0 : S1x4096x4096.Slices ![0, 1024, 0] S1x1024x4096
  slices_S1x4096x4096_S1x1024x4096_0_2048_0 : S1x4096x4096.Slices ![0, 2048, 0] S1x1024x4096
  slices_S1x4096x4096_S1x1024x4096_0_3072_0 : S1x4096x4096.Slices ![0, 3072, 0] S1x1024x4096
  concatenates_S1x1024x4096_S1x1024x4096_S1x1024x4096_S1x1024x4096_S1x4096x4096_d1 : Shape.Concatenates [S1x1024x4096, S1x1024x4096, S1x1024x4096, S1x1024x4096] S1x4096x4096 1
  dot_S1x1024x4096_S4096x11008_S1x1024x11008_2_0_01_1_n_n_wf : DotDims.WF S1x1024x4096 S4096x11008 S1x1024x11008 [2] [0] [0, 1] [1] [] []
  dot_S1x1024x11008_S11008x4096_S1x1024x4096_2_0_01_1_n_n_wf : DotDims.WF S1x1024x11008 S11008x4096 S1x1024x4096 [2] [0] [0, 1] [1] [] []

variable [Facts₀]

def dot_S1x1024x4096_S4096x11008_S1x1024x11008_2_0_01_1_n_n : DotDims S1x1024x4096 S4096x11008 S1x1024x11008 where
  lhsContracting := [2]
  rhsContracting := [0]
  lhsNonContracting := [0, 1]
  rhsNonContracting := [1]
  lhsBatch := []
  rhsBatch := []
  wf := dot_S1x1024x4096_S4096x11008_S1x1024x11008_2_0_01_1_n_n_wf
def dot_S1x1024x11008_S11008x4096_S1x1024x4096_2_0_01_1_n_n : DotDims S1x1024x11008 S11008x4096 S1x1024x4096 where
  lhsContracting := [2]
  rhsContracting := [0]
  lhsNonContracting := [0, 1]
  rhsNonContracting := [1]
  lhsBatch := []
  rhsBatch := []
  wf := dot_S1x1024x11008_S11008x4096_S1x1024x4096_2_0_01_1_n_n_wf

class Facts : Prop extends Facts₀ where

variable [Facts]
-- ==== Proof.KBase.lean ====
/-
  What the two kernel regions' frame proofs share: each window's block at a grid point read off its array as the
  region finds it, the condition under which the body zero-fills its resident output block (the second grid
  coordinate is 0: the first of the 86 steps over the hidden units) decided over the grid, and each window's current
  staging memref at a point as the pipeline passes it to the body.
-/
import proofs.«171829_j90975997264556_2_alg».proof.Proof.Gen.Kernel.Launch
import proofs.«171829_j90975997264556_2_alg».proof.Proof.Gen.Kernel.Skeleton
import proofs.«171829_j90975997264556_2_alg».proof.Proof.Gen.Kernel.Loops
import proofs.«171829_j90975997264556_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, its
    block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, its
    block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, its
    block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, its
    block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The condition of the body's one branch, from the grid coordinates: the step over the hidden units is the first. -/
abbrev cond0_0 (i : grid0.Coords) : Prop := (Scalar.cmpi .ne (Scalar.extui (Scalar.cmpi .eq (BitVec.ofNat 32 (i 1).val) 0#32)) 0#32) = 1#1
/-- It holds at the first of each token tile's 86 points only — decided over the grid. -/
theorem hcond0_0 : ∀ t : Fin cfg0.N, cond0_0 (grid0.coords t) ↔ t.val % 86 = 0 :=
  (by decide +kernel : ∀ t : Fin grid0.N, cond0_0 (grid0.coords t) ↔ t.val % 86 = 0)

/-- One staging buffer of the output window, through which its contents are stated. -/
abbrev VO0_4 : View sig .tc .vmem S1024x4096 .f32 := (Memref.whole cc0_stg4_0 : Memref sig .tc .vmem S1024x4096 .f32).view
/-- Each window's current staging memref at point `t`, as the pipeline passes it, and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .f32 := win0_4.stage (cfg0.slots t 4)
abbrev hs0_4 (t : Fin cfg0.N) : (ms0_4 t).IsWhole := hstage0_4 ((cfg0.slots t 4).cast nbuf0_4)

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, its
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, its
    block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, its
    block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, its
    block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The condition of the body's one branch, from the grid coordinates: the step over the hidden units is the first. -/
abbrev cond1_0 (i : grid1.Coords) : Prop := (Scalar.cmpi .ne (Scalar.extui (Scalar.cmpi .eq (BitVec.ofNat 32 (i 1).val) 0#32)) 0#32) = 1#1
/-- It holds at the first of each token tile's 86 points only — decided over the grid. -/
theorem hcond1_0 : ∀ t : Fin cfg1.N, cond1_0 (grid1.coords t) ↔ t.val % 86 = 0 :=
  (by decide +kernel : ∀ t : Fin grid1.N, cond1_0 (grid1.coords t) ↔ t.val % 86 = 0)

/-- One staging buffer of the output window, through which its contents are stated. -/
abbrev VO1_4 : View sig .tc .vmem S1024x4096 .f32 := (Memref.whole cc1_stg4_0 : Memref sig .tc .vmem S1024x4096 .f32).view
/-- Each window's current staging memref at point `t`, as the pipeline passes it, and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x4096 .f32 := win1_4.stage (cfg1.slots t 4)
abbrev hs1_4 (t : Fin cfg1.N) : (ms1_4 t).IsWhole := hstage1_4 ((cfg1.slots t 4).cast nbuf1_4)

end Cert.Kernel.Fr

end
-- ==== Proof.KRun0A.lean ====
/-
  Region 0's kernel body run whole at one case of its branch: the pieces it leaves in the output block are found by
  the run itself.
-/
import proofs.«171829_j90975997264556_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref, as pieces (last first), at a point where the branch is taken (the first of a token tile's 86 steps: the block is zero-filled, then each of the 16 column chunks has its product added), with the proof that on whole staging memrefs — the four inputs' at their contents, the output's at anything — the body runs to the continuation holding the inputs' as they were and the output's buffer with those pieces written. -/
noncomputable def kernelRun0_A (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond0_0 i)
    (x0 : Vec F S1024x4096 .bf16) (x1 : Vec F S4096x128 .f32) (x2 : Vec F S4096x128 .f32) (x3 : Vec F S128x4096 .f32) :
    { L4 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mlp_kernel i arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.KRun0B.lean ====
/-
  Region 0's kernel body run whole at one case of its branch: the pieces it leaves in the output block are found by
  the run itself.
-/
import proofs.«171829_j90975997264556_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref, as pieces (last first), at a point where the branch is not taken (a later step: each of the 16 column chunks has its product added to what the step before left, `xo4`), with the proof that on whole staging memrefs — the four inputs' at their contents, the output's at its running contents — the body runs to the continuation holding the inputs' as they were and the output's buffer with those pieces written. -/
noncomputable def kernelRun0_B (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond0_0 i)
    (x0 : Vec F S1024x4096 .bf16) (x1 : Vec F S4096x128 .f32) (x2 : Vec F S4096x128 .f32) (x3 : Vec F S128x4096 .f32) (xo4 : Vec F S1024x4096 .f32) :
    { L4 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mlp_kernel i arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.KDat0.lean ====
/-
  Region 0's proof data. After the body at a grid point each input window's buffer holds its block; the output
  window's buffer holds, at the first of a token tile's 86 steps, what the zero-fill and the 16 chunk additions leave,
  and at a later step what the 16 chunk additions leave over the contents of the step before (the buffer is written
  back only after the 86th step). With the body's run per case this gives the pipeline's obligation at every point.
-/
import proofs.«171829_j90975997264556_2_alg».proof.Proof.KRun0A
import proofs.«171829_j90975997264556_2_alg».proof.Proof.KRun0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-step pieces tile the output block, so they cover it. -/
theorem cover0_A_4 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond0_0 i)
    (x0 : Vec F S1024x4096 .bf16) (x1 : Vec F S4096x128 .f32) (x2 : Vec F S4096x128 .f32) (x3 : Vec F S128x4096 .f32) (y : S1024x4096.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1024x4096.size (by sl_kernel_rfl) y

/-- What the first step leaves in the output's staging buffer: its pieces read back over junk. -/
def out0_A_4 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond0_0 i)
    (x0 : Vec F S1024x4096 .bf16) (x1 : Vec F S4096x128 .f32) (x2 : Vec F S4096x128 .f32) (x3 : Vec F S128x4096 .f32) : Vec F S1024x4096 .f32 :=
  VO0_4.read (Elt F) (VO0_4.writes (Elt F) VO0_4.junk (kernelRun0_A c i arg2 harg2 arg3 harg3 arg4 harg4 arg5 harg5 arg6 harg6 hc0 x0 x1 x2 x3).1)

/-- A later step's pieces (the 16 column chunks) tile the output block, so they cover it. -/
theorem cover0_B_4 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond0_0 i)
    (x0 : Vec F S1024x4096 .bf16) (x1 : Vec F S4096x128 .f32) (x2 : Vec F S4096x128 .f32) (x3 : Vec F S128x4096 .f32) (xo4 : Vec F S1024x4096 .f32) (y : S1024x4096.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1024x256.size (by sl_kernel_rfl) y

/-- What a later step leaves in the output's staging buffer: its pieces read back over junk. -/
def out0_B_4 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond0_0 i)
    (x0 : Vec F S1024x4096 .bf16) (x1 : Vec F S4096x128 .f32) (x2 : Vec F S4096x128 .f32) (x3 : Vec F S128x4096 .f32) (xo4 : Vec F S1024x4096 .f32) : Vec F S1024x4096 .f32 :=
  VO0_4.read (Elt F) (VO0_4.writes (Elt F) VO0_4.junk (kernelRun0_B c i arg2 harg2 arg3 harg3 arg4 harg4 arg5 harg5 arg6 harg6 hc0 x0 x1 x2 x3 xo4).1)

/-! ## What the output block holds after each point -/

/-- The accumulation over the grid: after point `n`, the first-step contents if `n` is the first of its token tile's
    86 steps, else the later-step contents over what point `n - 1` left. -/
def outsAt0 (c : Dev nD) : (n : ℕ) → n < cfg0.N → Vec F S1024x4096 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 86 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- At a first step: that case's contents. -/
theorem outsAt0_A (c : Dev nD) (t : Fin cfg0.N) (h0 : t.val % 86 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) (iblk0 V c 3 t) := by
  obtain ⟨n, hn⟩ := t
  cases n with
  | zero => exact rfl
  | succ n => exact (dif_pos h0).trans rfl

/-- At a later step: that case's contents, over what the point before left. -/
theorem outsAt0_B (c : Dev nD) (t : Fin cfg0.N) (h0 : ¬t.val % 86 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt0`; the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a later step the output's staging buffer holds what the body left at the point before: the point is not the
    first, and the buffer is written back only after a token tile's last step. -/
theorem before0_4_B (c : Dev nD) (t : Fin cfg0.N) (h0 : ¬t.val % 86 = 0) (d) :
    (dat0 V c).before 4 t d = (outsAt0 V c (t.val - 1) (Nat.lt_of_le_of_lt (Nat.sub_le _ _) t.isLt)) := by
  have hN : t.val < 172 := lt_of_lt_of_eq t.isLt (show cfg0.N = 172 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' memrefs hold their blocks; the closed form of the condition says which case the
    point is in; at a later step the output's memref holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 172 := lt_of_lt_of_eq t.isLt (show cfg0.N = 172 from N_0)
  by_cases h0 : t.val % 86 = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRun1A.lean ====
/-
  Region 1's kernel body run whole at one case of its branch: the pieces it leaves in the output block are found by
  the run itself.
-/
import proofs.«171829_j90975997264556_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref, as pieces (last first), at a point where the branch is taken (the first of a token tile's 86 steps: the block is zero-filled, then each of the 16 column chunks has its product added), with the proof that on whole staging memrefs — the four inputs' at their contents, the output's at anything — the body runs to the continuation holding the inputs' as they were and the output's buffer with those pieces written. -/
noncomputable def kernelRun1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond1_0 i)
    (x0 : Vec F S1024x4096 .bf16) (x1 : Vec F S4096x128 .f32) (x2 : Vec F S4096x128 .f32) (x3 : Vec F S128x4096 .f32) :
    { L4 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__mlp_kernel i arg2 harg2 arg3 harg3 arg4 harg4 arg5 harg5 arg6 harg6) K } := by
  refine ⟨?_, fun E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.KRun1B.lean ====
/-
  Region 1's kernel body run whole at one case of its branch: the pieces it leaves in the output block are found by
  the run itself.
-/
import proofs.«171829_j90975997264556_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref, as pieces (last first), at a point where the branch is not taken (a later step: each of the 16 column chunks has its product added to what the step before left, `xo4`), with the proof that on whole staging memrefs — the four inputs' at their contents, the output's at its running contents — the body runs to the continuation holding the inputs' as they were and the output's buffer with those pieces written. -/
noncomputable def kernelRun1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond1_0 i)
    (x0 : Vec F S1024x4096 .bf16) (x1 : Vec F S4096x128 .f32) (x2 : Vec F S4096x128 .f32) (x3 : Vec F S128x4096 .f32) (xo4 : Vec F S1024x4096 .f32) :
    { L4 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__mlp_kernel i arg2 harg2 arg3 harg3 arg4 harg4 arg5 harg5 arg6 harg6) K } := by
  refine ⟨?_, fun E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Fr

end
-- ==== Proof.KDat1.lean ====
/-
  Region 1's proof data. After the body at a grid point each input window's buffer holds its block; the output
  window's buffer holds, at the first of a token tile's 86 steps, what the zero-fill and the 16 chunk additions leave,
  and at a later step what the 16 chunk additions leave over the contents of the step before (the buffer is written
  back only after the 86th step). With the body's run per case this gives the pipeline's obligation at every point.
-/
import proofs.«171829_j90975997264556_2_alg».proof.Proof.KRun1A
import proofs.«171829_j90975997264556_2_alg».proof.Proof.KRun1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-step pieces tile the output block, so they cover it. -/
theorem cover1_A_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond1_0 i)
    (x0 : Vec F S1024x4096 .bf16) (x1 : Vec F S4096x128 .f32) (x2 : Vec F S4096x128 .f32) (x3 : Vec F S128x4096 .f32) (y : S1024x4096.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1024x4096.size (by sl_kernel_rfl) y

/-- What the first step leaves in the output's staging buffer: its pieces read back over junk. -/
def out1_A_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond1_0 i)
    (x0 : Vec F S1024x4096 .bf16) (x1 : Vec F S4096x128 .f32) (x2 : Vec F S4096x128 .f32) (x3 : Vec F S128x4096 .f32) : Vec F S1024x4096 .f32 :=
  VO1_4.read (Elt F) (VO1_4.writes (Elt F) VO1_4.junk (kernelRun1_A c i arg2 harg2 arg3 harg3 arg4 harg4 arg5 harg5 arg6 harg6 hc0 x0 x1 x2 x3).1)

/-- A later step's pieces (the 16 column chunks) tile the output block, so they cover it. -/
theorem cover1_B_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond1_0 i)
    (x0 : Vec F S1024x4096 .bf16) (x1 : Vec F S4096x128 .f32) (x2 : Vec F S4096x128 .f32) (x3 : Vec F S128x4096 .f32) (xo4 : Vec F S1024x4096 .f32) (y : S1024x4096.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1024x256.size (by sl_kernel_rfl) y

/-- What a later step leaves in the output's staging buffer: its pieces read back over junk. -/
def out1_B_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond1_0 i)
    (x0 : Vec F S1024x4096 .bf16) (x1 : Vec F S4096x128 .f32) (x2 : Vec F S4096x128 .f32) (x3 : Vec F S128x4096 .f32) (xo4 : Vec F S1024x4096 .f32) : Vec F S1024x4096 .f32 :=
  VO1_4.read (Elt F) (VO1_4.writes (Elt F) VO1_4.junk (kernelRun1_B c i arg2 harg2 arg3 harg3 arg4 harg4 arg5 harg5 arg6 harg6 hc0 x0 x1 x2 x3 xo4).1)

/-! ## What the output block holds after each point -/

/-- The accumulation over the grid: after point `n`, the first-step contents if `n` is the first of its token tile's
    86 steps, else the later-step contents over what point `n - 1` left. -/
def outsAt1 (c : Dev nD) : (n : ℕ) → n < cfg1.N → Vec F S1024x4096 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 86 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At a first step: that case's contents. -/
theorem outsAt1_A (c : Dev nD) (t : Fin cfg1.N) (h0 : t.val % 86 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At a later step: that case's contents, over what the point before left. -/
theorem outsAt1_B (c : Dev nD) (t : Fin cfg1.N) (h0 : ¬t.val % 86 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt1`; the invariant the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later step the output's staging buffer holds what the body left at the point before: the point is not the
    first, and the buffer is written back only after a token tile's last step. -/
theorem before1_4_B (c : Dev nD) (t : Fin cfg1.N) (h0 : ¬t.val % 86 = 0) (d) :
    (dat1 V c).before 4 t d = (outsAt1 V c (t.val - 1) (Nat.lt_of_le_of_lt (Nat.sub_le _ _) t.isLt)) := by
  have hN : t.val < 172 := lt_of_lt_of_eq t.isLt (show cfg1.N = 172 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed form of the condition says which case the
    point is in; at a later step the output's memref holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 172 := lt_of_lt_of_eq t.isLt (show cfg1.N = 172 from N_1)
  by_cases h0 : t.val % 86 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KRegions.lean ====
/-
  The run of @main: a stretch of host operations (the reshape and the rounding of the hidden states), the two kernel
  regions one after the other, and a last stretch of host operations (four row slices, their concatenation, the
  leading unit axis). The buffers' contents at each boundary are a fold from the launch memory: a host stretch applies
  its operations; a region leaves its inputs as entered and its output array at what the write-backs of its proof data
  compose. Every weakly fair execution terminates and every unscoped buffer ends at the last boundary's contents; the
  argument arrays, which nothing writes, end as launched.
-/
import proofs.«171829_j90975997264556_2_alg».proof.Proof.KDat0
import proofs.«171829_j90975997264556_2_alg».proof.Proof.KDat1
import proofs.«171829_j90975997264556_2_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: the contents every execution ends with. -/
abbrev W4 : Dev nD → Valuation τ sig (Elt F) := fun c => StableHlo.after hostOps2 (W3 m c)

/-! ### The arguments end as launched: no host operation writes one, and a region stages one only as an input -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := (W3_arr m c 1).trans (((dat1 (V2 m) c).arrAt_in 1 rfl _).trans (A_eq1 (V2 m) c 1))
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := (W3_arr m c 2).trans (((dat1 (V2 m) c).arrAt_in 2 rfl _).trans (A_eq1 (V2 m) c 2))
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := (W3_arr m c 3).trans (((dat1 (V2 m) c).arrAt_in 3 rfl _).trans (A_eq1 (V2 m) c 3))
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := (W2_arr m c 1).trans (((dat0 (V1 m) c).arrAt_in 1 rfl _).trans (A_eq0 (V1 m) c 1))
    _ = W0 m c (Proc.devRef .tc main_arg5) := StableHlo.after_of_writes_sub hostOps0 _ hostOps0_writes (r := main_arg5) (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := (W2_arr m c 2).trans (((dat0 (V1 m) c).arrAt_in 2 rfl _).trans (A_eq0 (V1 m) c 2))
    _ = W0 m c (Proc.devRef .tc main_arg6) := StableHlo.after_of_writes_sub hostOps0 _ hostOps0_writes (r := main_arg6) (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (r := main_arg7) (by decide)
    _ = W2 m c (Proc.devRef .tc main_arg7) := W3_of_ne m c main_arg7 (by decide)
    _ = W1 m c (Proc.devRef .tc main_arg7) := (W2_arr m c 3).trans (((dat0 (V1 m) c).arrAt_in 3 rfl _).trans (A_eq0 (V1 m) c 3))
    _ = W0 m c (Proc.devRef .tc main_arg7) := StableHlo.after_of_writes_sub hostOps0 _ hostOps0_writes (r := main_arg7) (by decide)
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the body's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the body's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_main m ρ)

end Cert.Kernel.Fr

end
-- ==== Proof.KIBase.lean ====
/-
  What the two kernel regions' frame proofs share: each window's block at a grid point read off its array as the
  region finds it, the condition under which the body zero-fills its resident output block (the second grid
  coordinate is 0: the first of the 86 steps over the hidden units) decided over the grid, and each window's current
  staging memref at a point as the pipeline passes it to the body.
-/
import proofs.«171829_j90975997264556_2_alg».proof.Proof.Gen.KernelIdeal.Launch
import proofs.«171829_j90975997264556_2_alg».proof.Proof.Gen.KernelIdeal.Skeleton
import proofs.«171829_j90975997264556_2_alg».proof.Proof.Gen.KernelIdeal.Loops
import proofs.«171829_j90975997264556_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, its
    block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, its
    block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, its
    block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, its
    block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The condition of the body's one branch, from the grid coordinates: the step over the hidden units is the first. -/
abbrev cond0_0 (i : grid0.Coords) : Prop := (Scalar.cmpi .ne (Scalar.extui (Scalar.cmpi .eq (BitVec.ofNat 32 (i 1).val) 0#32)) 0#32) = 1#1
/-- It holds at the first of each token tile's 86 points only — decided over the grid. -/
theorem hcond0_0 : ∀ t : Fin cfg0.N, cond0_0 (grid0.coords t) ↔ t.val % 86 = 0 :=
  (by decide +kernel : ∀ t : Fin grid0.N, cond0_0 (grid0.coords t) ↔ t.val % 86 = 0)

/-- One staging buffer of the output window, through which its contents are stated. -/
abbrev VO0_4 : View sig .tc .vmem S1024x4096 .f32 := (Memref.whole cc0_stg4_0 : Memref sig .tc .vmem S1024x4096 .f32).view
/-- Each window's current staging memref at point `t`, as the pipeline passes it, and its wholeness. -/
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .f32 := win0_4.stage (cfg0.slots t 4)
abbrev hs0_4 (t : Fin cfg0.N) : (ms0_4 t).IsWhole := hstage0_4 ((cfg0.slots t 4).cast nbuf0_4)

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, its
    block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, its
    block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, its
    block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, its
    block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The condition of the body's one branch, from the grid coordinates: the step over the hidden units is the first. -/
abbrev cond1_0 (i : grid1.Coords) : Prop := (Scalar.cmpi .ne (Scalar.extui (Scalar.cmpi .eq (BitVec.ofNat 32 (i 1).val) 0#32)) 0#32) = 1#1
/-- It holds at the first of each token tile's 86 points only — decided over the grid. -/
theorem hcond1_0 : ∀ t : Fin cfg1.N, cond1_0 (grid1.coords t) ↔ t.val % 86 = 0 :=
  (by decide +kernel : ∀ t : Fin grid1.N, cond1_0 (grid1.coords t) ↔ t.val % 86 = 0)

/-- One staging buffer of the output window, through which its contents are stated. -/
abbrev VO1_4 : View sig .tc .vmem S1024x4096 .f32 := (Memref.whole cc1_stg4_0 : Memref sig .tc .vmem S1024x4096 .f32).view
/-- Each window's current staging memref at point `t`, as the pipeline passes it, and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x4096 .f32 := win1_4.stage (cfg1.slots t 4)
abbrev hs1_4 (t : Fin cfg1.N) : (ms1_4 t).IsWhole := hstage1_4 ((cfg1.slots t 4).cast nbuf1_4)

end Cert.KernelIdeal.Fr

end
-- ==== Proof.KIRun0A.lean ====
/-
  Region 0's kernel body run whole at one case of its branch: the pieces it leaves in the output block are found by
  the run itself.
-/
import proofs.«171829_j90975997264556_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref, as pieces (last first), at a point where the branch is taken (the first of a token tile's 86 steps: the block is zero-filled, then each of the 16 column chunks has its product added), with the proof that on whole staging memrefs — the four inputs' at their contents, the output's at anything — the body runs to the continuation holding the inputs' as they were and the output's buffer with those pieces written. -/
noncomputable def kernelRun0_A (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond0_0 i)
    (x0 : Vec F S1024x4096 .bf16) (x1 : Vec F S4096x128 .f32) (x2 : Vec F S4096x128 .f32) (x3 : Vec F S128x4096 .f32) :
    { L4 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mlp_kernel i arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KIRun0B.lean ====
/-
  Region 0's kernel body run whole at one case of its branch: the pieces it leaves in the output block are found by
  the run itself.
-/
import proofs.«171829_j90975997264556_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref, as pieces (last first), at a point where the branch is not taken (a later step: each of the 16 column chunks has its product added to what the step before left, `xo4`), with the proof that on whole staging memrefs — the four inputs' at their contents, the output's at its running contents — the body runs to the continuation holding the inputs' as they were and the output's buffer with those pieces written. -/
noncomputable def kernelRun0_B (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond0_0 i)
    (x0 : Vec F S1024x4096 .bf16) (x1 : Vec F S4096x128 .f32) (x2 : Vec F S4096x128 .f32) (x3 : Vec F S128x4096 .f32) (xo4 : Vec F S1024x4096 .f32) :
    { L4 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__mlp_kernel i arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KIDat0.lean ====
/-
  Region 0's proof data. After the body at a grid point each input window's buffer holds its block; the output
  window's buffer holds, at the first of a token tile's 86 steps, what the zero-fill and the 16 chunk additions leave,
  and at a later step what the 16 chunk additions leave over the contents of the step before (the buffer is written
  back only after the 86th step). With the body's run per case this gives the pipeline's obligation at every point.
-/
import proofs.«171829_j90975997264556_2_alg».proof.Proof.KIRun0A
import proofs.«171829_j90975997264556_2_alg».proof.Proof.KIRun0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-step pieces tile the output block, so they cover it. -/
theorem cover0_A_4 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond0_0 i)
    (x0 : Vec F S1024x4096 .bf16) (x1 : Vec F S4096x128 .f32) (x2 : Vec F S4096x128 .f32) (x3 : Vec F S128x4096 .f32) (y : S1024x4096.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1024x4096.size (by sl_kernel_rfl) y

/-- What the first step leaves in the output's staging buffer: its pieces read back over junk. -/
def out0_A_4 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond0_0 i)
    (x0 : Vec F S1024x4096 .bf16) (x1 : Vec F S4096x128 .f32) (x2 : Vec F S4096x128 .f32) (x3 : Vec F S128x4096 .f32) : Vec F S1024x4096 .f32 :=
  VO0_4.read (Elt F) (VO0_4.writes (Elt F) VO0_4.junk (kernelRun0_A c i arg2 harg2 arg3 harg3 arg4 harg4 arg5 harg5 arg6 harg6 hc0 x0 x1 x2 x3).1)

/-- A later step's pieces (the 16 column chunks) tile the output block, so they cover it. -/
theorem cover0_B_4 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond0_0 i)
    (x0 : Vec F S1024x4096 .bf16) (x1 : Vec F S4096x128 .f32) (x2 : Vec F S4096x128 .f32) (x3 : Vec F S128x4096 .f32) (xo4 : Vec F S1024x4096 .f32) (y : S1024x4096.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1024x256.size (by sl_kernel_rfl) y

/-- What a later step leaves in the output's staging buffer: its pieces read back over junk. -/
def out0_B_4 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond0_0 i)
    (x0 : Vec F S1024x4096 .bf16) (x1 : Vec F S4096x128 .f32) (x2 : Vec F S4096x128 .f32) (x3 : Vec F S128x4096 .f32) (xo4 : Vec F S1024x4096 .f32) : Vec F S1024x4096 .f32 :=
  VO0_4.read (Elt F) (VO0_4.writes (Elt F) VO0_4.junk (kernelRun0_B c i arg2 harg2 arg3 harg3 arg4 harg4 arg5 harg5 arg6 harg6 hc0 x0 x1 x2 x3 xo4).1)

/-! ## What the output block holds after each point -/

/-- The accumulation over the grid: after point `n`, the first-step contents if `n` is the first of its token tile's
    86 steps, else the later-step contents over what point `n - 1` left. -/
def outsAt0 (c : Dev nD) : (n : ℕ) → n < cfg0.N → Vec F S1024x4096 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 86 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- At a first step: that case's contents. -/
theorem outsAt0_A (c : Dev nD) (t : Fin cfg0.N) (h0 : t.val % 86 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) (iblk0 V c 3 t) := by
  obtain ⟨n, hn⟩ := t
  cases n with
  | zero => exact rfl
  | succ n => exact (dif_pos h0).trans rfl

/-- At a later step: that case's contents, over what the point before left. -/
theorem outsAt0_B (c : Dev nD) (t : Fin cfg0.N) (h0 : ¬t.val % 86 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt0`; the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a later step the output's staging buffer holds what the body left at the point before: the point is not the
    first, and the buffer is written back only after a token tile's last step. -/
theorem before0_4_B (c : Dev nD) (t : Fin cfg0.N) (h0 : ¬t.val % 86 = 0) (d) :
    (dat0 V c).before 4 t d = (outsAt0 V c (t.val - 1) (Nat.lt_of_le_of_lt (Nat.sub_le _ _) t.isLt)) := by
  have hN : t.val < 172 := lt_of_lt_of_eq t.isLt (show cfg0.N = 172 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' memrefs hold their blocks; the closed form of the condition says which case the
    point is in; at a later step the output's memref holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 172 := lt_of_lt_of_eq t.isLt (show cfg0.N = 172 from N_0)
  by_cases h0 : t.val % 86 = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIRun1A.lean ====
/-
  Region 1's kernel body run whole at one case of its branch: the pieces it leaves in the output block are found by
  the run itself.
-/
import proofs.«171829_j90975997264556_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref, as pieces (last first), at a point where the branch is taken (the first of a token tile's 86 steps: the block is zero-filled, then each of the 16 column chunks has its product added), with the proof that on whole staging memrefs — the four inputs' at their contents, the output's at anything — the body runs to the continuation holding the inputs' as they were and the output's buffer with those pieces written. -/
noncomputable def kernelRun1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond1_0 i)
    (x0 : Vec F S1024x4096 .bf16) (x1 : Vec F S4096x128 .f32) (x2 : Vec F S4096x128 .f32) (x3 : Vec F S128x4096 .f32) :
    { L4 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__mlp_kernel i arg2 harg2 arg3 harg3 arg4 harg4 arg5 harg5 arg6 harg6) K } := by
  refine ⟨?_, fun E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KIRun1B.lean ====
/-
  Region 1's kernel body run whole at one case of its branch: the pieces it leaves in the output block are found by
  the run itself.
-/
import proofs.«171829_j90975997264556_2_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref, as pieces (last first), at a point where the branch is not taken (a later step: each of the 16 column chunks has its product added to what the step before left, `xo4`), with the proof that on whole staging memrefs — the four inputs' at their contents, the output's at its running contents — the body runs to the continuation holding the inputs' as they were and the output's buffer with those pieces written. -/
noncomputable def kernelRun1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond1_0 i)
    (x0 : Vec F S1024x4096 .bf16) (x1 : Vec F S4096x128 .f32) (x2 : Vec F S4096x128 .f32) (x3 : Vec F S128x4096 .f32) (xo4 : Vec F S1024x4096 .f32) :
    { L4 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__mlp_kernel i arg2 harg2 arg3 harg3 arg4 harg4 arg5 harg5 arg6 harg6) K } := by
  refine ⟨?_, fun E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Fr

end
-- ==== Proof.KIDat1.lean ====
/-
  Region 1's proof data. After the body at a grid point each input window's buffer holds its block; the output
  window's buffer holds, at the first of a token tile's 86 steps, what the zero-fill and the 16 chunk additions leave,
  and at a later step what the 16 chunk additions leave over the contents of the step before (the buffer is written
  back only after the 86th step). With the body's run per case this gives the pipeline's obligation at every point.
-/
import proofs.«171829_j90975997264556_2_alg».proof.Proof.KIRun1A
import proofs.«171829_j90975997264556_2_alg».proof.Proof.KIRun1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-step pieces tile the output block, so they cover it. -/
theorem cover1_A_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond1_0 i)
    (x0 : Vec F S1024x4096 .bf16) (x1 : Vec F S4096x128 .f32) (x2 : Vec F S4096x128 .f32) (x3 : Vec F S128x4096 .f32) (y : S1024x4096.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1024x4096.size (by sl_kernel_rfl) y

/-- What the first step leaves in the output's staging buffer: its pieces read back over junk. -/
def out1_A_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond1_0 i)
    (x0 : Vec F S1024x4096 .bf16) (x1 : Vec F S4096x128 .f32) (x2 : Vec F S4096x128 .f32) (x3 : Vec F S128x4096 .f32) : Vec F S1024x4096 .f32 :=
  VO1_4.read (Elt F) (VO1_4.writes (Elt F) VO1_4.junk (kernelRun1_A c i arg2 harg2 arg3 harg3 arg4 harg4 arg5 harg5 arg6 harg6 hc0 x0 x1 x2 x3).1)

/-- A later step's pieces (the 16 column chunks) tile the output block, so they cover it. -/
theorem cover1_B_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond1_0 i)
    (x0 : Vec F S1024x4096 .bf16) (x1 : Vec F S4096x128 .f32) (x2 : Vec F S4096x128 .f32) (x3 : Vec F S128x4096 .f32) (xo4 : Vec F S1024x4096 .f32) (y : S1024x4096.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1024x256.size (by sl_kernel_rfl) y

/-- What a later step leaves in the output's staging buffer: its pieces read back over junk. -/
def out1_B_4 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond1_0 i)
    (x0 : Vec F S1024x4096 .bf16) (x1 : Vec F S4096x128 .f32) (x2 : Vec F S4096x128 .f32) (x3 : Vec F S128x4096 .f32) (xo4 : Vec F S1024x4096 .f32) : Vec F S1024x4096 .f32 :=
  VO1_4.read (Elt F) (VO1_4.writes (Elt F) VO1_4.junk (kernelRun1_B c i arg2 harg2 arg3 harg3 arg4 harg4 arg5 harg5 arg6 harg6 hc0 x0 x1 x2 x3 xo4).1)

/-! ## What the output block holds after each point -/

/-- The accumulation over the grid: after point `n`, the first-step contents if `n` is the first of its token tile's
    86 steps, else the later-step contents over what point `n - 1` left. -/
def outsAt1 (c : Dev nD) : (n : ℕ) → n < cfg1.N → Vec F S1024x4096 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 86 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- At a first step: that case's contents. -/
theorem outsAt1_A (c : Dev nD) (t : Fin cfg1.N) (h0 : t.val % 86 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At a later step: that case's contents, over what the point before left. -/
theorem outsAt1_B (c : Dev nD) (t : Fin cfg1.N) (h0 : ¬t.val % 86 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt1`; the invariant the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later step the output's staging buffer holds what the body left at the point before: the point is not the
    first, and the buffer is written back only after a token tile's last step. -/
theorem before1_4_B (c : Dev nD) (t : Fin cfg1.N) (h0 : ¬t.val % 86 = 0) (d) :
    (dat1 V c).before 4 t d = (outsAt1 V c (t.val - 1) (Nat.lt_of_le_of_lt (Nat.sub_le _ _) t.isLt)) := by
  have hN : t.val < 172 := lt_of_lt_of_eq t.isLt (show cfg1.N = 172 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed form of the condition says which case the
    point is in; at a later step the output's memref holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 172 := lt_of_lt_of_eq t.isLt (show cfg1.N = 172 from N_1)
  by_cases h0 : t.val % 86 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIRegions.lean ====
/-
  The run of @main: a stretch of host operations (the reshape and the rounding of the hidden states), the two kernel
  regions one after the other, and a last stretch of host operations (four row slices, their concatenation, the
  leading unit axis). The buffers' contents at each boundary are a fold from the launch memory: a host stretch applies
  its operations; a region leaves its inputs as entered and its output array at what the write-backs of its proof data
  compose. Every weakly fair execution terminates and every unscoped buffer ends at the last boundary's contents; the
  argument arrays, which nothing writes, end as launched.
-/
import proofs.«171829_j90975997264556_2_alg».proof.Proof.KIDat0
import proofs.«171829_j90975997264556_2_alg».proof.Proof.KIDat1
import proofs.«171829_j90975997264556_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last host stretch: the contents every execution ends with. -/
abbrev W4 : Dev nD → Valuation τ sig (Elt F) := fun c => StableHlo.after hostOps2 (W3 m c)

/-! ### The arguments end as launched: no host operation writes one, and a region stages one only as an input -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := (W3_arr m c 1).trans (((dat1 (V2 m) c).arrAt_in 1 rfl _).trans (A_eq1 (V2 m) c 1))
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (r := main_arg3) (by decide)
    _ = W2 m c (Proc.devRef .tc main_arg3) := (W3_arr m c 2).trans (((dat1 (V2 m) c).arrAt_in 2 rfl _).trans (A_eq1 (V2 m) c 2))
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (r := main_arg4) (by decide)
    _ = W2 m c (Proc.devRef .tc main_arg4) := (W3_arr m c 3).trans (((dat1 (V2 m) c).arrAt_in 3 rfl _).trans (A_eq1 (V2 m) c 3))
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (r := main_arg5) (by decide)
    _ = W2 m c (Proc.devRef .tc main_arg5) := W3_of_ne m c main_arg5 (by decide)
    _ = W1 m c (Proc.devRef .tc main_arg5) := (W2_arr m c 1).trans (((dat0 (V1 m) c).arrAt_in 1 rfl _).trans (A_eq0 (V1 m) c 1))
    _ = W0 m c (Proc.devRef .tc main_arg5) := StableHlo.after_of_writes_sub hostOps0 _ hostOps0_writes (r := main_arg5) (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (r := main_arg6) (by decide)
    _ = W2 m c (Proc.devRef .tc main_arg6) := W3_of_ne m c main_arg6 (by decide)
    _ = W1 m c (Proc.devRef .tc main_arg6) := (W2_arr m c 2).trans (((dat0 (V1 m) c).arrAt_in 2 rfl _).trans (A_eq0 (V1 m) c 2))
    _ = W0 m c (Proc.devRef .tc main_arg6) := StableHlo.after_of_writes_sub hostOps0 _ hostOps0_writes (r := main_arg6) (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (r := main_arg7) (by decide)
    _ = W2 m c (Proc.devRef .tc main_arg7) := W3_of_ne m c main_arg7 (by decide)
    _ = W1 m c (Proc.devRef .tc main_arg7) := (W2_arr m c 3).trans (((dat0 (V1 m) c).arrAt_in 3 rfl _).trans (A_eq0 (V1 m) c 3))
    _ = W0 m c (Proc.devRef .tc main_arg7) := StableHlo.after_of_writes_sub hostOps0 _ hostOps0_writes (r := main_arg7) (by decide)
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the body's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the body's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => (show iprop(StableHlo.held (c : Thread nD τ) (Pipeline.ucRefs τ sig) (W4 m c) ∗ R c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_main m ρ)

end Cert.KernelIdeal.Fr

end
-- ==== Proof.KITail.lean ====
/-
  The last stretch of host operations, read at an index.

  The two calls leave two [2048, 4096] arrays `A` (the vision expert's rows) and `B` (the language expert's). The host
  then cuts each into its two 1024-row halves, joins the four halves along the rows in the order A-low, B-low, A-high,
  B-high into a [4096, 4096] array, and puts a leading unit axis in front. So row R of the result is
      A's row R for R < 1024,   B's row R − 1024 for 1024 ≤ R < 2048,
      A's row R − 1024 for 2048 ≤ R < 3072,   B's row R − 2048 for 3072 ≤ R.
  These are layout operations only: the lemmas hold for any element type.
-/
import proofs.«171829_j90975997264556_2_alg».proof.Proof.KIRegions
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The host's last operations as one function of the two calls' result arrays. -/
def tail (A B : FVec F S2048x4096 .f32) : FVec F S1x4096x4096 .f32 :=
  broadcastInDim S1x4096x4096 ![1, 2] bcast_S4096x4096_S1x4096x4096_1_2
    (concatenate S4096x4096 0
      [⟨S1024x4096, extractStridedSlice S1024x4096 ![0, 0] A slices_S2048x4096_S1024x4096_0_0⟩,
       ⟨S1024x4096, extractStridedSlice S1024x4096 ![0, 0] B slices_S2048x4096_S1024x4096_0_0⟩,
       ⟨S1024x4096, extractStridedSlice S1024x4096 ![1024, 0] A slices_S2048x4096_S1024x4096_1024_0⟩,
       ⟨S1024x4096, extractStridedSlice S1024x4096 ![1024, 0] B slices_S2048x4096_S1024x4096_1024_0⟩]
      concatenates_S1024x4096_S1024x4096_S1024x4096_S1024x4096_S4096x4096_d0)

/-- The leading unit axis: entry (p, R, d) of the result is entry (R, d) of the operand. -/
theorem lead_apply {α : Type} (x : S4096x4096.Idx → α) (p : Fin 1) (R d : Fin 4096) :
    broadcastInDim S1x4096x4096 ![1, 2] bcast_S4096x4096_S1x4096x4096_1_2 x (ix3 p R d) = x (ix2 R d) :=
  broadcastInDim_apply ![1, 2] _ x (ix3 p R d) (ix2 R d) (fun a => by
    match a with
    | ⟨0, _⟩ => show R.val = if (4096 : Nat) = 1 then 0 else R.val; rw [if_neg (by decide)]
    | ⟨1, _⟩ => show d.val = if (4096 : Nat) = 1 then 0 else d.val; rw [if_neg (by decide)])

/-- The low half: row r of the slice is row r of the array. -/
theorem low_apply {α : Type} (A : S2048x4096.Idx → α) (r : Fin 1024) (d : Fin 4096) :
    extractStridedSlice S1024x4096 ![0, 0] A slices_S2048x4096_S1024x4096_0_0 (ix2 r d) = A (ix2 (⟨r.val, by omega⟩ : Fin 2048) d) :=
  extractStridedSlice_apply ![0, 0] A _ (ix2 r d) _ (fun a => by
    match a with
    | ⟨0, _⟩ => show r.val = 0 + r.val; omega
    | ⟨1, _⟩ => show d.val = 0 + d.val; omega)

/-- The high half: row r of the slice is row 1024 + r of the array. -/
theorem high_apply {α : Type} (A : S2048x4096.Idx → α) (r : Fin 1024) (d : Fin 4096) :
    extractStridedSlice S1024x4096 ![1024, 0] A slices_S2048x4096_S1024x4096_1024_0 (ix2 r d) = A (ix2 (⟨1024 + r.val, by omega⟩ : Fin 2048) d) :=
  extractStridedSlice_apply ![1024, 0] A _ (ix2 r d) _ (fun a => by
    match a with
    | ⟨0, _⟩ => show 1024 + r.val = 1024 + r.val; rfl
    | ⟨1, _⟩ => show d.val = 0 + d.val; omega)

/-- The join of four 1024-row pieces along the rows, at a row of piece 0, reads piece 0. -/
theorem cat0_apply {α : Type} (u0 u1 u2 u3 : S1024x4096.Idx → α) (R d : Fin 4096) (r : Fin 1024) (h : 0 + r.val = R.val) :
    concatenate S4096x4096 0 [⟨S1024x4096, u0⟩, ⟨S1024x4096, u1⟩, ⟨S1024x4096, u2⟩, ⟨S1024x4096, u3⟩]
        concatenates_S1024x4096_S1024x4096_S1024x4096_S1024x4096_S4096x4096_d0 (ix2 R d)
      = u0 (ix2 r d) :=
  concatenate_apply_piece (t := S4096x4096) (0 : Fin 2) _ _ (ix2 R d) 0 (by simp) S1024x4096 u0 rfl rfl 0 rfl (ix2 r d)
    (fun b hb => by
      match b with
      | ⟨0, _⟩ => exact absurd rfl hb
      | ⟨1, _⟩ => rfl)
    (by exact h)

/-- The join of four 1024-row pieces along the rows, at a row of piece 1, reads piece 1 1024 rows up. -/
theorem cat1_apply {α : Type} (u0 u1 u2 u3 : S1024x4096.Idx → α) (R d : Fin 4096) (r : Fin 1024) (h : 1024 + r.val = R.val) :
    concatenate S4096x4096 0 [⟨S1024x4096, u0⟩, ⟨S1024x4096, u1⟩, ⟨S1024x4096, u2⟩, ⟨S1024x4096, u3⟩]
        concatenates_S1024x4096_S1024x4096_S1024x4096_S1024x4096_S4096x4096_d0 (ix2 R d)
      = u1 (ix2 r d) :=
  concatenate_apply_piece (t := S4096x4096) (0 : Fin 2) _ _ (ix2 R d) 1 (by simp) S1024x4096 u1 rfl rfl 1024 rfl (ix2 r d)
    (fun b hb => by
      match b with
      | ⟨0, _⟩ => exact absurd rfl hb
      | ⟨1, _⟩ => rfl)
    (by exact h)

/-- The join of four 1024-row pieces along the rows, at a row of piece 2, reads piece 2 2048 rows up. -/
theorem cat2_apply {α : Type} (u0 u1 u2 u3 : S1024x4096.Idx → α) (R d : Fin 4096) (r : Fin 1024) (h : 2048 + r.val = R.val) :
    concatenate S4096x4096 0 [⟨S1024x4096, u0⟩, ⟨S1024x4096, u1⟩, ⟨S1024x4096, u2⟩, ⟨S1024x4096, u3⟩]
        concatenates_S1024x4096_S1024x4096_S1024x4096_S1024x4096_S4096x4096_d0 (ix2 R d)
      = u2 (ix2 r d) :=
  concatenate_apply_piece (t := S4096x4096) (0 : Fin 2) _ _ (ix2 R d) 2 (by simp) S1024x4096 u2 rfl rfl 2048 rfl (ix2 r d)
    (fun b hb => by
      match b with
      | ⟨0, _⟩ => exact absurd rfl hb
      | ⟨1, _⟩ => rfl)
    (by exact h)

/-- The join of four 1024-row pieces along the rows, at a row of piece 3, reads piece 3 3072 rows up. -/
theorem cat3_apply {α : Type} (u0 u1 u2 u3 : S1024x4096.Idx → α) (R d : Fin 4096) (r : Fin 1024) (h : 3072 + r.val = R.val) :
    concatenate S4096x4096 0 [⟨S1024x4096, u0⟩, ⟨S1024x4096, u1⟩, ⟨S1024x4096, u2⟩, ⟨S1024x4096, u3⟩]
        concatenates_S1024x4096_S1024x4096_S1024x4096_S1024x4096_S4096x4096_d0 (ix2 R d)
      = u3 (ix2 r d) :=
  concatenate_apply_piece (t := S4096x4096) (0 : Fin 2) _ _ (ix2 R d) 3 (by simp) S1024x4096 u3 rfl rfl 3072 rfl (ix2 r d)
    (fun b hb => by
      match b with
      | ⟨0, _⟩ => exact absurd rfl hb
      | ⟨1, _⟩ => rfl)
    (by exact h)

/-- Rows 0–1023 of the result are rows 0–1023 of the first array. -/
theorem tail_apply0 (A B : FVec F S2048x4096 .f32) (p : Fin 1) (R d : Fin 4096) (h : R.val < 1024) :
    tail A B (ix3 p R d) = A (ix2 (⟨R.val, by omega⟩ : Fin 2048) d) := by
  unfold tail
  rw [lead_apply, cat0_apply _ _ _ _ R d ⟨R.val, h⟩ (by show 0 + R.val = R.val; omega), low_apply]

/-- Rows 1024–2047 of the result are rows 0–1023 of the second array. -/
theorem tail_apply1 (A B : FVec F S2048x4096 .f32) (p : Fin 1) (R d : Fin 4096) (h : 1024 ≤ R.val) (h' : R.val < 2048) :
    tail A B (ix3 p R d) = B (ix2 (⟨R.val - 1024, by omega⟩ : Fin 2048) d) := by
  unfold tail
  rw [lead_apply, cat1_apply _ _ _ _ R d ⟨R.val - 1024, by omega⟩ (by show 1024 + (R.val - 1024) = R.val; omega), low_apply]

/-- Rows 2048–3071 of the result are rows 1024–2047 of the first array. -/
theorem tail_apply2 (A B : FVec F S2048x4096 .f32) (p : Fin 1) (R d : Fin 4096) (h : 2048 ≤ R.val) (h' : R.val < 3072) :
    tail A B (ix3 p R d) = A (ix2 (⟨R.val - 1024, by omega⟩ : Fin 2048) d) := by
  unfold tail
  rw [lead_apply, cat2_apply _ _ _ _ R d ⟨R.val - 2048, by omega⟩ (by show 2048 + (R.val - 2048) = R.val; omega), high_apply]
  exact congrArg (fun r => A (ix2 r d)) (Fin.ext (by show 1024 + (R.val - 2048) = R.val - 1024; omega))

/-- Rows 3072–4095 of the result are rows 1024–2047 of the second array. -/
theorem tail_apply3 (A B : FVec F S2048x4096 .f32) (p : Fin 1) (R d : Fin 4096) (h : 3072 ≤ R.val) :
    tail A B (ix3 p R d) = B (ix2 (⟨R.val - 2048, by omega⟩ : Fin 2048) d) := by
  unfold tail
  rw [lead_apply, cat3_apply _ _ _ _ R d ⟨R.val - 3072, by omega⟩ (by show 3072 + (R.val - 3072) = R.val; omega), high_apply]
  exact congrArg (fun r => B (ix2 r d)) (Fin.ext (by show 1024 + (R.val - 3072) = R.val - 2048; omega))

variable (m : (ℓ : Loc nD τ sig) → Buf (Elt F) ℓ)

/-- What the run ends with in the result buffer: the last host operations applied to the two calls' result buffers as the
    second region leaves them. -/
theorem W4_main_v9 (c : Dev nD) :
    W4 m c (Proc.devRef .tc main_v9) = tail (W3 m c (Proc.devRef .tc main_v2)) (W3 m c (Proc.devRef .tc main_v3)) := by
  show StableHlo.after hostOps2 (W3 m c) (Proc.devRef .tc main_v9) = _
  after_results
  rfl

/-- The first call's result buffer at the end of the second region is what the first region's write-backs compose. -/
theorem W3_main_v2 (c : Dev nD) : W3 m c (Proc.devRef .tc main_v2) = (dat0 (V1 m) c).arrAt 4 cfg0.N :=
  (W3_of_ne m c main_v2 (by decide)).trans (W2_arr m c 4)

/-- The second call's result buffer at the end of the second region is what its write-backs compose. -/
theorem W3_main_v3 (c : Dev nD) : W3 m c (Proc.devRef .tc main_v3) = (dat1 (V2 m) c).arrAt 4 cfg1.N :=
  W3_arr m c 4

end Cert.KernelIdeal.Fr

end
-- ==== Proof.Spec.lean ====
/-
  The function both programs compute, on the extended reals.

  A token row `r` of the hidden states `x` (4096 rows of 4096 features) is sent to one of two gated
  feed-forward experts by the 1024-row segment it lies in: even segments (rows 0–1023, 2048–3071) to the
  "vision" weights, odd segments to the "language" weights. An expert with gate and up weights `g`, `u`
  (4096 × 11008) and down weights `dw` (11008 × 4096) maps the row to

      out(r, d) = Σ_f  silu(Σ_c x(r,c)·g(c,f)) · (Σ_c x(r,c)·u(c,f)) · dw(f, d),      silu z = z · logistic z.

  The kernel reaches the sum over `f` in 86 groups of 128 (one grid step each, added into a resident
  output block), the reference in one contraction; both are this one sum, regrouped.
-/
import Idealize.ShloMosaic.PureOps.Ideal
import Idealize.ShloMosaic.Lib.ValueIdx

noncomputable section

open scoped BigOperators

namespace Cert.Mlp

open Idealize.ShloMosaic Idealize.ShloMosaic.ValueIdx

/-- The hidden states' shape, the gate/up weights' shape and the down weights' shape. -/
abbrev SX : Shape := ⟨3, ![1, 4096, 4096]⟩
abbrev SGU : Shape := ⟨2, ![4096, 11008]⟩
abbrev SD : Shape := ⟨2, ![11008, 4096]⟩

/-- The gate pre-activation of row `r` at hidden unit `f`: the row's inner product with column `f` of `g`. -/
def pre (x : SX.Idx → EReal) (g : SGU.Idx → EReal) (r : Fin 4096) (f : Fin 11008) : EReal :=
  ∑ c : Fin 4096, x (ix3 (0 : Fin 1) r c) * g (ix2 c f)

/-- The hidden activation of row `r` at unit `f`: silu of the gate pre-activation times the up projection. -/
def hid (x : SX.Idx → EReal) (g u : SGU.Idx → EReal) (r : Fin 4096) (f : Fin 11008) : EReal :=
  (pre x g r f * Ideal.logistic (pre x g r f)) * pre x u r f

/-- One expert at row `r`, output feature `d`: the hidden activations against column `d` of the down weights. -/
def mlp (x : SX.Idx → EReal) (g u : SGU.Idx → EReal) (dw : SD.Idx → EReal) (r d : Fin 4096) : EReal :=
  ∑ f : Fin 11008, hid x g u r f * dw (ix2 f d)

/-- The whole result: rows of even 1024-row segments through the vision expert (`vg vu vd`), rows of odd
    segments through the language expert (`lg lu ld`). -/
def G (x : SX.Idx → EReal) (lg lu : SGU.Idx → EReal) (ld : SD.Idx → EReal) (vg vu : SGU.Idx → EReal) (vd : SD.Idx → EReal) :
    SX.Idx → EReal := fun j =>
  if (j 1).val / 1024 % 2 = 0 then mlp x vg vu vd (j 1) (j 2) else mlp x lg lu ld (j 1) (j 2)

end Cert.Mlp

end
-- ==== Proof.KIValBase.lean ====
/-
  The kernel side's vocabulary on the extended reals: the argument arrays of one core as functions on the
  specification's index sets, token rows and hidden units named by plain numbers (reduced into range, so that no
  statement carries a bound), one group of 128 hidden units' contribution to an output entry, and the two calls'
  result arrays. Call 0 (the "vision" weights) computes token rows 0–1023 and 2048–3071 into rows 0–2047 of its
  result; call 1 (the "language" weights) rows 1024–2047 and 3072–4095 into its own: row `r` of a result is token
  row `2048 · (r / 1024) + r % 1024`, plus 1024 for call 1.
-/
import proofs.«171829_j90975997264556_2_alg».proof.Proof.Spec
import proofs.«171829_j90975997264556_2_alg».proof.Proof.KIRegions

noncomputable section

open scoped BigOperators

namespace Cert.KernelIdeal.Fr

open Cert.KernelIdeal Cert.KernelIdeal.Gen Cert.Mlp
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The hidden states and the six weight arrays of core `c` at launch. -/
abbrev aX : SX.Idx → EReal := m ((c.tc : Thread nD τ).loc main_arg0)
abbrev aLG : SGU.Idx → EReal := m ((c.tc : Thread nD τ).loc main_arg2)
abbrev aLU : SGU.Idx → EReal := m ((c.tc : Thread nD τ).loc main_arg3)
abbrev aLD : SD.Idx → EReal := m ((c.tc : Thread nD τ).loc main_arg4)
abbrev aVG : SGU.Idx → EReal := m ((c.tc : Thread nD τ).loc main_arg5)
abbrev aVU : SGU.Idx → EReal := m ((c.tc : Thread nD τ).loc main_arg6)
abbrev aVD : SD.Idx → EReal := m ((c.tc : Thread nD τ).loc main_arg7)

/-- A token row and a hidden unit named by a number, reduced into range. -/
def rowOf (n : ℕ) : Fin 4096 := ⟨n % 4096, Nat.mod_lt _ (by norm_num)⟩
def unitOf (n : ℕ) : Fin 11008 := ⟨n % 11008, Nat.mod_lt _ (by norm_num)⟩

theorem rowOf_val {n : ℕ} (h : n < 4096) : (rowOf n).val = n := Nat.mod_eq_of_lt h
theorem unitOf_val {n : ℕ} (h : n < 11008) : (unitOf n).val = n := Nat.mod_eq_of_lt h

/-- Group `f`'s contribution to token row `row`, output column `d`: its 128 hidden activations against the down
    weights. -/
def grp (x : SX.Idx → EReal) (g u : SGU.Idx → EReal) (dw : SD.Idx → EReal) (row : ℕ) (d : Fin 4096) (f : ℕ) : EReal :=
  ∑ k : Fin 128, hid x g u (rowOf row) (unitOf (128 * f + k.val)) * dw (ix2 (unitOf (128 * f + k.val)) d)

/-- Call 0's result array: row `r` is token row `2048 · (r / 1024) + r % 1024` through the vision expert. -/
def Gv2 : S2048x4096.Idx → EReal := fun i =>
  mlp (aX m c) (aVG m c) (aVU m c) (aVD m c) (rowOf (2048 * ((i 0).val / 1024) + (i 0).val % 1024)) (i 1)

/-- Call 1's result array: row `r` is token row `2048 · (r / 1024) + 1024 + r % 1024` through the language expert. -/
def Gv3 : S2048x4096.Idx → EReal := fun i =>
  mlp (aX m c) (aLG m c) (aLU m c) (aLD m c) (rowOf (2048 * ((i 0).val / 1024) + 1024 + (i 0).val % 1024)) (i 1)

end Cert.KernelIdeal.Fr

end
-- ==== Proof.KIFinal.lean ====
/-
  The kernel computes the specification, given its two calls' result arrays.

  Call 0 leaves the vision expert's rows, call 1 the language expert's: row ρ of call 0's array is token row
  2048·(ρ / 1024) + ρ % 1024, row ρ of call 1's is that plus 1024. The last host operations interleave the arrays' 1024-row
  halves, so row R of the final result is: call 0's row R (token row R) for R < 1024; call 1's row R − 1024 (token row R) for
  1024 ≤ R < 2048; call 0's row R − 1024 (token row 2048 + (R − 2048) = R) for 2048 ≤ R < 3072; call 1's row R − 2048 (token
  row 2048 + 1024 + (R − 3072) = R) for 3072 ≤ R. In every case it is the expert the specification `G` picks by the parity
  of R / 1024, at token row R.
-/
import proofs.«171829_j90975997264556_2_alg».proof.Proof.KITail
import proofs.«171829_j90975997264556_2_alg».proof.Proof.KIValBase

noncomputable section

open scoped BigOperators

namespace Cert.KernelIdeal.Fr

open Cert.KernelIdeal Cert.KernelIdeal.Gen Cert.Mlp
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- In an even 1024-row segment the specification is the vision expert. -/
theorem G_even (x : SX.Idx → EReal) (lg lu : SGU.Idx → EReal) (ld : SD.Idx → EReal) (vg vu : SGU.Idx → EReal)
    (vd : SD.Idx → EReal) (p : Fin 1) (R d : Fin 4096) (h : R.val / 1024 % 2 = 0) :
    G x lg lu ld vg vu vd (ix3 p R d) = mlp x vg vu vd R d :=
  if_pos h

/-- In an odd 1024-row segment the specification is the language expert. -/
theorem G_odd (x : SX.Idx → EReal) (lg lu : SGU.Idx → EReal) (ld : SD.Idx → EReal) (vg vu : SGU.Idx → EReal)
    (vd : SD.Idx → EReal) (p : Fin 1) (R d : Fin 4096) (h : R.val / 1024 % 2 = 1) :
    G x lg lu ld vg vu vd (ix3 p R d) = mlp x lg lu ld R d :=
  if_neg (by show ¬(R.val / 1024 % 2 = 0); omega)

/-- Row ρ of call 0's result array is the vision expert at the token row it stands for. -/
theorem Gv2_apply (r : Fin 2048) (d R : Fin 4096) (h : 2048 * (r.val / 1024) + r.val % 1024 = R.val) :
    Gv2 m c (ix2 r d) = mlp (aX m c) (aVG m c) (aVU m c) (aVD m c) R d := by
  have e : rowOf (2048 * (r.val / 1024) + r.val % 1024) = R := Fin.ext ((rowOf_val (by omega)).trans h)
  show mlp (aX m c) (aVG m c) (aVU m c) (aVD m c) (rowOf (2048 * (r.val / 1024) + r.val % 1024)) d = _
  rw [e]

/-- Row ρ of call 1's result array is the language expert at the token row it stands for. -/
theorem Gv3_apply (r : Fin 2048) (d R : Fin 4096) (h : 2048 * (r.val / 1024) + 1024 + r.val % 1024 = R.val) :
    Gv3 m c (ix2 r d) = mlp (aX m c) (aLG m c) (aLU m c) (aLD m c) R d := by
  have e : rowOf (2048 * (r.val / 1024) + 1024 + r.val % 1024) = R := Fin.ext ((rowOf_val (by omega)).trans h)
  show mlp (aX m c) (aLG m c) (aLU m c) (aLD m c) (rowOf (2048 * (r.val / 1024) + 1024 + r.val % 1024)) d = _
  rw [e]

/-- The interleaving of the two calls' result arrays is the specification. -/
theorem tail_G : tail (F := Ideal) (Gv2 m c) (Gv3 m c) = G (aX m c) (aLG m c) (aLU m c) (aLD m c) (aVG m c) (aVU m c) (aVD m c) := by
  funext j
  obtain ⟨p, R, d, rfl⟩ : ∃ (p : Fin 1) (R : Fin 4096) (d : Fin 4096), j = ix3 p R d := ⟨j 0, j 1, j 2, eq_ix3 j⟩
  have hR : R.val < 4096 := R.isLt
  rcases (by omega : R.val / 1024 = 0 ∨ R.val / 1024 = 1 ∨ R.val / 1024 = 2 ∨ R.val / 1024 = 3) with h | h | h | h
  · rw [tail_apply0 _ _ p R d (by omega), G_even _ _ _ _ _ _ _ p R d (by omega)]
    exact Gv2_apply m c _ d R (by show 2048 * (R.val / 1024) + R.val % 1024 = R.val; omega)
  · rw [tail_apply1 _ _ p R d (by omega) (by omega), G_odd _ _ _ _ _ _ _ p R d (by omega)]
    exact Gv3_apply m c _ d R (by show 2048 * ((R.val - 1024) / 1024) + 1024 + (R.val - 1024) % 1024 = R.val; omega)
  · rw [tail_apply2 _ _ p R d (by omega) (by omega), G_even _ _ _ _ _ _ _ p R d (by omega)]
    exact Gv2_apply m c _ d R (by show 2048 * ((R.val - 1024) / 1024) + (R.val - 1024) % 1024 = R.val; omega)
  · rw [tail_apply3 _ _ p R d (by omega), G_odd _ _ _ _ _ _ _ p R d (by omega)]
    exact Gv3_apply m c _ d R (by show 2048 * ((R.val - 2048) / 1024) + 1024 + (R.val - 2048) % 1024 = R.val; omega)

/-- The result buffer at the end of the run is the specification of the arguments as launched, given what the two calls'
    write-backs compose. -/
theorem kernel_value (h0 : (dat0 (V1 m) c).arrAt 4 cfg0.N = Gv2 m c) (h1 : (dat1 (V2 m) c).arrAt 4 cfg1.N = Gv3 m c) :
    W4 m c (Proc.devRef .tc main_v9) = G (aX m c) (aLG m c) (aLU m c) (aLD m c) (aVG m c) (aVU m c) (aVD m c) := by
  rw [W4_main_v9, W3_main_v2, W3_main_v3, h0, h1]
  exact tail_G m c

/-- Every execution of the kernel's program ends with its result at the specification of the arguments as launched, and
    the arguments unchanged. -/
theorem kernel_run (hfin0 : ∀ c, (dat0 (V1 m) c).arrAt 4 cfg0.N = Gv2 m c) (hfin1 : ∀ c, (dat1 (V2 m) c).arrAt 4 cfg1.N = Gv3 m c) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v9) = G (aX m c) (aLG m c) (aLU m c) (aLD m c) (aVG m c) (aVU m c) (aVD m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run defs _ _).mono (fun _ h c =>
    ⟨(h c _ (mem_uc main_v9 (by decide))).trans (kernel_value m c (hfin0 c) (hfin1 c)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_main m ρ)

end Cert.KernelIdeal.Fr

end
-- ==== Proof.KIOut0.lean ====
/-
  What the kernel body's loop over the 16 column chunks of the output block leaves there, as ONE function of the
  blocks it reads: `loopOut0`. Trip `k` stores, through columns `[256 k, 256 k + 256)` of the output block, its payload
  of chunk `k` of the down-projection block and of chunk `k` of what it finds in the output block; it neither reads nor
  writes another chunk, so by induction on the trips every chunk it reads still holds the contents at loop entry, and
  the block ends holding, at each index, the payload of that index's chunk of the entry contents. Read back over
  the body's whole run this gives the two cases of the body: at a later step the entry contents are what the step
  before left, at the first step what the zero-fill stored.
-/
import proofs.«171829_j90975997264556_2_alg».proof.Proof.KIDat0
import Idealize.ShloMosaic.Lib.WritesUnit
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The loop over the output block's column chunks makes 16 trips. -/
theorem trips0 : k0_t1_loop.trips = 16 := by decide

/-- The column chunk (the trip) an index of the output block lies in: its column divided by 256. -/
def chunk0 (y : S1024x4096.Idx) : Fin k0_t1_loop.trips :=
  ⟨(y 1).val / 256, (by have h : (y 1).val < 4096 := (y 1).isLt; omega : (y 1).val / 256 < 16).trans_eq trips0.symm⟩

/-- The position of an index of the output block inside its column chunk: its row, and its column modulo 256. -/
def local0 (y : S1024x4096.Idx) : S1024x256.Idx := fun a =>
  match a with
  | ⟨0, _⟩ => ⟨(y 0).val, (y 0).isLt⟩
  | ⟨1, _⟩ => ⟨(y 1).val % 256, Nat.mod_lt _ (by decide)⟩

/-- What the 16 trips leave in the output block, index by index, as a function of the three blocks loaded before the
    loop (`v3 v5 v7`), of the block `d` the loop reads chunk by chunk, and of what the output block held at loop entry
    (`a`): at an index of column chunk `k`, the trip's payload of chunk `k` of `d` and chunk `k` of `a`, at the index's
    position inside the chunk. No trip reads a column another trip writes, so each chunk of `a` is the entry contents. -/
def loopOut0 (v3 : Vec F S1024x4096 .bf16) (v5 v7 : Vec F S4096x128 .f32) (d : S128x4096.Idx → Elt F .f32)
    (a : S1024x4096.Idx → Elt F .f32) : S1024x4096.Idx → Elt F .f32 :=
  fun y => k0_pay2 v3 v5 v7
    (View.ld d (Rect.unit (s := S128x4096) (k0_off1 (chunk0 y)) S128x256.size (k0_off1_inb (chunk0 y))))
    (View.ld a (Rect.unit (s := S1024x4096) (k0_off2 (chunk0 y)) S1024x256.size (k0_off2_inb (chunk0 y))))
    (local0 y)

/-- The same, the chunk named by the caller. -/
theorem loopOut0_chunk (v3 : Vec F S1024x4096 .bf16) (v5 v7 : Vec F S4096x128 .f32) (d : S128x4096.Idx → Elt F .f32)
    (a : S1024x4096.Idx → Elt F .f32) (y : S1024x4096.Idx) (k : Fin k0_t1_loop.trips) (hk : (y 1).val / 256 = k.val) :
    loopOut0 v3 v5 v7 d a y = k0_pay2 v3 v5 v7
      (View.ld d (Rect.unit (s := S128x4096) (k0_off1 k) S128x256.size (k0_off1_inb k)))
      (View.ld a (Rect.unit (s := S1024x4096) (k0_off2 k) S1024x256.size (k0_off2_inb k)))
      (local0 y) := by
  obtain rfl : chunk0 y = k := Fin.ext hk
  rfl

/-- One trip's pieces: one store, through the trip's column chunk of the output block, of the trip's payload of the
    chunk of `arg5`'s contents and of the chunk of the contents the trip finds in the output block. -/
theorem tripL_eq0 (𝒱 : Variants) (c : Dev nD) (bd : Option 𝒱.V) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (v3 : Vec F S1024x4096 .bf16) (v5 : Vec F S4096x128 .f32) (v7 : Vec F S4096x128 .f32)
    (X : BufTy.Contents (Elt F) arg5.view.ty) (k : Fin k0_t1_loop.trips) (f : BufTy.Contents (Elt F) arg6.view.ty) :
    tripL_k0_t1 (F := F) 𝒱 c bd i arg2 harg2 arg3 harg3 arg4 harg4 arg5 harg5 arg6 harg6 v3 v5 v7 X k f
      = [(⟨Rect.unit (s := S1024x4096) (k0_off2 k) S1024x256.size (k0_off2_inb k),
          k0_pay2 v3 v5 v7
            (View.ld (arg5.view.read (Elt F) X) (Rect.unit (s := S128x4096) (k0_off1 k) S128x256.size (k0_off1_inb k)))
            (View.ld (arg6.view.read (Elt F) f) (Rect.unit (s := S1024x4096) (k0_off2 k) S1024x256.size (k0_off2_inb k)))⟩
          : View.Piece (Elt F) S1024x4096 .f32)] := by
  unfold tripL_k0_t1 trip_k0_t1
  rfl

/-- After the first `n` trips: the columns below `256 n` hold the loop's function of the entry contents, the others
    the entry contents (trip `n` writes column chunk `n` alone, and reads of the output block only that chunk, which no
    earlier trip wrote). -/
theorem pb_read0_upto (𝒱 : Variants) (c : Dev nD) (bd : Option 𝒱.V) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (v3 : Vec F S1024x4096 .bf16) (v5 : Vec F S4096x128 .f32) (v7 : Vec F S4096x128 .f32)
    (X : BufTy.Contents (Elt F) arg5.view.ty) (G : BufTy.Contents (Elt F) arg6.view.ty) :
    ∀ (n : ℕ), n ≤ 16 → ∀ y : S1024x4096.Idx,
      arg6.view.read (Elt F) (arg6.view.writes (Elt F) G (pb_k0_t1 (F := F) 𝒱 c bd i arg2 harg2 arg3 harg3 arg4 harg4 arg5 harg5 arg6 harg6 v3 v5 v7 X G n)) y
        = if (y 1).val < 256 * n then loopOut0 v3 v5 v7 (arg5.view.read (Elt F) X) (arg6.view.read (Elt F) G) y
          else arg6.view.read (Elt F) G y := by
  intro n
  induction n with
  | zero =>
    intro _ y
    rw [if_neg (by omega)]
    rfl
  | succ n ih =>
    intro hn y
    have hlt : n < k0_t1_loop.trips := by rw [trips0]; omega
    have hs : pb_k0_t1 (F := F) 𝒱 c bd i arg2 harg2 arg3 harg3 arg4 harg4 arg5 harg5 arg6 harg6 v3 v5 v7 X G (n + 1)
        = tripL_k0_t1 (F := F) 𝒱 c bd i arg2 harg2 arg3 harg3 arg4 harg4 arg5 harg5 arg6 harg6 v3 v5 v7 X ⟨n, hlt⟩ (arg6.view.writes (Elt F) G (pb_k0_t1 (F := F) 𝒱 c bd i arg2 harg2 arg3 harg3 arg4 harg4 arg5 harg5 arg6 harg6 v3 v5 v7 X G n))
          ++ pb_k0_t1 (F := F) 𝒱 c bd i arg2 harg2 arg3 harg3 arg4 harg4 arg5 harg5 arg6 harg6 v3 v5 v7 X G n :=
      pb_k0_t1_succ (F := F) 𝒱 c bd i arg2 harg2 arg3 harg3 arg4 harg4 arg5 harg5 arg6 harg6 v3 v5 v7 X G ⟨n, hlt⟩
    rw [hs, tripL_eq0, List.singleton_append]
    have hoff : k0_off2 ⟨n, hlt⟩ = ![0, 256 * n] := k0_off2_eq ⟨n, hlt⟩
    by_cases hy : (y 1).val / 256 = n
    · -- under the new piece: the trip's payload, whose load of the output chunk reads the entry contents
      have hx : ∀ a : Fin 2, (y a).val = (![0, 256 * n] : Fin 2 → ℕ) a + (local0 y a).val :=
        Fin.forall_fin_two.mpr ⟨by show (y 0).val = 0 + (y 0).val; omega,
          by show (y 1).val = 256 * n + (y 1).val % 256; omega⟩
      rw [View.read_writes_cons_unit_of_mem arg6.view G (k0_off2_inb ⟨n, hlt⟩) _ _ y (local0 y) hoff hx,
        if_pos (by omega), loopOut0_chunk v3 v5 v7 _ _ y ⟨n, hlt⟩ hy]
      have hld : View.ld (arg6.view.read (Elt F) (arg6.view.writes (Elt F) G (pb_k0_t1 (F := F) 𝒱 c bd i arg2 harg2 arg3 harg3 arg4 harg4 arg5 harg5 arg6 harg6 v3 v5 v7 X G n)))
            (Rect.unit (s := S1024x4096) (k0_off2 ⟨n, hlt⟩) S1024x256.size (k0_off2_inb ⟨n, hlt⟩))
          = View.ld (arg6.view.read (Elt F) G)
            (Rect.unit (s := S1024x4096) (k0_off2 ⟨n, hlt⟩) S1024x256.size (k0_off2_inb ⟨n, hlt⟩)) := by
        funext x
        show arg6.view.read (Elt F) (arg6.view.writes (Elt F) G (pb_k0_t1 (F := F) 𝒱 c bd i arg2 harg2 arg3 harg3 arg4 harg4 arg5 harg5 arg6 harg6 v3 v5 v7 X G n)) _
          = arg6.view.read (Elt F) G _
        rw [ih (by omega), if_neg]
        show ¬ (k0_off2 ⟨n, hlt⟩ 1 + 1 * (x 1).val < 256 * n)
        rw [congrFun hoff 1]
        show ¬ (256 * n + 1 * (x 1).val < 256 * n)
        omega
      rw [hld]
    · -- off the new piece (another column chunk): what the earlier trips left
      rw [View.read_writes_cons_unit_of_not_mem arg6.view G (k0_off2_inb ⟨n, hlt⟩) _ _ y hoff (1 : Fin 2)
        (by show (y 1).val < 256 * n ∨ 256 * n + 256 ≤ (y 1).val; omega), ih (by omega) y]
      by_cases h1 : (y 1).val < 256 * n
      · rw [if_pos h1, if_pos (by omega)]
      · rw [if_neg h1, if_neg (by omega)]

/-- What the loop leaves in the output block, read back: the loop's function of `arg5`'s contents and of the
    output block's contents at loop entry. -/
theorem pb_read0 (𝒱 : Variants) (c : Dev nD) (bd : Option 𝒱.V) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (v3 : Vec F S1024x4096 .bf16) (v5 : Vec F S4096x128 .f32) (v7 : Vec F S4096x128 .f32)
    (X : BufTy.Contents (Elt F) arg5.view.ty) (G : BufTy.Contents (Elt F) arg6.view.ty) :
    arg6.view.read (Elt F) (arg6.view.writes (Elt F) G (pb_k0_t1 (F := F) 𝒱 c bd i arg2 harg2 arg3 harg3 arg4 harg4 arg5 harg5 arg6 harg6 v3 v5 v7 X G k0_t1_loop.trips))
      = loopOut0 v3 v5 v7 (arg5.view.read (Elt F) X) (arg6.view.read (Elt F) G) := by
  funext y
  rw [trips0, pb_read0_upto 𝒱 c bd i arg2 harg2 arg3 harg3 arg4 harg4 arg5 harg5 arg6 harg6 v3 v5 v7 X G 16 (Nat.le_refl _) y, if_pos]
  have h : (y 1).val < 4096 := (y 1).isLt
  omega

theorem hz2 : (![0, 0] : Fin 2 → Nat) = fun _ => 0 := funext fun a => by fin_cases a <;> rfl

/-- A later step (the output block holding `xo4` at entry): the body's stores, read back, are the loop's function
    of the four input blocks and of `xo4`. The pieces cover the block, so their read-back does not depend on the view or
    on the prior contents; read through the body's own output memref over `xo4` they are the loop's writes; the three
    loads before the loop read whole blocks. -/
theorem out0_B_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond0_0 i)
    (x0 : Vec F S1024x4096 .bf16) (x1 : Vec F S4096x128 .f32) (x2 : Vec F S4096x128 .f32) (x3 : Vec F S128x4096 .f32) (xo4 : Vec F S1024x4096 .f32) :
    out0_B_4 c i arg2 harg2 arg3 harg3 arg4 harg4 arg5 harg5 arg6 harg6 hc0 x0 x1 x2 x3 xo4 = loopOut0 x0 x1 x2 x3 xo4 := by
  unfold out0_B_4
  rw [View.read_writes_of_cover VO0_4 VO0_4.junk arg6.view (harg6.unread xo4) _ (cover0_B_4 c i arg2 harg2 arg3 harg3 arg4 harg4 arg5 harg5 arg6 harg6 hc0 x0 x1 x2 x3 xo4)]
  unfold kernelRun0_B
  dsimp only
  rw [pb_read0]
  simp only [View.readAt_eq_ld, harg2.read_unread, harg3.read_unread, harg4.read_unread, harg5.read_unread, harg6.read_unread,
    View.ld_unit_zero (S := S1024x4096) hz2, View.ld_unit_zero (S := S4096x128) hz2]

/-- The first step: the zero-fill's one store covers the block, so the loop finds the fill's payload there. -/
theorem out0_A_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond0_0 i)
    (x0 : Vec F S1024x4096 .bf16) (x1 : Vec F S4096x128 .f32) (x2 : Vec F S4096x128 .f32) (x3 : Vec F S128x4096 .f32) :
    out0_A_4 c i arg2 harg2 arg3 harg3 arg4 harg4 arg5 harg5 arg6 harg6 hc0 x0 x1 x2 x3 = loopOut0 x0 x1 x2 x3 (k0_pay1 (F := F)) := by
  unfold out0_A_4
  rw [View.read_writes_of_cover VO0_4 VO0_4.junk arg6.view arg6.view.junk _ (cover0_A_4 c i arg2 harg2 arg3 harg3 arg4 harg4 arg5 harg5 arg6 harg6 hc0 x0 x1 x2 x3)]
  unfold kernelRun0_A
  dsimp only
  sl_unfold_words
  have hcov : ∀ y : S1024x4096.Idx, ∃ p ∈ [(⟨Rect.unit (s := S1024x4096) ![0, 0] S1024x4096.size
        inb_S1024x4096_S1024x4096_0_0, k0_pay1 (F := F)⟩ : View.Piece (Elt F) S1024x4096 .f32)], y ∈ p.1.set :=
    fun y => ⟨_, List.mem_singleton_self _,
      View.mem_set_unit_zero (S := S1024x4096) hz2 inb_S1024x4096_S1024x4096_0_0 y⟩
  rw [View.writes_append, pb_read0, View.read_writes_eq_canon arg6.view arg6.view.junk _ hcov,
    View.canon_unit_zero (S := S1024x4096) hz2]
  simp only [View.readAt_eq_ld, harg2.read_unread, harg3.read_unread, harg4.read_unread, harg5.read_unread,
    View.ld_unit_zero (S := S1024x4096) hz2, View.ld_unit_zero (S := S4096x128) hz2]

end Cert.KernelIdeal.Fr

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.PayDot.lean ====
/-
  The two matrix products of one accumulation step, read at an entry, on the extended reals.

  A 1024 x 4096 block times a 4096 x 128 block, started from the all-zero 1024 x 128 block, has at entry (p, k) the
  sum over c < 4096 of a (p, c) * b (c, k); a 1024 x 128 block times a 128 x 256 block, started from the all-zero
  1024 x 256 block, has at entry (p, q) the sum over k < 128 of h (p, k) * w (k, q). Both are the plain product of
  two matrices: no batch axes, the left operand contracts its columns and the right operand its rows.
-/
import proofs.«171829_j90975997264556_2_alg».proof.Proof.Gen.KernelIdeal.Skeleton
import proofs.«171829_j90975997264556_2_alg».proof.Proof.LibPlainDot
import Idealize.ShloMosaic.Lib.ValueIdx
import Idealize.ShloMosaic.PureOps.Ideal.Laws

noncomputable section

open scoped BigOperators

namespace Cert.PayMath

open Idealize.ShloMosaic Idealize.ShloMosaic.ValueIdx Cert.KernelIdeal

/-- Entry (p, k) of the 1024 x 4096 by 4096 x 128 product started from zero. -/
theorem dotIn_apply {φ₁ φ₂ : FTy} (a : FVec Ideal S1024x4096 φ₁) (b : FVec Ideal S4096x128 φ₂) (p : Fin 1024) (k : Fin 128) :
    matmul dot_S1024x4096_S4096x128_S1024x128_1_0_0_1_n_n none a b (constant S1024x128 .f32 0x00000000#32) (ix2 p k)
      = ∑ c : Fin 4096, a (ix2 p c) * b (ix2 c k) :=
  PlainDot.matmul_zero_apply dot_S1024x4096_S4096x128_S1024x128_1_0_0_1_n_n rfl rfl rfl rfl rfl rfl rfl rfl none a b p k

/-- Entry (p, q) of the 1024 x 128 by 128 x 256 product started from zero. -/
theorem dotOut_apply {φ₁ φ₂ : FTy} (h : FVec Ideal S1024x128 φ₁) (w : FVec Ideal S128x256 φ₂) (p : Fin 1024) (q : Fin 256) :
    matmul dot_S1024x128_S128x256_S1024x256_1_0_0_1_n_n none h w (constant S1024x256 .f32 0x00000000#32) (ix2 p q)
      = ∑ k : Fin 128, h (ix2 p k) * w (ix2 k q) :=
  PlainDot.matmul_zero_apply dot_S1024x128_S128x256_S1024x256_1_0_0_1_n_n rfl rfl rfl rfl rfl rfl rfl rfl none h w p q

end Cert.PayMath

end
-- ==== Proof.PayTrip.lean ====
/-
  What one accumulation step stores, entry by entry, on the extended reals.

  With x the 1024 x 4096 block of token rows, g and u the 4096 x 128 columns of the gate and up weights of one group
  of 128 hidden units, w a 128 x 256 slice of that group's down rows and acc the 1024 x 256 chunk of the output block
  as the step finds it, the step stores

      acc (p, q) + sum over k < 128 of  ((x.g)(p,k) * logistic ((x.g)(p,k))) * (x.u)(p,k) * w (k, q),

  where (x.g)(p,k) = sum over c < 4096 of x (p,c) * g (c,k). On the extended reals a narrowing of the number format
  is the identity, a product into the all-zero block is the bare sum, and a reshaping to the same shape is the
  identity, so the stored value is read off the operations one at a time.
-/
import proofs.«171829_j90975997264556_2_alg».proof.Proof.PayDot
import Idealize.ShloMosaic.Lib.Pipeline.Value

noncomputable section

open scoped BigOperators

namespace Cert.PayMath

open Idealize.ShloMosaic Idealize.ShloMosaic.ValueIdx Cert.KernelIdeal

/-- The rows against 128 weight columns: the product into the all-zero block, the weights narrowed first. -/
def proj (a : FVec Ideal S1024x4096 .bf16) (b : FVec Ideal S4096x128 .f32) : FVec Ideal S1024x128 .f32 :=
  matmul dot_S1024x4096_S4096x128_S1024x128_1_0_0_1_n_n none a (truncf .bf16 b Gen.bitsLt_bf16_f32) (constant S1024x128 .f32 0x00000000#32)

/-- The hidden activations of one group: silu of the gate projection times the up projection. -/
def hidBlock (a : FVec Ideal S1024x4096 .bf16) (b c : FVec Ideal S4096x128 .f32) : FVec Ideal S1024x128 .f32 :=
  mulf (mulf (proj a b) (logistic (proj a b))) (proj a c)

/-- The chunk one step stores: the chunk found plus the hidden activations against the down slice. -/
def tripBlock (a : FVec Ideal S1024x4096 .bf16) (b c : FVec Ideal S4096x128 .f32) (w : FVec Ideal S128x256 .f32)
    (acc : FVec Ideal S1024x256 .f32) : FVec Ideal S1024x256 .f32 :=
  addf acc (matmul dot_S1024x128_S128x256_S1024x256_1_0_0_1_n_n none (truncf .bf16 (hidBlock a b c) Gen.bitsLt_bf16_f32)
    (truncf .bf16 w Gen.bitsLt_bf16_f32) (constant S1024x256 .f32 0x00000000#32))

/-- A projection at entry (p, k): the row's inner product with column k. -/
theorem proj_apply (a : FVec Ideal S1024x4096 .bf16) (b : FVec Ideal S4096x128 .f32) (p : Fin 1024) (k : Fin 128) :
    proj a b (ix2 p k) = ∑ c : Fin 4096, a (ix2 p c) * b (ix2 c k) :=
  dotIn_apply a (truncf .bf16 b Gen.bitsLt_bf16_f32) p k

/-- A hidden activation at entry (p, k). -/
theorem hidBlock_apply (a : FVec Ideal S1024x4096 .bf16) (b c : FVec Ideal S4096x128 .f32) (p : Fin 1024) (k : Fin 128) :
    hidBlock a b c (ix2 p k)
      = ((∑ c' : Fin 4096, a (ix2 p c') * b (ix2 c' k)) * Ideal.logistic (∑ c' : Fin 4096, a (ix2 p c') * b (ix2 c' k)))
          * (∑ c' : Fin 4096, a (ix2 p c') * c (ix2 c' k)) :=
  congrArg₂ (fun s t : EReal => (s * Ideal.logistic s) * t) (proj_apply a b p k) (proj_apply a c p k)

/-- The stored chunk at entry (p, q). -/
theorem tripBlock_apply (a : FVec Ideal S1024x4096 .bf16) (b c : FVec Ideal S4096x128 .f32) (w : FVec Ideal S128x256 .f32)
    (acc : FVec Ideal S1024x256 .f32) (p : Fin 1024) (q : Fin 256) :
    tripBlock a b c w acc (ix2 p q)
      = acc (ix2 p q) + ∑ k : Fin 128,
          (((∑ c' : Fin 4096, a (ix2 p c') * b (ix2 c' k)) * Ideal.logistic (∑ c' : Fin 4096, a (ix2 p c') * b (ix2 c' k)))
            * (∑ c' : Fin 4096, a (ix2 p c') * c (ix2 c' k))) * w (ix2 k q) :=
  congrArg (fun z : EReal => acc (ix2 p q) + z)
    ((dotOut_apply (truncf .bf16 (hidBlock a b c) Gen.bitsLt_bf16_f32) (truncf .bf16 w Gen.bitsLt_bf16_f32) p q).trans
      (Finset.sum_congr rfl fun k _ => congrArg (fun z : EReal => z * w (ix2 k q)) (hidBlock_apply a b c p k)))

/-- The first call's stored chunk is the step's chunk of its loads, the two reshapings to the same shape still in place. -/
theorem k0_pay2_eq (v3 : Vec Ideal S1024x4096 .bf16) (v5 v7 : Vec Ideal S4096x128 .f32) (v19 : Vec Ideal S128x256 .f32)
    (v23 : Vec Ideal S1024x256 .f32) :
    Gen.k0_pay2 v3 v5 v7 v19 v23
      = tripBlock (shapeCast S1024x4096 v3 Gen.shapeCasts_S1024x4096_S1024x4096) v5 v7 v19
          (shapeCast S1024x256 v23 Gen.shapeCasts_S1024x256_S1024x256) := rfl

/-- The second call's stored chunk, likewise. -/
theorem k1_pay2_eq (v3 : Vec Ideal S1024x4096 .bf16) (v5 v7 : Vec Ideal S4096x128 .f32) (v19 : Vec Ideal S128x256 .f32)
    (v23 : Vec Ideal S1024x256 .f32) :
    Gen.k1_pay2 v3 v5 v7 v19 v23
      = tripBlock (shapeCast S1024x4096 v3 Gen.shapeCasts_S1024x4096_S1024x4096) v5 v7 v19
          (shapeCast S1024x256 v23 Gen.shapeCasts_S1024x256_S1024x256) := rfl

/-- The step's chunk with the reshapings removed, at entry (p, q). -/
theorem tripBlock_shapeCast_apply (v3 : Vec Ideal S1024x4096 .bf16) (v5 v7 : Vec Ideal S4096x128 .f32) (v19 : Vec Ideal S128x256 .f32)
    (v23 : Vec Ideal S1024x256 .f32) (p : Fin 1024) (q : Fin 256) :
    tripBlock (shapeCast S1024x4096 v3 Gen.shapeCasts_S1024x4096_S1024x4096) v5 v7 v19
        (shapeCast S1024x256 v23 Gen.shapeCasts_S1024x256_S1024x256) (ix2 p q)
      = v23 (ix2 p q) + ∑ k : Fin 128,
          (((∑ c : Fin 4096, v3 (ix2 p c) * v5 (ix2 c k)) * Ideal.logistic (∑ c : Fin 4096, v3 (ix2 p c) * v5 (ix2 c k)))
            * (∑ c : Fin 4096, v3 (ix2 p c) * v7 (ix2 c k))) * v19 (ix2 k q) := by
  rw [shapeCast_self v3, shapeCast_self v23]
  exact tripBlock_apply v3 v5 v7 v19 v23 p q

/-- What a step of the first call stores at entry (p, q). -/
theorem k0_pay2_apply (v3 : Vec Ideal S1024x4096 .bf16) (v5 v7 : Vec Ideal S4096x128 .f32) (v19 : Vec Ideal S128x256 .f32)
    (v23 : Vec Ideal S1024x256 .f32) (p : Fin 1024) (q : Fin 256) :
    Gen.k0_pay2 v3 v5 v7 v19 v23 (ix2 p q)
      = v23 (ix2 p q) + ∑ k : Fin 128,
          (((∑ c : Fin 4096, v3 (ix2 p c) * v5 (ix2 c k)) * Ideal.logistic (∑ c : Fin 4096, v3 (ix2 p c) * v5 (ix2 c k)))
            * (∑ c : Fin 4096, v3 (ix2 p c) * v7 (ix2 c k))) * v19 (ix2 k q) :=
  (congrFun (k0_pay2_eq v3 v5 v7 v19 v23) (ix2 p q)).trans (tripBlock_shapeCast_apply v3 v5 v7 v19 v23 p q)

/-- What a step of the second call stores at entry (p, q). -/
theorem k1_pay2_apply (v3 : Vec Ideal S1024x4096 .bf16) (v5 v7 : Vec Ideal S4096x128 .f32) (v19 : Vec Ideal S128x256 .f32)
    (v23 : Vec Ideal S1024x256 .f32) (p : Fin 1024) (q : Fin 256) :
    Gen.k1_pay2 v3 v5 v7 v19 v23 (ix2 p q)
      = v23 (ix2 p q) + ∑ k : Fin 128,
          (((∑ c : Fin 4096, v3 (ix2 p c) * v5 (ix2 c k)) * Ideal.logistic (∑ c : Fin 4096, v3 (ix2 p c) * v5 (ix2 c k)))
            * (∑ c : Fin 4096, v3 (ix2 p c) * v7 (ix2 c k))) * v19 (ix2 k q) :=
  (congrFun (k1_pay2_eq v3 v5 v7 v19 v23) (ix2 p q)).trans (tripBlock_shapeCast_apply v3 v5 v7 v19 v23 p q)

end Cert.PayMath

end
-- ==== Proof.KIOutIdeal0.lean ====
/-
  The loop's function of call 0, read at an entry on the extended reals: at row p and column d of the output block it
  is the entry contents there plus the sum over the 128 hidden units of the group of the gated activation of row p
  times the down-projection block's entry (k, d). The index lies in column chunk d / 256 at position d % 256; the
  chunk's loads read column 256 (d / 256) + d % 256 = d of the down-projection block and of the entry contents.
-/
import proofs.«171829_j90975997264556_2_alg».proof.Proof.KIOut0
import proofs.«171829_j90975997264556_2_alg».proof.Proof.PayTrip

set_option maxRecDepth 16384

noncomputable section

open scoped BigOperators

namespace Cert.KernelIdeal.Fr

open Cert.KernelIdeal Cert.KernelIdeal.Gen
open Idealize.ShloMosaic Idealize.ShloMosaic.ValueIdx

/-- The position of the index (p, d) inside its column chunk is (p, d % 256). -/
theorem local0_ix2 (p : Fin 1024) (d : Fin 4096) :
    local0 (ix2 p d) = ix2 p (⟨d.val % 256, Nat.mod_lt _ (by decide)⟩ : Fin 256) := by
  funext a
  match a with
  | ⟨0, _⟩ => rfl
  | ⟨1, _⟩ => rfl

/-- Chunk `k` of the down-projection block at (kk, q) is the block at (kk, 256 k + q). -/
theorem chunk0_idx1 (k : Fin k0_t1_loop.trips) (kk : Fin 128) (q : Fin 256) (d : Fin 4096)
    (h : d.val = 256 * k.val + q.val) :
    (Rect.unit (s := S128x4096) (k0_off1 k) S128x256.size (k0_off1_inb k)).idx (ix2 kk q) = ix2 kk d := by
  funext a
  apply Fin.ext
  match a with
  | ⟨0, _⟩ =>
    show k0_off1 k 0 + 1 * kk.val = kk.val
    rw [congrFun (k0_off1_eq k) 0]
    show 0 + 1 * kk.val = kk.val
    omega
  | ⟨1, _⟩ =>
    show k0_off1 k 1 + 1 * q.val = d.val
    rw [congrFun (k0_off1_eq k) 1]
    show 256 * k.val + 1 * q.val = d.val
    omega

/-- Chunk `k` of the output block at (p, q) is the block at (p, 256 k + q). -/
theorem chunk0_idx2 (k : Fin k0_t1_loop.trips) (p : Fin 1024) (q : Fin 256) (d : Fin 4096)
    (h : d.val = 256 * k.val + q.val) :
    (Rect.unit (s := S1024x4096) (k0_off2 k) S1024x256.size (k0_off2_inb k)).idx (ix2 p q) = ix2 p d := by
  funext a
  apply Fin.ext
  match a with
  | ⟨0, _⟩ =>
    show k0_off2 k 0 + 1 * p.val = p.val
    rw [congrFun (k0_off2_eq k) 0]
    show 0 + 1 * p.val = p.val
    omega
  | ⟨1, _⟩ =>
    show k0_off2 k 1 + 1 * q.val = d.val
    rw [congrFun (k0_off2_eq k) 1]
    show 256 * k.val + 1 * q.val = d.val
    omega

/-- The loop's function at entry (p, d), on the extended reals. -/
theorem loopOut0_apply (v3 : Vec Ideal S1024x4096 .bf16) (v5 v7 : Vec Ideal S4096x128 .f32) (dw : S128x4096.Idx → EReal)
    (a : S1024x4096.Idx → EReal) (p : Fin 1024) (d : Fin 4096) :
    loopOut0 (F := Ideal) v3 v5 v7 dw a (ix2 p d)
      = a (ix2 p d) + ∑ k : Fin 128,
          (((∑ c : Fin 4096, v3 (ix2 p c) * v5 (ix2 c k)) * Ideal.logistic (∑ c : Fin 4096, v3 (ix2 p c) * v5 (ix2 c k)))
            * (∑ c : Fin 4096, v3 (ix2 p c) * v7 (ix2 c k))) * dw (ix2 k d) := by
  have hd : d.val = 256 * (chunk0 (ix2 p d)).val + (⟨d.val % 256, Nat.mod_lt _ (by decide)⟩ : Fin 256).val := by
    show d.val = 256 * (d.val / 256) + d.val % 256
    omega
  unfold loopOut0
  rw [local0_ix2, Cert.PayMath.k0_pay2_apply]
  dsimp only [View.ld]
  rw [chunk0_idx2 _ p _ d hd]
  simp only [chunk0_idx1 _ _ _ d hd]

end Cert.KernelIdeal.Fr

end
-- ==== Proof.KILayout.lean ====
/-
  Where a window's block sits in its array.

  The grid of each kernel call has 172 points; point t has the coordinates (t / 86, t % 86): a 1024-row token tile
  and a group of 128 hidden units. A window's block at a point is the rectangle of its array at block index times
  block size, so an element of a block is the array element whose coordinate on each axis is the block index times
  the block's extent plus the element's own coordinate. In the first call the token rows are those of the even
  1024-row segment 2 * (t / 86) of the 4096 rows, in the second call those of the odd segment 2 * (t / 86) + 1; the
  gate and up weights are read in columns 128 * (t % 86) .., the down weights in rows 128 * (t % 86) .., and the
  output block is rows 1024 * (t / 86) .. of the call's 2048-row result.
-/
import proofs.«171829_j90975997264556_2_alg».proof.Proof.KIBase
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-! ## The first call -/

/-- A point's number is below 172. -/
theorem t_lt0 (t : Fin cfg0.N) : t.val < 172 := lt_of_lt_of_eq t.isLt (show cfg0.N = 172 from N_0)

/-- The block indices of the five windows at every point, decided over the grid. -/
theorem idx0_0 : ∀ t : Fin cfg0.N, win0_0.index t (0 : Fin 2) = 2 * (t.val / 86) ∧ win0_0.index t (1 : Fin 2) = 0 :=
  (by decide +kernel : ∀ t : Fin grid0.N, win0_0.index t (0 : Fin 2) = 2 * (t.val / 86) ∧ win0_0.index t (1 : Fin 2) = 0)
theorem idx0_1 : ∀ t : Fin cfg0.N, win0_1.index t (0 : Fin 2) = 0 ∧ win0_1.index t (1 : Fin 2) = t.val % 86 :=
  (by decide +kernel : ∀ t : Fin grid0.N, win0_1.index t (0 : Fin 2) = 0 ∧ win0_1.index t (1 : Fin 2) = t.val % 86)
theorem idx0_2 : ∀ t : Fin cfg0.N, win0_2.index t (0 : Fin 2) = 0 ∧ win0_2.index t (1 : Fin 2) = t.val % 86 :=
  (by decide +kernel : ∀ t : Fin grid0.N, win0_2.index t (0 : Fin 2) = 0 ∧ win0_2.index t (1 : Fin 2) = t.val % 86)
theorem idx0_3 : ∀ t : Fin cfg0.N, win0_3.index t (0 : Fin 2) = t.val % 86 ∧ win0_3.index t (1 : Fin 2) = 0 :=
  (by decide +kernel : ∀ t : Fin grid0.N, win0_3.index t (0 : Fin 2) = t.val % 86 ∧ win0_3.index t (1 : Fin 2) = 0)
theorem idx0_4 : ∀ t : Fin cfg0.N, win0_4.index t (0 : Fin 2) = t.val / 86 ∧ win0_4.index t (1 : Fin 2) = 0 :=
  (by decide +kernel : ∀ t : Fin grid0.N, win0_4.index t (0 : Fin 2) = t.val / 86 ∧ win0_4.index t (1 : Fin 2) = 0)

/-- Element (p, cc) of the token block is row 1024 * (2 * (t / 86)) + p of the 4096 rows. -/
theorem emb0_0 (t : Fin cfg0.N) (p : Fin 1024) (cc : Fin 4096) :
    (((cfg0.win 0).blk t).view.emb (ix2 p cc : S1024x4096.Idx) : S4096x4096.Idx)
      = ix2 ⟨1024 * (2 * (t.val / 86)) + p.val, by have := t_lt0 t; omega⟩ cc := by
  obtain ⟨e0, e1⟩ := idx0_0 t
  funext a
  apply Fin.ext
  match a with
  | ⟨0, _⟩ => show win0_0.index t (0 : Fin 2) * 1024 + 1 * p.val = 1024 * (2 * (t.val / 86)) + p.val; omega
  | ⟨1, _⟩ => show win0_0.index t (1 : Fin 2) * 4096 + 1 * cc.val = cc.val; omega

/-- Element (cc, k) of the gate block is column 128 * (t % 86) + k of the 11008 columns. -/
theorem emb0_1 (t : Fin cfg0.N) (cc : Fin 4096) (k : Fin 128) :
    (((cfg0.win 1).blk t).view.emb (ix2 cc k : S4096x128.Idx) : S4096x11008.Idx)
      = ix2 cc ⟨128 * (t.val % 86) + k.val, by omega⟩ := by
  obtain ⟨e0, e1⟩ := idx0_1 t
  funext a
  apply Fin.ext
  match a with
  | ⟨0, _⟩ => show win0_1.index t (0 : Fin 2) * 4096 + 1 * cc.val = cc.val; omega
  | ⟨1, _⟩ => show win0_1.index t (1 : Fin 2) * 128 + 1 * k.val = 128 * (t.val % 86) + k.val; omega

/-- Element (cc, k) of the up block is column 128 * (t % 86) + k of the 11008 columns. -/
theorem emb0_2 (t : Fin cfg0.N) (cc : Fin 4096) (k : Fin 128) :
    (((cfg0.win 2).blk t).view.emb (ix2 cc k : S4096x128.Idx) : S4096x11008.Idx)
      = ix2 cc ⟨128 * (t.val % 86) + k.val, by omega⟩ := by
  obtain ⟨e0, e1⟩ := idx0_2 t
  funext a
  apply Fin.ext
  match a with
  | ⟨0, _⟩ => show win0_2.index t (0 : Fin 2) * 4096 + 1 * cc.val = cc.val; omega
  | ⟨1, _⟩ => show win0_2.index t (1 : Fin 2) * 128 + 1 * k.val = 128 * (t.val % 86) + k.val; omega

/-- Element (k, d) of the down block is row 128 * (t % 86) + k of the 11008 rows. -/
theorem emb0_3 (t : Fin cfg0.N) (k : Fin 128) (d : Fin 4096) :
    (((cfg0.win 3).blk t).view.emb (ix2 k d : S128x4096.Idx) : S11008x4096.Idx)
      = ix2 ⟨128 * (t.val % 86) + k.val, by omega⟩ d := by
  obtain ⟨e0, e1⟩ := idx0_3 t
  funext a
  apply Fin.ext
  match a with
  | ⟨0, _⟩ => show win0_3.index t (0 : Fin 2) * 128 + 1 * k.val = 128 * (t.val % 86) + k.val; omega
  | ⟨1, _⟩ => show win0_3.index t (1 : Fin 2) * 4096 + 1 * d.val = d.val; omega

/-- Element (p, d) of the output block is row 1024 * (t / 86) + p of the result's 2048 rows. -/
theorem emb0_4 (t : Fin cfg0.N) (p : Fin 1024) (d : Fin 4096) :
    (((cfg0.win 4).blk t).view.emb (ix2 p d : S1024x4096.Idx) : S2048x4096.Idx)
      = ix2 ⟨1024 * (t.val / 86) + p.val, by have := t_lt0 t; omega⟩ d := by
  obtain ⟨e0, e1⟩ := idx0_4 t
  funext a
  apply Fin.ext
  match a with
  | ⟨0, _⟩ => show win0_4.index t (0 : Fin 2) * 1024 + 1 * p.val = 1024 * (t.val / 86) + p.val; omega
  | ⟨1, _⟩ => show win0_4.index t (1 : Fin 2) * 4096 + 1 * d.val = d.val; omega

/-- The token block read at (p, cc). -/
theorem iblk0_0_apply (c : Dev nD) (t : Fin cfg0.N) (p : Fin 1024) (cc : Fin 4096) :
    (iblk0 V c 0 t : Vec F S1024x4096 .bf16) (ix2 p cc)
      = (V c main_v1 : S4096x4096.Idx → Elt F .bf16) (ix2 ⟨1024 * (2 * (t.val / 86)) + p.val, by have := t_lt0 t; omega⟩ cc) :=
  congrArg (V c main_v1 : S4096x4096.Idx → Elt F .bf16) (emb0_0 t p cc)

/-- The gate block read at (cc, k). -/
theorem iblk0_1_apply (c : Dev nD) (t : Fin cfg0.N) (cc : Fin 4096) (k : Fin 128) :
    (iblk0 V c 1 t : Vec F S4096x128 .f32) (ix2 cc k)
      = (V c main_arg5 : S4096x11008.Idx → Elt F .f32) (ix2 cc ⟨128 * (t.val % 86) + k.val, by omega⟩) :=
  congrArg (V c main_arg5 : S4096x11008.Idx → Elt F .f32) (emb0_1 t cc k)

/-- The up block read at (cc, k). -/
theorem iblk0_2_apply (c : Dev nD) (t : Fin cfg0.N) (cc : Fin 4096) (k : Fin 128) :
    (iblk0 V c 2 t : Vec F S4096x128 .f32) (ix2 cc k)
      = (V c main_arg6 : S4096x11008.Idx → Elt F .f32) (ix2 cc ⟨128 * (t.val % 86) + k.val, by omega⟩) :=
  congrArg (V c main_arg6 : S4096x11008.Idx → Elt F .f32) (emb0_2 t cc k)

/-- The down block read at (k, d). -/
theorem iblk0_3_apply (c : Dev nD) (t : Fin cfg0.N) (k : Fin 128) (d : Fin 4096) :
    (iblk0 V c 3 t : Vec F S128x4096 .f32) (ix2 k d)
      = (V c main_arg7 : S11008x4096.Idx → Elt F .f32) (ix2 ⟨128 * (t.val % 86) + k.val, by omega⟩ d) :=
  congrArg (V c main_arg7 : S11008x4096.Idx → Elt F .f32) (emb0_3 t k d)

/-- Any function of the result's index read through the output block at (p, d). -/
theorem read_blk0_4 (G : S2048x4096.Idx → Elt F .f32) (t : Fin cfg0.N) (p : Fin 1024) (d : Fin 4096) :
    (((cfg0.win 4).blk t).view.read (Elt F) G : Vec F S1024x4096 .f32) (ix2 p d)
      = G (ix2 ⟨1024 * (t.val / 86) + p.val, by have := t_lt0 t; omega⟩ d) :=
  congrArg G (emb0_4 t p d)

/-- An index of the result is in point t's output block iff each coordinate is in the block's range on its axis. -/
theorem mem_blk0_4 (t : Fin cfg0.N) (i : S2048x4096.Idx) :
    i ∈ ((cfg0.win 4).blk t).view.set ↔ ∀ a : Fin 2, win0_4.index t a * S1024x4096.size a ≤ (i a).val ∧ (i a).val < win0_4.index t a * S1024x4096.size a + S1024x4096.size a := by
  show i ∈ ((View.whole main_v2).slice (win0_4.rect t)).set ↔ _
  rw [View.set_slice_whole, Rect.mem_set_unit]
  exact Iff.rfl

/-- It is in point t's output block iff its row lies in the token tile t / 86. -/
theorem mem_blk0_4_iff (t : Fin cfg0.N) (i : S2048x4096.Idx) :
    i ∈ ((cfg0.win 4).blk t).view.set ↔ t.val / 86 = (i 0).val / 1024 := by
  rw [mem_blk0_4]
  obtain ⟨e0, e1⟩ := idx0_4 t
  have hi1 : (i 1).val < 4096 := (i 1).isLt
  constructor
  · intro h
    have b0 : win0_4.index t (0 : Fin 2) * 1024 ≤ (i 0).val ∧ (i 0).val < win0_4.index t (0 : Fin 2) * 1024 + 1024 := h 0
    omega
  · intro h a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 4096 ≤ (i 1).val ∧ (i 1).val < win0_4.index t (1 : Fin 2) * 4096 + 4096; omega

/-- The same four reads with the array-side row or column any index equal to the closed form. -/
theorem iblk0_0_at (c : Dev nD) (t : Fin cfg0.N) (p : Fin 1024) (cc : Fin 4096) (R : Fin 4096)
    (hR : R.val = 1024 * (2 * (t.val / 86)) + p.val) :
    (iblk0 V c 0 t : Vec F S1024x4096 .bf16) (ix2 p cc) = (V c main_v1 : S4096x4096.Idx → Elt F .bf16) (ix2 R cc) :=
  (iblk0_0_apply V c t p cc).trans
    (congrArg (fun R' : Fin 4096 => (V c main_v1 : S4096x4096.Idx → Elt F .bf16) (ix2 R' cc)) (Fin.ext hR.symm))
theorem iblk0_1_at (c : Dev nD) (t : Fin cfg0.N) (cc : Fin 4096) (k : Fin 128) (f : Fin 11008)
    (hf : f.val = 128 * (t.val % 86) + k.val) :
    (iblk0 V c 1 t : Vec F S4096x128 .f32) (ix2 cc k) = (V c main_arg5 : S4096x11008.Idx → Elt F .f32) (ix2 cc f) :=
  (iblk0_1_apply V c t cc k).trans
    (congrArg (fun f' : Fin 11008 => (V c main_arg5 : S4096x11008.Idx → Elt F .f32) (ix2 cc f')) (Fin.ext hf.symm))
theorem iblk0_2_at (c : Dev nD) (t : Fin cfg0.N) (cc : Fin 4096) (k : Fin 128) (f : Fin 11008)
    (hf : f.val = 128 * (t.val % 86) + k.val) :
    (iblk0 V c 2 t : Vec F S4096x128 .f32) (ix2 cc k) = (V c main_arg6 : S4096x11008.Idx → Elt F .f32) (ix2 cc f) :=
  (iblk0_2_apply V c t cc k).trans
    (congrArg (fun f' : Fin 11008 => (V c main_arg6 : S4096x11008.Idx → Elt F .f32) (ix2 cc f')) (Fin.ext hf.symm))
theorem iblk0_3_at (c : Dev nD) (t : Fin cfg0.N) (k : Fin 128) (d : Fin 4096) (f : Fin 11008)
    (hf : f.val = 128 * (t.val % 86) + k.val) :
    (iblk0 V c 3 t : Vec F S128x4096 .f32) (ix2 k d) = (V c main_arg7 : S11008x4096.Idx → Elt F .f32) (ix2 f d) :=
  (iblk0_3_apply V c t k d).trans
    (congrArg (fun f' : Fin 11008 => (V c main_arg7 : S11008x4096.Idx → Elt F .f32) (ix2 f' d)) (Fin.ext hf.symm))
theorem read_blk0_4_at (G : S2048x4096.Idx → Elt F .f32) (t : Fin cfg0.N) (p : Fin 1024) (d : Fin 4096) (R : Fin 2048)
    (hR : R.val = 1024 * (t.val / 86) + p.val) :
    (((cfg0.win 4).blk t).view.read (Elt F) G : Vec F S1024x4096 .f32) (ix2 p d) = G (ix2 R d) :=
  (read_blk0_4 G t p d).trans (congrArg (fun R' : Fin 2048 => G (ix2 R' d)) (Fin.ext hR.symm))

/-! ## The second call -/

/-- A point's number is below 172. -/
theorem t_lt1 (t : Fin cfg1.N) : t.val < 172 := lt_of_lt_of_eq t.isLt (show cfg1.N = 172 from N_1)

/-- The block indices of the five windows at every point, decided over the grid. -/
theorem idx1_0 : ∀ t : Fin cfg1.N, win1_0.index t (0 : Fin 2) = 2 * (t.val / 86) + 1 ∧ win1_0.index t (1 : Fin 2) = 0 :=
  (by decide +kernel : ∀ t : Fin grid1.N, win1_0.index t (0 : Fin 2) = 2 * (t.val / 86) + 1 ∧ win1_0.index t (1 : Fin 2) = 0)
theorem idx1_1 : ∀ t : Fin cfg1.N, win1_1.index t (0 : Fin 2) = 0 ∧ win1_1.index t (1 : Fin 2) = t.val % 86 :=
  (by decide +kernel : ∀ t : Fin grid1.N, win1_1.index t (0 : Fin 2) = 0 ∧ win1_1.index t (1 : Fin 2) = t.val % 86)
theorem idx1_2 : ∀ t : Fin cfg1.N, win1_2.index t (0 : Fin 2) = 0 ∧ win1_2.index t (1 : Fin 2) = t.val % 86 :=
  (by decide +kernel : ∀ t : Fin grid1.N, win1_2.index t (0 : Fin 2) = 0 ∧ win1_2.index t (1 : Fin 2) = t.val % 86)
theorem idx1_3 : ∀ t : Fin cfg1.N, win1_3.index t (0 : Fin 2) = t.val % 86 ∧ win1_3.index t (1 : Fin 2) = 0 :=
  (by decide +kernel : ∀ t : Fin grid1.N, win1_3.index t (0 : Fin 2) = t.val % 86 ∧ win1_3.index t (1 : Fin 2) = 0)
theorem idx1_4 : ∀ t : Fin cfg1.N, win1_4.index t (0 : Fin 2) = t.val / 86 ∧ win1_4.index t (1 : Fin 2) = 0 :=
  (by decide +kernel : ∀ t : Fin grid1.N, win1_4.index t (0 : Fin 2) = t.val / 86 ∧ win1_4.index t (1 : Fin 2) = 0)

/-- Element (p, cc) of the token block is row 1024 * (2 * (t / 86) + 1) + p of the 4096 rows. -/
theorem emb1_0 (t : Fin cfg1.N) (p : Fin 1024) (cc : Fin 4096) :
    (((cfg1.win 0).blk t).view.emb (ix2 p cc : S1024x4096.Idx) : S4096x4096.Idx)
      = ix2 ⟨1024 * (2 * (t.val / 86) + 1) + p.val, by have := t_lt1 t; omega⟩ cc := by
  obtain ⟨e0, e1⟩ := idx1_0 t
  funext a
  apply Fin.ext
  match a with
  | ⟨0, _⟩ => show win1_0.index t (0 : Fin 2) * 1024 + 1 * p.val = 1024 * (2 * (t.val / 86) + 1) + p.val; omega
  | ⟨1, _⟩ => show win1_0.index t (1 : Fin 2) * 4096 + 1 * cc.val = cc.val; omega

/-- Element (cc, k) of the gate block is column 128 * (t % 86) + k of the 11008 columns. -/
theorem emb1_1 (t : Fin cfg1.N) (cc : Fin 4096) (k : Fin 128) :
    (((cfg1.win 1).blk t).view.emb (ix2 cc k : S4096x128.Idx) : S4096x11008.Idx)
      = ix2 cc ⟨128 * (t.val % 86) + k.val, by omega⟩ := by
  obtain ⟨e0, e1⟩ := idx1_1 t
  funext a
  apply Fin.ext
  match a with
  | ⟨0, _⟩ => show win1_1.index t (0 : Fin 2) * 4096 + 1 * cc.val = cc.val; omega
  | ⟨1, _⟩ => show win1_1.index t (1 : Fin 2) * 128 + 1 * k.val = 128 * (t.val % 86) + k.val; omega

/-- Element (cc, k) of the up block is column 128 * (t % 86) + k of the 11008 columns. -/
theorem emb1_2 (t : Fin cfg1.N) (cc : Fin 4096) (k : Fin 128) :
    (((cfg1.win 2).blk t).view.emb (ix2 cc k : S4096x128.Idx) : S4096x11008.Idx)
      = ix2 cc ⟨128 * (t.val % 86) + k.val, by omega⟩ := by
  obtain ⟨e0, e1⟩ := idx1_2 t
  funext a
  apply Fin.ext
  match a with
  | ⟨0, _⟩ => show win1_2.index t (0 : Fin 2) * 4096 + 1 * cc.val = cc.val; omega
  | ⟨1, _⟩ => show win1_2.index t (1 : Fin 2) * 128 + 1 * k.val = 128 * (t.val % 86) + k.val; omega

/-- Element (k, d) of the down block is row 128 * (t % 86) + k of the 11008 rows. -/
theorem emb1_3 (t : Fin cfg1.N) (k : Fin 128) (d : Fin 4096) :
    (((cfg1.win 3).blk t).view.emb (ix2 k d : S128x4096.Idx) : S11008x4096.Idx)
      = ix2 ⟨128 * (t.val % 86) + k.val, by omega⟩ d := by
  obtain ⟨e0, e1⟩ := idx1_3 t
  funext a
  apply Fin.ext
  match a with
  | ⟨0, _⟩ => show win1_3.index t (0 : Fin 2) * 128 + 1 * k.val = 128 * (t.val % 86) + k.val; omega
  | ⟨1, _⟩ => show win1_3.index t (1 : Fin 2) * 4096 + 1 * d.val = d.val; omega

/-- Element (p, d) of the output block is row 1024 * (t / 86) + p of the result's 2048 rows. -/
theorem emb1_4 (t : Fin cfg1.N) (p : Fin 1024) (d : Fin 4096) :
    (((cfg1.win 4).blk t).view.emb (ix2 p d : S1024x4096.Idx) : S2048x4096.Idx)
      = ix2 ⟨1024 * (t.val / 86) + p.val, by have := t_lt1 t; omega⟩ d := by
  obtain ⟨e0, e1⟩ := idx1_4 t
  funext a
  apply Fin.ext
  match a with
  | ⟨0, _⟩ => show win1_4.index t (0 : Fin 2) * 1024 + 1 * p.val = 1024 * (t.val / 86) + p.val; omega
  | ⟨1, _⟩ => show win1_4.index t (1 : Fin 2) * 4096 + 1 * d.val = d.val; omega

/-- The token block read at (p, cc). -/
theorem iblk1_0_apply (c : Dev nD) (t : Fin cfg1.N) (p : Fin 1024) (cc : Fin 4096) :
    (iblk1 V c 0 t : Vec F S1024x4096 .bf16) (ix2 p cc)
      = (V c main_v1 : S4096x4096.Idx → Elt F .bf16) (ix2 ⟨1024 * (2 * (t.val / 86) + 1) + p.val, by have := t_lt1 t; omega⟩ cc) :=
  congrArg (V c main_v1 : S4096x4096.Idx → Elt F .bf16) (emb1_0 t p cc)

/-- The gate block read at (cc, k). -/
theorem iblk1_1_apply (c : Dev nD) (t : Fin cfg1.N) (cc : Fin 4096) (k : Fin 128) :
    (iblk1 V c 1 t : Vec F S4096x128 .f32) (ix2 cc k)
      = (V c main_arg2 : S4096x11008.Idx → Elt F .f32) (ix2 cc ⟨128 * (t.val % 86) + k.val, by omega⟩) :=
  congrArg (V c main_arg2 : S4096x11008.Idx → Elt F .f32) (emb1_1 t cc k)

/-- The up block read at (cc, k). -/
theorem iblk1_2_apply (c : Dev nD) (t : Fin cfg1.N) (cc : Fin 4096) (k : Fin 128) :
    (iblk1 V c 2 t : Vec F S4096x128 .f32) (ix2 cc k)
      = (V c main_arg3 : S4096x11008.Idx → Elt F .f32) (ix2 cc ⟨128 * (t.val % 86) + k.val, by omega⟩) :=
  congrArg (V c main_arg3 : S4096x11008.Idx → Elt F .f32) (emb1_2 t cc k)

/-- The down block read at (k, d). -/
theorem iblk1_3_apply (c : Dev nD) (t : Fin cfg1.N) (k : Fin 128) (d : Fin 4096) :
    (iblk1 V c 3 t : Vec F S128x4096 .f32) (ix2 k d)
      = (V c main_arg4 : S11008x4096.Idx → Elt F .f32) (ix2 ⟨128 * (t.val % 86) + k.val, by omega⟩ d) :=
  congrArg (V c main_arg4 : S11008x4096.Idx → Elt F .f32) (emb1_3 t k d)

/-- Any function of the result's index read through the output block at (p, d). -/
theorem read_blk1_4 (G : S2048x4096.Idx → Elt F .f32) (t : Fin cfg1.N) (p : Fin 1024) (d : Fin 4096) :
    (((cfg1.win 4).blk t).view.read (Elt F) G : Vec F S1024x4096 .f32) (ix2 p d)
      = G (ix2 ⟨1024 * (t.val / 86) + p.val, by have := t_lt1 t; omega⟩ d) :=
  congrArg G (emb1_4 t p d)

/-- An index of the result is in point t's output block iff each coordinate is in the block's range on its axis. -/
theorem mem_blk1_4 (t : Fin cfg1.N) (i : S2048x4096.Idx) :
    i ∈ ((cfg1.win 4).blk t).view.set ↔ ∀ a : Fin 2, win1_4.index t a * S1024x4096.size a ≤ (i a).val ∧ (i a).val < win1_4.index t a * S1024x4096.size a + S1024x4096.size a := by
  show i ∈ ((View.whole main_v3).slice (win1_4.rect t)).set ↔ _
  rw [View.set_slice_whole, Rect.mem_set_unit]
  exact Iff.rfl

/-- It is in point t's output block iff its row lies in the token tile t / 86. -/
theorem mem_blk1_4_iff (t : Fin cfg1.N) (i : S2048x4096.Idx) :
    i ∈ ((cfg1.win 4).blk t).view.set ↔ t.val / 86 = (i 0).val / 1024 := by
  rw [mem_blk1_4]
  obtain ⟨e0, e1⟩ := idx1_4 t
  have hi1 : (i 1).val < 4096 := (i 1).isLt
  constructor
  · intro h
    have b0 : win1_4.index t (0 : Fin 2) * 1024 ≤ (i 0).val ∧ (i 0).val < win1_4.index t (0 : Fin 2) * 1024 + 1024 := h 0
    omega
  · intro h a
    match a with
    | ⟨0, _⟩ => show win1_4.index t (0 : Fin 2) * 1024 ≤ (i 0).val ∧ (i 0).val < win1_4.index t (0 : Fin 2) * 1024 + 1024; omega
    | ⟨1, _⟩ => show win1_4.index t (1 : Fin 2) * 4096 ≤ (i 1).val ∧ (i 1).val < win1_4.index t (1 : Fin 2) * 4096 + 4096; omega

/-- The same four reads with the array-side row or column any index equal to the closed form. -/
theorem iblk1_0_at (c : Dev nD) (t : Fin cfg1.N) (p : Fin 1024) (cc : Fin 4096) (R : Fin 4096)
    (hR : R.val = 1024 * (2 * (t.val / 86) + 1) + p.val) :
    (iblk1 V c 0 t : Vec F S1024x4096 .bf16) (ix2 p cc) = (V c main_v1 : S4096x4096.Idx → Elt F .bf16) (ix2 R cc) :=
  (iblk1_0_apply V c t p cc).trans
    (congrArg (fun R' : Fin 4096 => (V c main_v1 : S4096x4096.Idx → Elt F .bf16) (ix2 R' cc)) (Fin.ext hR.symm))
theorem iblk1_1_at (c : Dev nD) (t : Fin cfg1.N) (cc : Fin 4096) (k : Fin 128) (f : Fin 11008)
    (hf : f.val = 128 * (t.val % 86) + k.val) :
    (iblk1 V c 1 t : Vec F S4096x128 .f32) (ix2 cc k) = (V c main_arg2 : S4096x11008.Idx → Elt F .f32) (ix2 cc f) :=
  (iblk1_1_apply V c t cc k).trans
    (congrArg (fun f' : Fin 11008 => (V c main_arg2 : S4096x11008.Idx → Elt F .f32) (ix2 cc f')) (Fin.ext hf.symm))
theorem iblk1_2_at (c : Dev nD) (t : Fin cfg1.N) (cc : Fin 4096) (k : Fin 128) (f : Fin 11008)
    (hf : f.val = 128 * (t.val % 86) + k.val) :
    (iblk1 V c 2 t : Vec F S4096x128 .f32) (ix2 cc k) = (V c main_arg3 : S4096x11008.Idx → Elt F .f32) (ix2 cc f) :=
  (iblk1_2_apply V c t cc k).trans
    (congrArg (fun f' : Fin 11008 => (V c main_arg3 : S4096x11008.Idx → Elt F .f32) (ix2 cc f')) (Fin.ext hf.symm))
theorem iblk1_3_at (c : Dev nD) (t : Fin cfg1.N) (k : Fin 128) (d : Fin 4096) (f : Fin 11008)
    (hf : f.val = 128 * (t.val % 86) + k.val) :
    (iblk1 V c 3 t : Vec F S128x4096 .f32) (ix2 k d) = (V c main_arg4 : S11008x4096.Idx → Elt F .f32) (ix2 f d) :=
  (iblk1_3_apply V c t k d).trans
    (congrArg (fun f' : Fin 11008 => (V c main_arg4 : S11008x4096.Idx → Elt F .f32) (ix2 f' d)) (Fin.ext hf.symm))
theorem read_blk1_4_at (G : S2048x4096.Idx → Elt F .f32) (t : Fin cfg1.N) (p : Fin 1024) (d : Fin 4096) (R : Fin 2048)
    (hR : R.val = 1024 * (t.val / 86) + p.val) :
    (((cfg1.win 4).blk t).view.read (Elt F) G : Vec F S1024x4096 .f32) (ix2 p d) = G (ix2 R d) :=
  (read_blk1_4 G t p d).trans (congrArg (fun R' : Fin 2048 => G (ix2 R' d)) (Fin.ext hR.symm))

end Cert.KernelIdeal.Fr

end
-- ==== Proof.KIPrefix.lean ====
/-
  The arrays the two kernel calls read, as the launch arguments.

  Before the first call the host reshapes the hidden states from 1 x 4096 x 4096 to 4096 x 4096 and narrows their
  number format; on the extended reals the narrowing is the identity and the reshaping keeps the row-major order, so
  entry (r, cc) of the array the calls read is entry (0, r, cc) of the hidden states. No host operation writes a
  weight array, and the first call writes only its own result, so each call finds the weight arrays, and the second
  call the reshaped hidden states, as launched.
-/
import proofs.«171829_j90975997264556_2_alg».proof.Proof.KIValBase
import Idealize.ShloMosaic.Lib.Pipeline.Value
import Idealize.ShloMosaic.Lib.ValueLayout
import Idealize.ShloMosaic.Lib.ValueIdx

set_option maxRecDepth 16384

noncomputable section

namespace Cert.KernelIdeal.Fr

open Cert.KernelIdeal Cert.KernelIdeal.Gen Cert.Mlp
open Idealize.ShloMosaic Idealize.ShloMosaic.TcCoe Idealize.ShloMosaic.ValueIdx
open Idealize.SL Idealize.SL.Sem

section AnyValues

variable {F : FTy → Type} [FloatOps F]
variable (m : (ℓ : Loc nD τ sig) → Buf (Elt F) ℓ) (c : Dev nD)

/-- The array of token rows the calls read: the hidden states reshaped, then narrowed. -/
theorem V1_main_v1_eq :
    (V1 m c main_v1 : Vec F S4096x4096 .bf16)
      = truncf .bf16 (shapeCast S4096x4096 (m ((c.tc : Thread nD τ).loc main_arg0) : Vec F S1x4096x4096 .f32)
          shapeCasts_S1x4096x4096_S4096x4096) bitsLt_bf16_f32 := by
  dsimp only [V1, W1, W0, hostOps0]
  after_results
  rfl

/-- The first call finds its three weight arrays as launched. -/
theorem V1_main_arg5 : V1 m c main_arg5 = m ((c.tc : Thread nD τ).loc main_arg5) :=
  StableHlo.after_of_writes_sub hostOps0 _ hostOps0_writes (r := main_arg5) (by decide)
theorem V1_main_arg6 : V1 m c main_arg6 = m ((c.tc : Thread nD τ).loc main_arg6) :=
  StableHlo.after_of_writes_sub hostOps0 _ hostOps0_writes (r := main_arg6) (by decide)
theorem V1_main_arg7 : V1 m c main_arg7 = m ((c.tc : Thread nD τ).loc main_arg7) :=
  StableHlo.after_of_writes_sub hostOps0 _ hostOps0_writes (r := main_arg7) (by decide)

/-- The second call finds its three weight arrays as launched. -/
theorem V2_main_arg2 : V2 m c main_arg2 = m ((c.tc : Thread nD τ).loc main_arg2) :=
  (W2_of_ne m c main_arg2 (by decide)).trans (StableHlo.after_of_writes_sub hostOps0 _ hostOps0_writes (r := main_arg2) (by decide))
theorem V2_main_arg3 : V2 m c main_arg3 = m ((c.tc : Thread nD τ).loc main_arg3) :=
  (W2_of_ne m c main_arg3 (by decide)).trans (StableHlo.after_of_writes_sub hostOps0 _ hostOps0_writes (r := main_arg3) (by decide))
theorem V2_main_arg4 : V2 m c main_arg4 = m ((c.tc : Thread nD τ).loc main_arg4) :=
  (W2_of_ne m c main_arg4 (by decide)).trans (StableHlo.after_of_writes_sub hostOps0 _ hostOps0_writes (r := main_arg4) (by decide))

/-- The second call finds the array of token rows as the first call found it: the first call only reads it. -/
theorem V2_main_v1 : V2 m c main_v1 = V1 m c main_v1 :=
  (W2_arr m c 0).trans (((dat0 (V1 m) c).arrAt_in 0 rfl _).trans (A_eq0 (V1 m) c 0))

end AnyValues

section OnTheExtendedReals

variable (m : (ℓ : Loc nD τ sig) → Buf (Elt Ideal) ℓ) (c : Dev nD)

/-- Entry (r, cc) of the array of token rows is entry (0, r, cc) of the hidden states. -/
theorem V1_main_v1_apply (r cc : Fin 4096) :
    (V1 m c main_v1 : S4096x4096.Idx → EReal) (ix2 r cc) = aX m c (ix3 (0 : Fin 1) r cc) := by
  rw [V1_main_v1_eq]
  exact shapeCast_1ab_ab_apply (aX m c) shapeCasts_S1x4096x4096_S4096x4096 r cc

theorem V2_main_v1_apply (r cc : Fin 4096) :
    (V2 m c main_v1 : S4096x4096.Idx → EReal) (ix2 r cc) = aX m c (ix3 (0 : Fin 1) r cc) :=
  (congrFun (V2_main_v1 m c) (ix2 r cc)).trans (V1_main_v1_apply m c r cc)

/-- The weight arrays the calls find, as the specification's functions of the launch arguments. -/
theorem V1_main_arg5_eq : (V1 m c main_arg5 : SGU.Idx → EReal) = aVG m c := V1_main_arg5 m c
theorem V1_main_arg6_eq : (V1 m c main_arg6 : SGU.Idx → EReal) = aVU m c := V1_main_arg6 m c
theorem V1_main_arg7_eq : (V1 m c main_arg7 : SD.Idx → EReal) = aVD m c := V1_main_arg7 m c
theorem V2_main_arg2_eq : (V2 m c main_arg2 : SGU.Idx → EReal) = aLG m c := V2_main_arg2 m c
theorem V2_main_arg3_eq : (V2 m c main_arg3 : SGU.Idx → EReal) = aLU m c := V2_main_arg3 m c
theorem V2_main_arg4_eq : (V2 m c main_arg4 : SD.Idx → EReal) = aLD m c := V2_main_arg4 m c

end OnTheExtendedReals

end Cert.KernelIdeal.Fr

end
-- ==== Proof.PayZero.lean ====
/-
  The block a grid point stores before its first accumulation is zero everywhere.

  The stored block is the broadcast of the single-precision word 0x00000000, which on the extended reals is the
  number 0, so every entry of the block reads 0.
-/
import proofs.«171829_j90975997264556_2_alg».proof.Proof.Gen.KernelIdeal.Skeleton
import Idealize.ShloMosaic.Lib.ValueIdx
import Idealize.ShloMosaic.PureOps.Ideal.Laws

namespace Cert.PayMath

open Idealize.ShloMosaic Idealize.ShloMosaic.ValueIdx

/-- Every entry of the first call's zero block is 0. -/
theorem k0_pay1_apply (j : Cert.KernelIdeal.S1024x4096.Idx) : Cert.KernelIdeal.Gen.k0_pay1 (F := Ideal) j = 0 :=
  Ideal.ofBits_zero_f32

/-- Every entry of the second call's zero block is 0. -/
theorem k1_pay1_apply (j : Cert.KernelIdeal.S1024x4096.Idx) : Cert.KernelIdeal.Gen.k1_pay1 (F := Ideal) j = 0 :=
  Ideal.ofBits_zero_f32

end Cert.PayMath
-- ==== Proof.PayAcc.lean ====
/-
  Adding one term per step into a block that starts at zero.

  Step 0 leaves 0 + T 0 in the block, and step n + 1 adds T (n + 1) to what step n left. After the last of 86 steps
  the block holds the sum of all 86 terms. Only 0 + x = x and the associativity of addition are used, so the terms
  may be infinite.
-/
import Idealize.ShloMosaic.PureOps.Ideal

noncomputable section

open scoped BigOperators

namespace Cert.PayMath

/-- What the block holds after step n: zero plus the first term, then one more term per step. -/
def accUpTo (T : ℕ → EReal) : ℕ → EReal
  | 0 => 0 + T 0
  | n + 1 => accUpTo T n + T (n + 1)

/-- After step n the block holds the sum of the terms 0, .., n. -/
theorem accUpTo_eq_range (T : ℕ → EReal) (n : ℕ) : accUpTo T n = ∑ i ∈ Finset.range (n + 1), T i := by
  induction n with
  | zero => rw [accUpTo, zero_add, Finset.sum_range_one]
  | succ n ih => rw [accUpTo, ih, Finset.sum_range_succ _ (n + 1)]

/-- After the last of 86 steps the block holds the sum of all 86 terms. -/
theorem accUpTo_eq_sum (T : ℕ → EReal) : accUpTo T 85 = ∑ ft : Fin 86, T ft.val := by
  rw [accUpTo_eq_range, Fin.sum_univ_eq_sum_range]

end Cert.PayMath

end
-- ==== Proof.LibBlockSum.lean ====
/-
  Summing in blocks.

  A sum over the indices 0 .. a*b - 1 can be taken b consecutive indices at a time: block s collects the indices
  b*s, b*s + 1, .., b*s + b - 1. Only associativity and commutativity of addition are used, so the statement holds in
  every commutative monoid; on the extended reals it therefore holds whether or not the summands are finite.
-/
import Idealize.ShloMosaic.Lib.ValueIdx

namespace Idealize.ShloMosaic.BlockSum

/-- Index q of block s is a valid index of the whole range. -/
theorem block_index_lt {a b : ℕ} (s : Fin a) (q : Fin b) : b * s.val + q.val < a * b := by
  have hs := s.isLt
  have hq := q.isLt
  calc b * s.val + q.val < b * s.val + b := by omega
    _ = b * (s.val + 1) := by ring
    _ ≤ b * a := Nat.mul_le_mul_left b hs
    _ = a * b := Nat.mul_comm b a

/-- The sum over all a*b indices is the sum over the a blocks of the b indices in each. -/
theorem sum_blocks {M : Type*} [AddCommMonoid M] (a b : ℕ) (g : Fin (a * b) → M) :
    ∑ k : Fin (a * b), g k = ∑ s : Fin a, ∑ q : Fin b, g ⟨b * s.val + q.val, block_index_lt s q⟩ := by
  rw [← Equiv.sum_comp finProdFinEquiv g, Fintype.sum_prod_type]
  refine Finset.sum_congr rfl fun s _ => Finset.sum_congr rfl fun q _ => congrArg g (Fin.ext ?_)
  show q.val + b * s.val = b * s.val + q.val
  omega

end Idealize.ShloMosaic.BlockSum
-- ==== Proof.PayGroup.lean ====
/-
  The sum over the 11008 hidden units, taken 128 units at a time.

  11008 = 86 * 128, so the hidden units fall into 86 consecutive groups of 128, and unit number 128 * t + k is unit k
  of group t. A sum over all units is the sum over the groups of the sums inside each group: this is a regrouping of
  one finite sum, which needs only the associativity and commutativity of addition, so it holds for infinite terms too.
-/
import proofs.«171829_j90975997264556_2_alg».proof.Proof.Spec
import proofs.«171829_j90975997264556_2_alg».proof.Proof.LibBlockSum

noncomputable section

open scoped BigOperators

namespace Cert.PayMath

open Idealize.ShloMosaic Idealize.ShloMosaic.ValueIdx

/-- A sum over 11008 indices is the sum over 86 groups of the 128 indices of each group. -/
theorem sum_groups (T : Fin 11008 → EReal) :
    ∑ f : Fin 11008, T f = ∑ ft : Fin 86, ∑ k : Fin 128, T ⟨ft.val * 128 + k.val, by omega⟩ := by
  refine (Idealize.ShloMosaic.BlockSum.sum_blocks 86 128 (fun f : Fin (86 * 128) => T ⟨f.val, f.isLt⟩)).trans ?_
  refine Finset.sum_congr rfl fun s _ => Finset.sum_congr rfl fun q _ => congrArg T (Fin.ext ?_)
  show 128 * s.val + q.val = s.val * 128 + q.val
  omega

/-- One expert's output entry as the sum over the 86 groups of the 128 hidden units of each group. -/
theorem mlp_grouped (x : Cert.Mlp.SX.Idx → EReal) (g u : Cert.Mlp.SGU.Idx → EReal) (dw : Cert.Mlp.SD.Idx → EReal)
    (r d : Fin 4096) :
    Cert.Mlp.mlp x g u dw r d
      = ∑ ft : Fin 86, ∑ k : Fin 128,
          Cert.Mlp.hid x g u r ⟨ft.val * 128 + k.val, by omega⟩ * dw (ix2 ⟨ft.val * 128 + k.val, by omega⟩ d) :=
  sum_groups fun f => Cert.Mlp.hid x g u r f * dw (ix2 f d)

end Cert.PayMath

end
-- ==== Proof.KIChain0.lean ====
/-
  What call 0 leaves in its result array. After grid point `n` (token tile `n / 86`, group `n % 86` of 128 hidden
  units) the resident output block holds at row `p`, column `d` the left-to-right sum from zero of the groups'
  contributions up to group `n % 86` for token row `2048 * (n / 86) + p`; the block is written back after the 86th
  group, when that sum is the whole sum over the 11008 hidden units regrouped: the expert's value at that row.
-/
import proofs.«171829_j90975997264556_2_alg».proof.Proof.KIOutIdeal0
import proofs.«171829_j90975997264556_2_alg».proof.Proof.KILayout
import proofs.«171829_j90975997264556_2_alg».proof.Proof.KIPrefix
import proofs.«171829_j90975997264556_2_alg».proof.Proof.KIValBase
import proofs.«171829_j90975997264556_2_alg».proof.Proof.PayZero
import proofs.«171829_j90975997264556_2_alg».proof.Proof.PayAcc
import proofs.«171829_j90975997264556_2_alg».proof.Proof.PayGroup

set_option maxRecDepth 16384

noncomputable section

open scoped BigOperators

namespace Cert.KernelIdeal.Fr

open Cert.KernelIdeal Cert.KernelIdeal.Gen Cert.Mlp Cert.PayMath
open Idealize.ShloMosaic Idealize.ShloMosaic.TcCoe Idealize.ShloMosaic.ValueIdx
open Idealize.SL Idealize.SL.Sem
open Idealize.ShloMosaic.Pipeline (Dat Cfg Window)

/-- One grid point's effect, stated over variables: if the four input blocks are the stated entries of the hidden
    states and of one expert's weights (token rows from `row0`, hidden units of group `f`), the body adds group
    `f`'s contribution to what the output block held. -/
theorem step0_of (x0 : Vec Ideal S1024x4096 .bf16) (x1 x2 : Vec Ideal S4096x128 .f32) (x3 : Vec Ideal S128x4096 .f32)
    (acc : Vec Ideal S1024x4096 .f32) (X : SX.Idx → EReal) (Gw Uw : SGU.Idx → EReal) (Dw : SD.Idx → EReal) (row0 f : ℕ)
    (hx : ∀ (p : Fin 1024) (cc : Fin 4096), x0 (ix2 p cc) = X (ix3 (0 : Fin 1) (rowOf (row0 + p.val)) cc))
    (h1 : ∀ (cc : Fin 4096) (k : Fin 128), x1 (ix2 cc k) = Gw (ix2 cc (unitOf (128 * f + k.val))))
    (h2 : ∀ (cc : Fin 4096) (k : Fin 128), x2 (ix2 cc k) = Uw (ix2 cc (unitOf (128 * f + k.val))))
    (h3 : ∀ (k : Fin 128) (d : Fin 4096), x3 (ix2 k d) = Dw (ix2 (unitOf (128 * f + k.val)) d))
    (p : Fin 1024) (d : Fin 4096) :
    loopOut0 (F := Ideal) x0 x1 x2 x3 acc (ix2 p d) = acc (ix2 p d) + grp X Gw Uw Dw (row0 + p.val) d f := by
  rw [loopOut0_apply]
  unfold grp hid pre
  refine congrArg (acc (ix2 p d) + ·) (Finset.sum_congr rfl fun k _ => ?_)
  simp only [hx, h1, h2, h3]

variable (m : (ℓ : Loc nD τ sig) → Buf (Elt Ideal) ℓ) (c : Dev nD)

/-- At every grid point the four input blocks are the entries the step lemma asks for. -/
theorem blk0_x (t : Fin cfg0.N) (p : Fin 1024) (cc : Fin 4096) :
    iblk0 (V1 m) c 0 t (ix2 p cc) = aX m c (ix3 (0 : Fin 1) (rowOf (2048 * (t.val / 86) + p.val)) cc) :=
  (iblk0_0_at (V1 m) c t p cc (rowOf (2048 * (t.val / 86) + p.val))
    (by have := t_lt0 t; have := p.isLt; rw [rowOf_val (by omega)]; omega)).trans (V1_main_v1_apply m c _ cc)
theorem blk0_g (t : Fin cfg0.N) (cc : Fin 4096) (k : Fin 128) :
    iblk0 (V1 m) c 1 t (ix2 cc k) = aVG m c (ix2 cc (unitOf (128 * (t.val % 86) + k.val))) :=
  (iblk0_1_at (V1 m) c t cc k (unitOf (128 * (t.val % 86) + k.val))
    (by have := k.isLt; rw [unitOf_val (by omega)])).trans (congrFun (V1_main_arg5_eq m c) _)
theorem blk0_u (t : Fin cfg0.N) (cc : Fin 4096) (k : Fin 128) :
    iblk0 (V1 m) c 2 t (ix2 cc k) = aVU m c (ix2 cc (unitOf (128 * (t.val % 86) + k.val))) :=
  (iblk0_2_at (V1 m) c t cc k (unitOf (128 * (t.val % 86) + k.val))
    (by have := k.isLt; rw [unitOf_val (by omega)])).trans (congrFun (V1_main_arg6_eq m c) _)
theorem blk0_d (t : Fin cfg0.N) (k : Fin 128) (d : Fin 4096) :
    iblk0 (V1 m) c 3 t (ix2 k d) = aVD m c (ix2 (unitOf (128 * (t.val % 86) + k.val)) d) :=
  (iblk0_3_at (V1 m) c t k d (unitOf (128 * (t.val % 86) + k.val))
    (by have := k.isLt; rw [unitOf_val (by omega)])).trans (congrFun (V1_main_arg7_eq m c) _)

/-- The accumulation: what the output block holds after point `n`. -/
theorem outsAt0_val : ∀ (n : ℕ) (h : n < cfg0.N) (p : Fin 1024) (d : Fin 4096),
    outsAt0 (V1 m) c n h (ix2 p d)
      = accUpTo (grp (aX m c) (aVG m c) (aVU m c) (aVD m c) (2048 * (n / 86) + p.val) d) (n % 86)
  | 0, h, p, d => by
    rw [outsAt0_A (V1 m) c ⟨0, h⟩ rfl, out0_A_eq]
    refine (step0_of _ _ _ _ _ (aX m c) (aVG m c) (aVU m c) (aVD m c) (2048 * (0 / 86)) (0 % 86)
      (blk0_x m c ⟨0, h⟩) (blk0_g m c ⟨0, h⟩) (blk0_u m c ⟨0, h⟩) (blk0_d m c ⟨0, h⟩) p d).trans ?_
    rw [k0_pay1_apply]
    rfl
  | n + 1, h, p, d => by
    by_cases h0 : (n + 1) % 86 = 0
    · rw [outsAt0_A (V1 m) c ⟨n + 1, h⟩ h0, out0_A_eq]
      refine (step0_of _ _ _ _ _ (aX m c) (aVG m c) (aVU m c) (aVD m c) (2048 * ((n + 1) / 86)) ((n + 1) % 86)
        (blk0_x m c ⟨n + 1, h⟩) (blk0_g m c ⟨n + 1, h⟩) (blk0_u m c ⟨n + 1, h⟩) (blk0_d m c ⟨n + 1, h⟩) p d).trans ?_
      rw [k0_pay1_apply, h0]
      rfl
    · rw [outsAt0_B (V1 m) c ⟨n + 1, h⟩ h0, out0_B_eq]
      refine (step0_of _ _ _ _ _ (aX m c) (aVG m c) (aVU m c) (aVD m c) (2048 * ((n + 1) / 86)) ((n + 1) % 86)
        (blk0_x m c ⟨n + 1, h⟩) (blk0_g m c ⟨n + 1, h⟩) (blk0_u m c ⟨n + 1, h⟩) (blk0_d m c ⟨n + 1, h⟩) p d).trans ?_
      show outsAt0 (V1 m) c n _ (ix2 p d) + _ = _
      rw [outsAt0_val n (Nat.lt_of_succ_lt h) p d]
      have hd : (n + 1) / 86 = n / 86 := by omega
      have hm : (n + 1) % 86 = n % 86 + 1 := by omega
      rw [hd, hm]
      rfl

end Cert.KernelIdeal.Fr

end
-- ==== Proof.KIFinalO0.lean ====
/-
  Call 0's result array after the run. The output block of token tile `t / 86` is written back after its 86th
  group; by then the left-to-right sum of the 86 groups' contributions is the sum over all 11008 hidden units,
  regrouped: the expert's value. The two tiles' blocks are the two halves of the result array, so they cover it.
-/
import proofs.«171829_j90975997264556_2_alg».proof.Proof.KIChain0

set_option maxRecDepth 16384

noncomputable section

open scoped BigOperators

namespace Cert.KernelIdeal.Fr

open Cert.KernelIdeal Cert.KernelIdeal.Gen Cert.Mlp Cert.PayMath
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The output window's block index at a grid point: the token tile, and column block 0. -/
theorem idx4_facts0 : ∀ t : Fin cfg0.N, win0_4.index t (0 : Fin 2) = t.val / 86 ∧ win0_4.index t (1 : Fin 2) = 0 :=
  (by decide +kernel : ∀ t : Fin grid0.N, win0_4.index t (0 : Fin 2) = t.val / 86 ∧ win0_4.index t (1 : Fin 2) = 0)

/-- What a write-back writes is its block of the expert's values. -/
theorem flushed_eq0 (t : Fin cfg0.N) (hf : (cfg0.win 4).flush t = true) :
    (dat0 (V1 m) c).flushed 4 t = ((cfg0.win 4).blk t).view.read (Elt Ideal) (Gv2 m c) := by
  have h85 : t.val % 86 = 85 := (flush0_4 t).mp hf
  have hN : t.val < 172 := lt_of_lt_of_eq t.isLt (show cfg0.N = 172 from N_0)
  obtain ⟨e0, e1⟩ := idx4_facts0 t
  show (cfg0.win 4).cut (grid0.coords t) ((dat0 (V1 m) c).after 4 t) = _
  rw [after0_4]
  funext y
  obtain ⟨p, d, rfl⟩ : ∃ (p : Fin 1024) (d : Fin 4096), y = ix2 p d := ⟨y 0, y 1, eq_ix2 y⟩
  show outsAt0 (V1 m) c t.val t.isLt (ix2 p d) = Gv2 m c (((cfg0.win 4).blk t).view.emb (ix2 p d))
  rw [outsAt0_val m c t.val t.isLt p d, h85, accUpTo_eq_sum]
  have hemb : ((cfg0.win 4).blk t).view.emb (ix2 p d) = ix2 (⟨1024 * (t.val / 86) + p.val, by have := p.isLt; omega⟩ : Fin 2048) d := by
    funext a; apply Fin.ext
    match a with
    | ⟨0, _⟩ => show win0_4.index t (0 : Fin 2) * 1024 + 1 * p.val = 1024 * (t.val / 86) + p.val; omega
    | ⟨1, _⟩ => show win0_4.index t (1 : Fin 2) * 4096 + 1 * d.val = d.val; omega
  rw [hemb]
  unfold Gv2
  show _ = mlp _ _ _ _ (rowOf (2048 * ((1024 * (t.val / 86) + p.val) / 1024) + (1024 * (t.val / 86) + p.val) % 1024)) d
  have hr : 2048 * ((1024 * (t.val / 86) + p.val) / 1024) + (1024 * (t.val / 86) + p.val) % 1024 = 2048 * (t.val / 86) + p.val := by
    have := p.isLt; omega
  rw [hr, mlp_grouped]
  refine Finset.sum_congr rfl fun ft _ => ?_
  unfold grp
  refine Finset.sum_congr rfl fun k _ => ?_
  have hu : unitOf (128 * ft.val + k.val) = ⟨ft.val * 128 + k.val, by have := ft.isLt; have := k.isLt; omega⟩ :=
    Fin.ext ((unitOf_val (by have := ft.isLt; have := k.isLt; omega)).trans
      (show 128 * ft.val + k.val = ft.val * 128 + k.val from by omega))
  rw [hu]

/-- Every entry of the result array lies in the block some write-back writes. -/
theorem cover0 (i : S2048x4096.Idx) :
    ∃ t : Fin cfg0.N, (cfg0.win 4).flush t = true ∧ i ∈ ((cfg0.win 4).blk t).view.set := by
  have hi0 : (i 0).val < 2048 := (i 0).isLt
  have hi1 : (i 1).val < 4096 := (i 1).isLt
  have hlt : 86 * ((i 0).val / 1024) + 85 < cfg0.N := by rw [show cfg0.N = 172 from N_0]; omega
  obtain ⟨e0, e1⟩ := idx4_facts0 ⟨86 * ((i 0).val / 1024) + 85, hlt⟩
  refine ⟨⟨86 * ((i 0).val / 1024) + 85, hlt⟩, (flush0_4 _).mpr (by show (86 * ((i 0).val / 1024) + 85) % 86 = 85; omega), ?_⟩
  show i ∈ ((View.whole main_v2).slice (win0_4.rect ⟨86 * ((i 0).val / 1024) + 85, hlt⟩)).set
  rw [View.set_slice_whole, Rect.mem_set_unit]
  intro a
  match a with
  | ⟨0, _⟩ =>
    show win0_4.index ⟨86 * ((i 0).val / 1024) + 85, hlt⟩ (0 : Fin 2) * 1024 ≤ (i 0).val ∧ (i 0).val < win0_4.index ⟨86 * ((i 0).val / 1024) + 85, hlt⟩ (0 : Fin 2) * 1024 + 1024
    rw [e0]; show (86 * ((i 0).val / 1024) + 85) / 86 * 1024 ≤ (i 0).val ∧ (i 0).val < (86 * ((i 0).val / 1024) + 85) / 86 * 1024 + 1024; omega
  | ⟨1, _⟩ =>
    show win0_4.index ⟨86 * ((i 0).val / 1024) + 85, hlt⟩ (1 : Fin 2) * 4096 ≤ (i 1).val ∧ (i 1).val < win0_4.index ⟨86 * ((i 0).val / 1024) + 85, hlt⟩ (1 : Fin 2) * 4096 + 4096
    rw [e1]; omega

/-- So the result array ends holding the expert's values. -/
theorem final_o0 : (dat0 (V1 m) c).arrAt 4 cfg0.N = Gv2 m c :=
  (dat0 (V1 m) c).arrAt_eq_of_cover 4 (Gv2 m c) (flushed_eq0 m c) (cover0)

end Cert.KernelIdeal.Fr

end
-- ==== Proof.KIOut1.lean ====
/-
  What the kernel body's loop over the 16 column chunks of the output block leaves there, as ONE function of the
  blocks it reads: `loopOut1`. Trip `k` stores, through columns `[256 k, 256 k + 256)` of the output block, its payload
  of chunk `k` of the down-projection block and of chunk `k` of what it finds in the output block; it neither reads nor
  writes another chunk, so by induction on the trips every chunk it reads still holds the contents at loop entry, and
  the block ends holding, at each index, the payload of that index's chunk of the entry contents. Read back over
  the body's whole run this gives the two cases of the body: at a later step the entry contents are what the step
  before left, at the first step what the zero-fill stored.
-/
import proofs.«171829_j90975997264556_2_alg».proof.Proof.KIDat1
import Idealize.ShloMosaic.Lib.WritesUnit
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The loop over the output block's column chunks makes 16 trips. -/
theorem trips1 : k1_t1_loop.trips = 16 := by decide

/-- The column chunk (the trip) an index of the output block lies in: its column divided by 256. -/
def chunk1 (y : S1024x4096.Idx) : Fin k1_t1_loop.trips :=
  ⟨(y 1).val / 256, (by have h : (y 1).val < 4096 := (y 1).isLt; omega : (y 1).val / 256 < 16).trans_eq trips1.symm⟩

/-- The position of an index of the output block inside its column chunk: its row, and its column modulo 256. -/
def local1 (y : S1024x4096.Idx) : S1024x256.Idx := fun a =>
  match a with
  | ⟨0, _⟩ => ⟨(y 0).val, (y 0).isLt⟩
  | ⟨1, _⟩ => ⟨(y 1).val % 256, Nat.mod_lt _ (by decide)⟩

/-- What the 16 trips leave in the output block, index by index, as a function of the three blocks loaded before the
    loop (`v3 v5 v7`), of the block `d` the loop reads chunk by chunk, and of what the output block held at loop entry
    (`a`): at an index of column chunk `k`, the trip's payload of chunk `k` of `d` and chunk `k` of `a`, at the index's
    position inside the chunk. No trip reads a column another trip writes, so each chunk of `a` is the entry contents. -/
def loopOut1 (v3 : Vec F S1024x4096 .bf16) (v5 v7 : Vec F S4096x128 .f32) (d : S128x4096.Idx → Elt F .f32)
    (a : S1024x4096.Idx → Elt F .f32) : S1024x4096.Idx → Elt F .f32 :=
  fun y => k1_pay2 v3 v5 v7
    (View.ld d (Rect.unit (s := S128x4096) (k1_off1 (chunk1 y)) S128x256.size (k1_off1_inb (chunk1 y))))
    (View.ld a (Rect.unit (s := S1024x4096) (k1_off2 (chunk1 y)) S1024x256.size (k1_off2_inb (chunk1 y))))
    (local1 y)

/-- The same, the chunk named by the caller. -/
theorem loopOut1_chunk (v3 : Vec F S1024x4096 .bf16) (v5 v7 : Vec F S4096x128 .f32) (d : S128x4096.Idx → Elt F .f32)
    (a : S1024x4096.Idx → Elt F .f32) (y : S1024x4096.Idx) (k : Fin k1_t1_loop.trips) (hk : (y 1).val / 256 = k.val) :
    loopOut1 v3 v5 v7 d a y = k1_pay2 v3 v5 v7
      (View.ld d (Rect.unit (s := S128x4096) (k1_off1 k) S128x256.size (k1_off1_inb k)))
      (View.ld a (Rect.unit (s := S1024x4096) (k1_off2 k) S1024x256.size (k1_off2_inb k)))
      (local1 y) := by
  obtain rfl : chunk1 y = k := Fin.ext hk
  rfl

/-- One trip's pieces: one store, through the trip's column chunk of the output block, of the trip's payload of the
    chunk of `arg5`'s contents and of the chunk of the contents the trip finds in the output block. -/
theorem tripL_eq1 (𝒱 : Variants) (c : Dev nD) (bd : Option 𝒱.V) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (v3 : Vec F S1024x4096 .bf16) (v5 : Vec F S4096x128 .f32) (v7 : Vec F S4096x128 .f32)
    (X : BufTy.Contents (Elt F) arg5.view.ty) (k : Fin k1_t1_loop.trips) (f : BufTy.Contents (Elt F) arg6.view.ty) :
    tripL_k1_t1 (F := F) 𝒱 c bd i arg2 harg2 arg3 harg3 arg4 harg4 arg5 harg5 arg6 harg6 v3 v5 v7 X k f
      = [(⟨Rect.unit (s := S1024x4096) (k1_off2 k) S1024x256.size (k1_off2_inb k),
          k1_pay2 v3 v5 v7
            (View.ld (arg5.view.read (Elt F) X) (Rect.unit (s := S128x4096) (k1_off1 k) S128x256.size (k1_off1_inb k)))
            (View.ld (arg6.view.read (Elt F) f) (Rect.unit (s := S1024x4096) (k1_off2 k) S1024x256.size (k1_off2_inb k)))⟩
          : View.Piece (Elt F) S1024x4096 .f32)] := by
  unfold tripL_k1_t1 trip_k1_t1
  rfl

/-- After the first `n` trips: the columns below `256 n` hold the loop's function of the entry contents, the others
    the entry contents (trip `n` writes column chunk `n` alone, and reads of the output block only that chunk, which no
    earlier trip wrote). -/
theorem pb_read1_upto (𝒱 : Variants) (c : Dev nD) (bd : Option 𝒱.V) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (v3 : Vec F S1024x4096 .bf16) (v5 : Vec F S4096x128 .f32) (v7 : Vec F S4096x128 .f32)
    (X : BufTy.Contents (Elt F) arg5.view.ty) (G : BufTy.Contents (Elt F) arg6.view.ty) :
    ∀ (n : ℕ), n ≤ 16 → ∀ y : S1024x4096.Idx,
      arg6.view.read (Elt F) (arg6.view.writes (Elt F) G (pb_k1_t1 (F := F) 𝒱 c bd i arg2 harg2 arg3 harg3 arg4 harg4 arg5 harg5 arg6 harg6 v3 v5 v7 X G n)) y
        = if (y 1).val < 256 * n then loopOut1 v3 v5 v7 (arg5.view.read (Elt F) X) (arg6.view.read (Elt F) G) y
          else arg6.view.read (Elt F) G y := by
  intro n
  induction n with
  | zero =>
    intro _ y
    rw [if_neg (by omega)]
    rfl
  | succ n ih =>
    intro hn y
    have hlt : n < k1_t1_loop.trips := by rw [trips1]; omega
    have hs : pb_k1_t1 (F := F) 𝒱 c bd i arg2 harg2 arg3 harg3 arg4 harg4 arg5 harg5 arg6 harg6 v3 v5 v7 X G (n + 1)
        = tripL_k1_t1 (F := F) 𝒱 c bd i arg2 harg2 arg3 harg3 arg4 harg4 arg5 harg5 arg6 harg6 v3 v5 v7 X ⟨n, hlt⟩ (arg6.view.writes (Elt F) G (pb_k1_t1 (F := F) 𝒱 c bd i arg2 harg2 arg3 harg3 arg4 harg4 arg5 harg5 arg6 harg6 v3 v5 v7 X G n))
          ++ pb_k1_t1 (F := F) 𝒱 c bd i arg2 harg2 arg3 harg3 arg4 harg4 arg5 harg5 arg6 harg6 v3 v5 v7 X G n :=
      pb_k1_t1_succ (F := F) 𝒱 c bd i arg2 harg2 arg3 harg3 arg4 harg4 arg5 harg5 arg6 harg6 v3 v5 v7 X G ⟨n, hlt⟩
    rw [hs, tripL_eq1, List.singleton_append]
    have hoff : k1_off2 ⟨n, hlt⟩ = ![0, 256 * n] := k1_off2_eq ⟨n, hlt⟩
    by_cases hy : (y 1).val / 256 = n
    · -- under the new piece: the trip's payload, whose load of the output chunk reads the entry contents
      have hx : ∀ a : Fin 2, (y a).val = (![0, 256 * n] : Fin 2 → ℕ) a + (local1 y a).val :=
        Fin.forall_fin_two.mpr ⟨by show (y 0).val = 0 + (y 0).val; omega,
          by show (y 1).val = 256 * n + (y 1).val % 256; omega⟩
      rw [View.read_writes_cons_unit_of_mem arg6.view G (k1_off2_inb ⟨n, hlt⟩) _ _ y (local1 y) hoff hx,
        if_pos (by omega), loopOut1_chunk v3 v5 v7 _ _ y ⟨n, hlt⟩ hy]
      have hld : View.ld (arg6.view.read (Elt F) (arg6.view.writes (Elt F) G (pb_k1_t1 (F := F) 𝒱 c bd i arg2 harg2 arg3 harg3 arg4 harg4 arg5 harg5 arg6 harg6 v3 v5 v7 X G n)))
            (Rect.unit (s := S1024x4096) (k1_off2 ⟨n, hlt⟩) S1024x256.size (k1_off2_inb ⟨n, hlt⟩))
          = View.ld (arg6.view.read (Elt F) G)
            (Rect.unit (s := S1024x4096) (k1_off2 ⟨n, hlt⟩) S1024x256.size (k1_off2_inb ⟨n, hlt⟩)) := by
        funext x
        show arg6.view.read (Elt F) (arg6.view.writes (Elt F) G (pb_k1_t1 (F := F) 𝒱 c bd i arg2 harg2 arg3 harg3 arg4 harg4 arg5 harg5 arg6 harg6 v3 v5 v7 X G n)) _
          = arg6.view.read (Elt F) G _
        rw [ih (by omega), if_neg]
        show ¬ (k1_off2 ⟨n, hlt⟩ 1 + 1 * (x 1).val < 256 * n)
        rw [congrFun hoff 1]
        show ¬ (256 * n + 1 * (x 1).val < 256 * n)
        omega
      rw [hld]
    · -- off the new piece (another column chunk): what the earlier trips left
      rw [View.read_writes_cons_unit_of_not_mem arg6.view G (k1_off2_inb ⟨n, hlt⟩) _ _ y hoff (1 : Fin 2)
        (by show (y 1).val < 256 * n ∨ 256 * n + 256 ≤ (y 1).val; omega), ih (by omega) y]
      by_cases h1 : (y 1).val < 256 * n
      · rw [if_pos h1, if_pos (by omega)]
      · rw [if_neg h1, if_neg (by omega)]

/-- What the loop leaves in the output block, read back: the loop's function of `arg5`'s contents and of the
    output block's contents at loop entry. -/
theorem pb_read1 (𝒱 : Variants) (c : Dev nD) (bd : Option 𝒱.V) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (v3 : Vec F S1024x4096 .bf16) (v5 : Vec F S4096x128 .f32) (v7 : Vec F S4096x128 .f32)
    (X : BufTy.Contents (Elt F) arg5.view.ty) (G : BufTy.Contents (Elt F) arg6.view.ty) :
    arg6.view.read (Elt F) (arg6.view.writes (Elt F) G (pb_k1_t1 (F := F) 𝒱 c bd i arg2 harg2 arg3 harg3 arg4 harg4 arg5 harg5 arg6 harg6 v3 v5 v7 X G k1_t1_loop.trips))
      = loopOut1 v3 v5 v7 (arg5.view.read (Elt F) X) (arg6.view.read (Elt F) G) := by
  funext y
  rw [trips1, pb_read1_upto 𝒱 c bd i arg2 harg2 arg3 harg3 arg4 harg4 arg5 harg5 arg6 harg6 v3 v5 v7 X G 16 (Nat.le_refl _) y, if_pos]
  have h : (y 1).val < 4096 := (y 1).isLt
  omega

theorem hz2' : (![0, 0] : Fin 2 → Nat) = fun _ => 0 := funext fun a => by fin_cases a <;> rfl

/-- A later step (the output block holding `xo4` at entry): the body's stores, read back, are the loop's function
    of the four input blocks and of `xo4`. The pieces cover the block, so their read-back does not depend on the view or
    on the prior contents; read through the body's own output memref over `xo4` they are the loop's writes; the three
    loads before the loop read whole blocks. -/
theorem out1_B_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : ¬cond1_0 i)
    (x0 : Vec F S1024x4096 .bf16) (x1 : Vec F S4096x128 .f32) (x2 : Vec F S4096x128 .f32) (x3 : Vec F S128x4096 .f32) (xo4 : Vec F S1024x4096 .f32) :
    out1_B_4 c i arg2 harg2 arg3 harg3 arg4 harg4 arg5 harg5 arg6 harg6 hc0 x0 x1 x2 x3 xo4 = loopOut1 x0 x1 x2 x3 xo4 := by
  unfold out1_B_4
  rw [View.read_writes_of_cover VO1_4 VO1_4.junk arg6.view (harg6.unread xo4) _ (cover1_B_4 c i arg2 harg2 arg3 harg3 arg4 harg4 arg5 harg5 arg6 harg6 hc0 x0 x1 x2 x3 xo4)]
  unfold kernelRun1_B
  dsimp only
  rw [pb_read1]
  simp only [View.readAt_eq_ld, harg2.read_unread, harg3.read_unread, harg4.read_unread, harg5.read_unread, harg6.read_unread,
    View.ld_unit_zero (S := S1024x4096) hz2', View.ld_unit_zero (S := S4096x128) hz2']

/-- The first step: the zero-fill's one store covers the block, so the loop finds the fill's payload there. -/
theorem out1_A_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x128 .f32) (harg4 : arg4.IsWhole) (arg5 : Memref sig .tc .vmem S128x4096 .f32) (harg5 : arg5.IsWhole) (arg6 : Memref sig .tc .vmem S1024x4096 .f32) (harg6 : arg6.IsWhole) (hc0 : cond1_0 i)
    (x0 : Vec F S1024x4096 .bf16) (x1 : Vec F S4096x128 .f32) (x2 : Vec F S4096x128 .f32) (x3 : Vec F S128x4096 .f32) :
    out1_A_4 c i arg2 harg2 arg3 harg3 arg4 harg4 arg5 harg5 arg6 harg6 hc0 x0 x1 x2 x3 = loopOut1 x0 x1 x2 x3 (k1_pay1 (F := F)) := by
  unfold out1_A_4
  rw [View.read_writes_of_cover VO1_4 VO1_4.junk arg6.view arg6.view.junk _ (cover1_A_4 c i arg2 harg2 arg3 harg3 arg4 harg4 arg5 harg5 arg6 harg6 hc0 x0 x1 x2 x3)]
  unfold kernelRun1_A
  dsimp only
  sl_unfold_words
  have hcov : ∀ y : S1024x4096.Idx, ∃ p ∈ [(⟨Rect.unit (s := S1024x4096) ![0, 0] S1024x4096.size
        inb_S1024x4096_S1024x4096_0_0, k1_pay1 (F := F)⟩ : View.Piece (Elt F) S1024x4096 .f32)], y ∈ p.1.set :=
    fun y => ⟨_, List.mem_singleton_self _,
      View.mem_set_unit_zero (S := S1024x4096) hz2' inb_S1024x4096_S1024x4096_0_0 y⟩
  rw [View.writes_append, pb_read1, View.read_writes_eq_canon arg6.view arg6.view.junk _ hcov,
    View.canon_unit_zero (S := S1024x4096) hz2']
  simp only [View.readAt_eq_ld, harg2.read_unread, harg3.read_unread, harg4.read_unread, harg5.read_unread,
    View.ld_unit_zero (S := S1024x4096) hz2', View.ld_unit_zero (S := S4096x128) hz2']

end Cert.KernelIdeal.Fr

end
-- ==== Proof.KIOutIdeal1.lean ====
/-
  The loop's function of call 1, read at an entry on the extended reals: at row p and column d of the output block it
  is the entry contents there plus the sum over the 128 hidden units of the group of the gated activation of row p
  times the down-projection block's entry (k, d). The index lies in column chunk d / 256 at position d % 256; the
  chunk's loads read column 256 (d / 256) + d % 256 = d of the down-projection block and of the entry contents.
-/
import proofs.«171829_j90975997264556_2_alg».proof.Proof.KIOut1
import proofs.«171829_j90975997264556_2_alg».proof.Proof.PayTrip

set_option maxRecDepth 16384

noncomputable section

open scoped BigOperators

namespace Cert.KernelIdeal.Fr

open Cert.KernelIdeal Cert.KernelIdeal.Gen
open Idealize.ShloMosaic Idealize.ShloMosaic.ValueIdx

/-- The position of the index (p, d) inside its column chunk is (p, d % 256). -/
theorem local1_ix2 (p : Fin 1024) (d : Fin 4096) :
    local1 (ix2 p d) = ix2 p (⟨d.val % 256, Nat.mod_lt _ (by decide)⟩ : Fin 256) := by
  funext a
  match a with
  | ⟨0, _⟩ => rfl
  | ⟨1, _⟩ => rfl

/-- Chunk `k` of the down-projection block at (kk, q) is the block at (kk, 256 k + q). -/
theorem chunk1_idx1 (k : Fin k1_t1_loop.trips) (kk : Fin 128) (q : Fin 256) (d : Fin 4096)
    (h : d.val = 256 * k.val + q.val) :
    (Rect.unit (s := S128x4096) (k1_off1 k) S128x256.size (k1_off1_inb k)).idx (ix2 kk q) = ix2 kk d := by
  funext a
  apply Fin.ext
  match a with
  | ⟨0, _⟩ =>
    show k1_off1 k 0 + 1 * kk.val = kk.val
    rw [congrFun (k1_off1_eq k) 0]
    show 0 + 1 * kk.val = kk.val
    omega
  | ⟨1, _⟩ =>
    show k1_off1 k 1 + 1 * q.val = d.val
    rw [congrFun (k1_off1_eq k) 1]
    show 256 * k.val + 1 * q.val = d.val
    omega

/-- Chunk `k` of the output block at (p, q) is the block at (p, 256 k + q). -/
theorem chunk1_idx2 (k : Fin k1_t1_loop.trips) (p : Fin 1024) (q : Fin 256) (d : Fin 4096)
    (h : d.val = 256 * k.val + q.val) :
    (Rect.unit (s := S1024x4096) (k1_off2 k) S1024x256.size (k1_off2_inb k)).idx (ix2 p q) = ix2 p d := by
  funext a
  apply Fin.ext
  match a with
  | ⟨0, _⟩ =>
    show k1_off2 k 0 + 1 * p.val = p.val
    rw [congrFun (k1_off2_eq k) 0]
    show 0 + 1 * p.val = p.val
    omega
  | ⟨1, _⟩ =>
    show k1_off2 k 1 + 1 * q.val = d.val
    rw [congrFun (k1_off2_eq k) 1]
    show 256 * k.val + 1 * q.val = d.val
    omega

/-- The loop's function at entry (p, d), on the extended reals. -/
theorem loopOut1_apply (v3 : Vec Ideal S1024x4096 .bf16) (v5 v7 : Vec Ideal S4096x128 .f32) (dw : S128x4096.Idx → EReal)
    (a : S1024x4096.Idx → EReal) (p : Fin 1024) (d : Fin 4096) :
    loopOut1 (F := Ideal) v3 v5 v7 dw a (ix2 p d)
      = a (ix2 p d) + ∑ k : Fin 128,
          (((∑ c : Fin 4096, v3 (ix2 p c) * v5 (ix2 c k)) * Ideal.logistic (∑ c : Fin 4096, v3 (ix2 p c) * v5 (ix2 c k)))
            * (∑ c : Fin 4096, v3 (ix2 p c) * v7 (ix2 c k))) * dw (ix2 k d) := by
  have hd : d.val = 256 * (chunk1 (ix2 p d)).val + (⟨d.val % 256, Nat.mod_lt _ (by decide)⟩ : Fin 256).val := by
    show d.val = 256 * (d.val / 256) + d.val % 256
    omega
  unfold loopOut1
  rw [local1_ix2, Cert.PayMath.k1_pay2_apply]
  dsimp only [View.ld]
  rw [chunk1_idx2 _ p _ d hd]
  simp only [chunk1_idx1 _ _ _ d hd]

end Cert.KernelIdeal.Fr

end
-- ==== Proof.KIChain1.lean ====
/-
  What call 1 leaves in its result array. After grid point `n` (token tile `n / 86`, group `n % 86` of 128 hidden
  units) the resident output block holds at row `p`, column `d` the left-to-right sum from zero of the groups'
  contributions up to group `n % 86` for token row `2048 * (n / 86) + 1024 + p`; the block is written back after the 86th
  group, when that sum is the whole sum over the 11008 hidden units regrouped: the expert's value at that row.
-/
import proofs.«171829_j90975997264556_2_alg».proof.Proof.KIOutIdeal1
import proofs.«171829_j90975997264556_2_alg».proof.Proof.KILayout
import proofs.«171829_j90975997264556_2_alg».proof.Proof.KIPrefix
import proofs.«171829_j90975997264556_2_alg».proof.Proof.KIValBase
import proofs.«171829_j90975997264556_2_alg».proof.Proof.PayZero
import proofs.«171829_j90975997264556_2_alg».proof.Proof.PayAcc
import proofs.«171829_j90975997264556_2_alg».proof.Proof.PayGroup

set_option maxRecDepth 16384

noncomputable section

open scoped BigOperators

namespace Cert.KernelIdeal.Fr

open Cert.KernelIdeal Cert.KernelIdeal.Gen Cert.Mlp Cert.PayMath
open Idealize.ShloMosaic Idealize.ShloMosaic.TcCoe Idealize.ShloMosaic.ValueIdx
open Idealize.SL Idealize.SL.Sem
open Idealize.ShloMosaic.Pipeline (Dat Cfg Window)

/-- One grid point's effect, stated over variables: if the four input blocks are the stated entries of the hidden
    states and of one expert's weights (token rows from `row0`, hidden units of group `f`), the body adds group
    `f`'s contribution to what the output block held. -/
theorem step1_of (x0 : Vec Ideal S1024x4096 .bf16) (x1 x2 : Vec Ideal S4096x128 .f32) (x3 : Vec Ideal S128x4096 .f32)
    (acc : Vec Ideal S1024x4096 .f32) (X : SX.Idx → EReal) (Gw Uw : SGU.Idx → EReal) (Dw : SD.Idx → EReal) (row0 f : ℕ)
    (hx : ∀ (p : Fin 1024) (cc : Fin 4096), x0 (ix2 p cc) = X (ix3 (0 : Fin 1) (rowOf (row0 + p.val)) cc))
    (h1 : ∀ (cc : Fin 4096) (k : Fin 128), x1 (ix2 cc k) = Gw (ix2 cc (unitOf (128 * f + k.val))))
    (h2 : ∀ (cc : Fin 4096) (k : Fin 128), x2 (ix2 cc k) = Uw (ix2 cc (unitOf (128 * f + k.val))))
    (h3 : ∀ (k : Fin 128) (d : Fin 4096), x3 (ix2 k d) = Dw (ix2 (unitOf (128 * f + k.val)) d))
    (p : Fin 1024) (d : Fin 4096) :
    loopOut1 (F := Ideal) x0 x1 x2 x3 acc (ix2 p d) = acc (ix2 p d) + grp X Gw Uw Dw (row0 + p.val) d f := by
  rw [loopOut1_apply]
  unfold grp hid pre
  refine congrArg (acc (ix2 p d) + ·) (Finset.sum_congr rfl fun k _ => ?_)
  simp only [hx, h1, h2, h3]

variable (m : (ℓ : Loc nD τ sig) → Buf (Elt Ideal) ℓ) (c : Dev nD)

/-- At every grid point the four input blocks are the entries the step lemma asks for. -/
theorem blk1_x (t : Fin cfg1.N) (p : Fin 1024) (cc : Fin 4096) :
    iblk1 (V2 m) c 0 t (ix2 p cc) = aX m c (ix3 (0 : Fin 1) (rowOf (2048 * (t.val / 86) + 1024 + p.val)) cc) :=
  (iblk1_0_at (V2 m) c t p cc (rowOf (2048 * (t.val / 86) + 1024 + p.val))
    (by have := t_lt1 t; have := p.isLt; rw [rowOf_val (by omega)]; omega)).trans (V2_main_v1_apply m c _ cc)
theorem blk1_g (t : Fin cfg1.N) (cc : Fin 4096) (k : Fin 128) :
    iblk1 (V2 m) c 1 t (ix2 cc k) = aLG m c (ix2 cc (unitOf (128 * (t.val % 86) + k.val))) :=
  (iblk1_1_at (V2 m) c t cc k (unitOf (128 * (t.val % 86) + k.val))
    (by have := k.isLt; rw [unitOf_val (by omega)])).trans (congrFun (V2_main_arg2_eq m c) _)
theorem blk1_u (t : Fin cfg1.N) (cc : Fin 4096) (k : Fin 128) :
    iblk1 (V2 m) c 2 t (ix2 cc k) = aLU m c (ix2 cc (unitOf (128 * (t.val % 86) + k.val))) :=
  (iblk1_2_at (V2 m) c t cc k (unitOf (128 * (t.val % 86) + k.val))
    (by have := k.isLt; rw [unitOf_val (by omega)])).trans (congrFun (V2_main_arg3_eq m c) _)
theorem blk1_d (t : Fin cfg1.N) (k : Fin 128) (d : Fin 4096) :
    iblk1 (V2 m) c 3 t (ix2 k d) = aLD m c (ix2 (unitOf (128 * (t.val % 86) + k.val)) d) :=
  (iblk1_3_at (V2 m) c t k d (unitOf (128 * (t.val % 86) + k.val))
    (by have := k.isLt; rw [unitOf_val (by omega)])).trans (congrFun (V2_main_arg4_eq m c) _)

/-- The accumulation: what the output block holds after point `n`. -/
theorem outsAt1_val : ∀ (n : ℕ) (h : n < cfg1.N) (p : Fin 1024) (d : Fin 4096),
    outsAt1 (V2 m) c n h (ix2 p d)
      = accUpTo (grp (aX m c) (aLG m c) (aLU m c) (aLD m c) (2048 * (n / 86) + 1024 + p.val) d) (n % 86)
  | 0, h, p, d => by
    rw [outsAt1_A (V2 m) c ⟨0, h⟩ rfl, out1_A_eq]
    refine (step1_of _ _ _ _ _ (aX m c) (aLG m c) (aLU m c) (aLD m c) (2048 * (0 / 86) + 1024) (0 % 86)
      (blk1_x m c ⟨0, h⟩) (blk1_g m c ⟨0, h⟩) (blk1_u m c ⟨0, h⟩) (blk1_d m c ⟨0, h⟩) p d).trans ?_
    rw [k1_pay1_apply]
    rfl
  | n + 1, h, p, d => by
    by_cases h0 : (n + 1) % 86 = 0
    · rw [outsAt1_A (V2 m) c ⟨n + 1, h⟩ h0, out1_A_eq]
      refine (step1_of _ _ _ _ _ (aX m c) (aLG m c) (aLU m c) (aLD m c) (2048 * ((n + 1) / 86) + 1024) ((n + 1) % 86)
        (blk1_x m c ⟨n + 1, h⟩) (blk1_g m c ⟨n + 1, h⟩) (blk1_u m c ⟨n + 1, h⟩) (blk1_d m c ⟨n + 1, h⟩) p d).trans ?_
      rw [k1_pay1_apply, h0]
      rfl
    · rw [outsAt1_B (V2 m) c ⟨n + 1, h⟩ h0, out1_B_eq]
      refine (step1_of _ _ _ _ _ (aX m c) (aLG m c) (aLU m c) (aLD m c) (2048 * ((n + 1) / 86) + 1024) ((n + 1) % 86)
        (blk1_x m c ⟨n + 1, h⟩) (blk1_g m c ⟨n + 1, h⟩) (blk1_u m c ⟨n + 1, h⟩) (blk1_d m c ⟨n + 1, h⟩) p d).trans ?_
      show outsAt1 (V2 m) c n _ (ix2 p d) + _ = _
      rw [outsAt1_val n (Nat.lt_of_succ_lt h) p d]
      have hd : (n + 1) / 86 = n / 86 := by omega
      have hm : (n + 1) % 86 = n % 86 + 1 := by omega
      rw [hd, hm]
      rfl

end Cert.KernelIdeal.Fr

end
-- ==== Proof.KIFinalO1.lean ====
/-
  Call 1's result array after the run. The output block of token tile `t / 86` is written back after its 86th
  group; by then the left-to-right sum of the 86 groups' contributions is the sum over all 11008 hidden units,
  regrouped: the expert's value. The two tiles' blocks are the two halves of the result array, so they cover it.
-/
import proofs.«171829_j90975997264556_2_alg».proof.Proof.KIChain1

set_option maxRecDepth 16384

noncomputable section

open scoped BigOperators

namespace Cert.KernelIdeal.Fr

open Cert.KernelIdeal Cert.KernelIdeal.Gen Cert.Mlp Cert.PayMath
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The output window's block index at a grid point: the token tile, and column block 0. -/
theorem idx4_facts1 : ∀ t : Fin cfg1.N, win1_4.index t (0 : Fin 2) = t.val / 86 ∧ win1_4.index t (1 : Fin 2) = 0 :=
  (by decide +kernel : ∀ t : Fin grid1.N, win1_4.index t (0 : Fin 2) = t.val / 86 ∧ win1_4.index t (1 : Fin 2) = 0)

/-- What a write-back writes is its block of the expert's values. -/
theorem flushed_eq1 (t : Fin cfg1.N) (hf : (cfg1.win 4).flush t = true) :
    (dat1 (V2 m) c).flushed 4 t = ((cfg1.win 4).blk t).view.read (Elt Ideal) (Gv3 m c) := by
  have h85 : t.val % 86 = 85 := (flush1_4 t).mp hf
  have hN : t.val < 172 := lt_of_lt_of_eq t.isLt (show cfg1.N = 172 from N_1)
  obtain ⟨e0, e1⟩ := idx4_facts1 t
  show (cfg1.win 4).cut (grid1.coords t) ((dat1 (V2 m) c).after 4 t) = _
  rw [after1_4]
  funext y
  obtain ⟨p, d, rfl⟩ : ∃ (p : Fin 1024) (d : Fin 4096), y = ix2 p d := ⟨y 0, y 1, eq_ix2 y⟩
  show outsAt1 (V2 m) c t.val t.isLt (ix2 p d) = Gv3 m c (((cfg1.win 4).blk t).view.emb (ix2 p d))
  rw [outsAt1_val m c t.val t.isLt p d, h85, accUpTo_eq_sum]
  have hemb : ((cfg1.win 4).blk t).view.emb (ix2 p d) = ix2 (⟨1024 * (t.val / 86) + p.val, by have := p.isLt; omega⟩ : Fin 2048) d := by
    funext a; apply Fin.ext
    match a with
    | ⟨0, _⟩ => show win1_4.index t (0 : Fin 2) * 1024 + 1 * p.val = 1024 * (t.val / 86) + p.val; omega
    | ⟨1, _⟩ => show win1_4.index t (1 : Fin 2) * 4096 + 1 * d.val = d.val; omega
  rw [hemb]
  unfold Gv3
  show _ = mlp _ _ _ _ (rowOf (2048 * ((1024 * (t.val / 86) + p.val) / 1024) + 1024 + (1024 * (t.val / 86) + p.val) % 1024)) d
  have hr : 2048 * ((1024 * (t.val / 86) + p.val) / 1024) + 1024 + (1024 * (t.val / 86) + p.val) % 1024 = 2048 * (t.val / 86) + 1024 + p.val := by
    have := p.isLt; omega
  rw [hr, mlp_grouped]
  refine Finset.sum_congr rfl fun ft _ => ?_
  unfold grp
  refine Finset.sum_congr rfl fun k _ => ?_
  have hu : unitOf (128 * ft.val + k.val) = ⟨ft.val * 128 + k.val, by have := ft.isLt; have := k.isLt; omega⟩ :=
    Fin.ext ((unitOf_val (by have := ft.isLt; have := k.isLt; omega)).trans
      (show 128 * ft.val + k.val = ft.val * 128 + k.val from by omega))
  rw [hu]

/-- Every entry of the result array lies in the block some write-back writes. -/
theorem cover1 (i : S2048x4096.Idx) :
    ∃ t : Fin cfg1.N, (cfg1.win 4).flush t = true ∧ i ∈ ((cfg1.win 4).blk t).view.set := by
  have hi0 : (i 0).val < 2048 := (i 0).isLt
  have hi1 : (i 1).val < 4096 := (i 1).isLt
  have hlt : 86 * ((i 0).val / 1024) + 85 < cfg1.N := by rw [show cfg1.N = 172 from N_1]; omega
  obtain ⟨e0, e1⟩ := idx4_facts1 ⟨86 * ((i 0).val / 1024) + 85, hlt⟩
  refine ⟨⟨86 * ((i 0).val / 1024) + 85, hlt⟩, (flush1_4 _).mpr (by show (86 * ((i 0).val / 1024) + 85) % 86 = 85; omega), ?_⟩
  show i ∈ ((View.whole main_v3).slice (win1_4.rect ⟨86 * ((i 0).val / 1024) + 85, hlt⟩)).set
  rw [View.set_slice_whole, Rect.mem_set_unit]
  intro a
  match a with
  | ⟨0, _⟩ =>
    show win1_4.index ⟨86 * ((i 0).val / 1024) + 85, hlt⟩ (0 : Fin 2) * 1024 ≤ (i 0).val ∧ (i 0).val < win1_4.index ⟨86 * ((i 0).val / 1024) + 85, hlt⟩ (0 : Fin 2) * 1024 + 1024
    rw [e0]; show (86 * ((i 0).val / 1024) + 85) / 86 * 1024 ≤ (i 0).val ∧ (i 0).val < (86 * ((i 0).val / 1024) + 85) / 86 * 1024 + 1024; omega
  | ⟨1, _⟩ =>
    show win1_4.index ⟨86 * ((i 0).val / 1024) + 85, hlt⟩ (1 : Fin 2) * 4096 ≤ (i 1).val ∧ (i 1).val < win1_4.index ⟨86 * ((i 0).val / 1024) + 85, hlt⟩ (1 : Fin 2) * 4096 + 4096
    rw [e1]; omega

/-- So the result array ends holding the expert's values. -/
theorem final_o1 : (dat1 (V2 m) c).arrAt 4 cfg1.N = Gv3 m c :=
  (dat1 (V2 m) c).arrAt_eq_of_cover 4 (Gv3 m c) (flushed_eq1 m c) (cover1)

end Cert.KernelIdeal.Fr

end
-- ==== Proof.RefDot.lean ====
/-
  The reference's two contractions read at an index, for ANY operands of their shapes.

  A 1024-row segment's projection `[1,1024,4096] · [4096,11008]` at (p, r, f) is the inner product of row (p, r) of the
  left operand with column f of the weights; its down projection `[1,1024,11008] · [11008,4096]` at (p, r, d) is the inner
  product of row (p, r) of the hidden activations with column d of the down weights. On the extended reals the host's
  `dot_general` is that sum over the one contracted axis, re-indexed by the axis's coordinate.
-/
import proofs.«171829_j90975997264556_2_alg».proof.Proof.Gen.ReferenceIdeal.Read
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.ValueIdx

/-- The gate/up projection at (p, r, f): Σ_c y(p, r, c) · w(c, f). -/
theorem proj_apply (y : FVec Ideal S1x1024x4096 .f32) (w : FVec Ideal S4096x11008 .f32)
    (p : Fin 1) (r : Fin 1024) (f : Fin 11008) :
    Host.dotGeneral (F := Ideal) dot_S1x1024x4096_S4096x11008_S1x1024x11008_2_0_01_1_n_n none y w (ix3 p r f)
      = ∑ c : Fin 4096, y (ix3 p r c) * w (ix2 c f) := by
  simp only [Host.dotGeneral]
  rw [Ideal.dotGeneral_apply, ← Equiv.sum_comp (ValueIdx.contrEquiv1 dot_S1x1024x4096_S4096x11008_S1x1024x11008_2_0_01_1_n_n 4096 rfl rfl).symm]
  refine Finset.sum_congr rfl fun k _ => ?_
  have hk := ValueIdx.contrEquiv1_symm_val dot_S1x1024x4096_S4096x11008_S1x1024x11008_2_0_01_1_n_n 4096 rfl rfl k
  have el : dot_S1x1024x4096_S4096x11008_S1x1024x11008_2_0_01_1_n_n.lhsIdx (ix3 p r f) ((ValueIdx.contrEquiv1 dot_S1x1024x4096_S4096x11008_S1x1024x11008_2_0_01_1_n_n 4096 rfl rfl).symm k) = ix3 p r k := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S1x1024x4096_S4096x11008_S1x1024x11008_2_0_01_1_n_n.rhsIdx (ix3 p r f) ((ValueIdx.contrEquiv1 dot_S1x1024x4096_S4096x11008_S1x1024x11008_2_0_01_1_n_n 4096 rfl rfl).symm k) = ix2 k f := funext fun a => Fin.ext (by
    match a with
    | ⟨0, _⟩ => exact (rhs_main_v1_0 _ _).trans hk
    | ⟨1, _⟩ => exact rhs_main_v1_1 _ _)
  rw [el, er]

/-- The down projection at (p, r, d): Σ_f h(p, r, f) · w(f, d). -/
theorem down_apply (h : FVec Ideal S1x1024x11008 .f32) (w : FVec Ideal S11008x4096 .f32)
    (p : Fin 1) (r : Fin 1024) (d : Fin 4096) :
    Host.dotGeneral (F := Ideal) dot_S1x1024x11008_S11008x4096_S1x1024x4096_2_0_01_1_n_n none h w (ix3 p r d)
      = ∑ f : Fin 11008, h (ix3 p r f) * w (ix2 f d) := by
  simp only [Host.dotGeneral]
  rw [Ideal.dotGeneral_apply, ← Equiv.sum_comp (ValueIdx.contrEquiv1 dot_S1x1024x11008_S11008x4096_S1x1024x4096_2_0_01_1_n_n 11008 rfl rfl).symm]
  refine Finset.sum_congr rfl fun k _ => ?_
  have hk := ValueIdx.contrEquiv1_symm_val dot_S1x1024x11008_S11008x4096_S1x1024x4096_2_0_01_1_n_n 11008 rfl rfl k
  have el : dot_S1x1024x11008_S11008x4096_S1x1024x4096_2_0_01_1_n_n.lhsIdx (ix3 p r d) ((ValueIdx.contrEquiv1 dot_S1x1024x11008_S11008x4096_S1x1024x4096_2_0_01_1_n_n 11008 rfl rfl).symm k) = ix3 p r k := funext fun a => Fin.ext (by
    match a with
    | ⟨0, _⟩ => exact lhs_main_v5_0 _ _
    | ⟨1, _⟩ => exact lhs_main_v5_1 _ _
    | ⟨2, _⟩ => exact (lhs_main_v5_2 _ _).trans hk)
  have er : dot_S1x1024x11008_S11008x4096_S1x1024x4096_2_0_01_1_n_n.rhsIdx (ix3 p r d) ((ValueIdx.contrEquiv1 dot_S1x1024x11008_S11008x4096_S1x1024x4096_2_0_01_1_n_n 11008 rfl rfl).symm k) = ix2 k d := funext fun a => Fin.ext (by
    match a with
    | ⟨0, _⟩ => exact (rhs_main_v5_0 _ _).trans hk
    | ⟨1, _⟩ => exact rhs_main_v5_1 _ _)
  rw [el, er]

end Cert.RefSide

end
-- ==== Proof.RefExpert.lean ====
/-
  One expert over a segment of 1024 token rows, read at an index.

  The reference computes, for a segment `y` (1024 rows of 4096 features), gate and up weights `g`, `u` and down weights
  `dw`:   z = y·g,   s = z · (1 / (1 + exp(−z))),   h = s · (y·u),   out = h·dw.
  On the extended reals `1 / (1 + exp(−z))` is by definition the logistic function, so at row r and output feature d

      out(r, d) = Σ_f  (z(r,f) · logistic z(r,f)) · (Σ_c y(r,c)·u(c,f)) · dw(f, d),     z(r,f) = Σ_c y(r,c)·g(c,f).
-/
import proofs.«171829_j90975997264556_2_alg».proof.Proof.RefDot
import Idealize.ShloMosaic.Lib.IdealHost

noncomputable section

open scoped BigOperators

namespace Cert.RefSide

open Cert.ReferenceIdeal Cert.ReferenceIdeal.Gen Cert.ReferenceIdeal.Read Idealize.ShloMosaic Idealize.ShloMosaic.ValueIdx

/-- The scalar one, broadcast over a segment's hidden activations. -/
abbrev ones : FVec Ideal S1x1024x11008 .f32 :=
  broadcastInDim S1x1024x11008 ![] bcast_S_S1x1024x11008 (constant (F := Ideal) S_ .f32 0x3F800000#32)

/-- The broadcast one is the extended real one at every index. -/
theorem ones_apply (i : S1x1024x11008.Idx) : ones i = (1 : EReal) := by
  unfold ones
  rw [broadcastInDim_scalar_apply]
  exact Ideal.ofBits_one_f32

/-- The gated activation at an index: `z · (1 / (1 + exp(−z)))`, times the up projection, is `z · logistic z` times it. -/
theorem gated_apply (z v : FVec Ideal S1x1024x11008 .f32) (i : S1x1024x11008.Idx) :
    mulf (mulf z (Host.divf (F := Ideal) ones (addf ones (Host.exp (F := Ideal) (Host.negf (F := Ideal) z))))) v i
      = (z i * Ideal.logistic (z i)) * v i := by
  show (z i * Ideal.div (ones i) (ones i + Ideal.exp (-(z i)))) * v i = _
  rw [ones_apply]
  rfl

/-- The reference's expert over a segment `y`: the down projection of the gated activations. -/
def expert (y : FVec Ideal S1x1024x4096 .f32) (g u : FVec Ideal S4096x11008 .f32) (dw : FVec Ideal S11008x4096 .f32) :
    FVec Ideal S1x1024x4096 .f32 :=
  Host.dotGeneral (F := Ideal) dot_S1x1024x11008_S11008x4096_S1x1024x4096_2_0_01_1_n_n none
    (mulf (mulf (Host.dotGeneral (F := Ideal) dot_S1x1024x4096_S4096x11008_S1x1024x11008_2_0_01_1_n_n none y g)
        (Host.divf (F := Ideal) ones (addf ones (Host.exp (F := Ideal) (Host.negf (F := Ideal)
          (Host.dotGeneral (F := Ideal) dot_S1x1024x4096_S4096x11008_S1x1024x11008_2_0_01_1_n_n none y g))))))
      (Host.dotGeneral (F := Ideal) dot_S1x1024x4096_S4096x11008_S1x1024x11008_2_0_01_1_n_n none y u)) dw

/-- The expert at row (p, r), output feature d. -/
theorem expert_apply (y : FVec Ideal S1x1024x4096 .f32) (g u : FVec Ideal S4096x11008 .f32) (dw : FVec Ideal S11008x4096 .f32)
    (p : Fin 1) (r : Fin 1024) (d : Fin 4096) :
    expert y g u dw (ix3 p r d)
      = ∑ f : Fin 11008,
          (((∑ c : Fin 4096, y (ix3 p r c) * g (ix2 c f)) * Ideal.logistic (∑ c : Fin 4096, y (ix3 p r c) * g (ix2 c f)))
            * (∑ c : Fin 4096, y (ix3 p r c) * u (ix2 c f))) * dw (ix2 f d) := by
  unfold expert
  rw [down_apply]
  refine Finset.sum_congr rfl fun f _ => ?_
  rw [gated_apply, proj_apply, proj_apply]

end Cert.RefSide

end
-- ==== Proof.RefSegments.lean ====
/-
  The four 1024-row segments of the reference, each read at an index.

  The reference cuts rows [1024·s, 1024·s + 1024) out of the hidden states (s = 0, 1, 2, 3), sends the slice through one
  expert, and joins the four results. Row r of slice s is row 1024·s + r of the whole array, so segment s of the result at
  (r, d) is the specification's `mlp` of the whole hidden states at row 1024·s + r and feature d.
-/
import proofs.«171829_j90975997264556_2_alg».proof.Proof.RefExpert
import proofs.«171829_j90975997264556_2_alg».proof.Proof.Spec

noncomputable section

open scoped BigOperators

namespace Cert.RefSide

open Cert.ReferenceIdeal Cert.ReferenceIdeal.Gen Cert.ReferenceIdeal.Read Idealize.ShloMosaic Idealize.ShloMosaic.ValueIdx Cert.Mlp

/-- Rows 0–1023 of the hidden states, as the reference slices them: row r of the slice is row r of the whole. -/
theorem slice0_apply (x : FVec Ideal S1x4096x4096 .f32) (p : Fin 1) (r : Fin 1024) (c : Fin 4096) :
    val_main_v0 (F := Ideal) x (ix3 p r c) = x (ix3 (0 : Fin 1) (⟨r.val, by omega⟩ : Fin 4096) c) := by
  rw [val_main_v0_apply]
  refine congrArg x (funext fun a => Fin.ext ?_)
  match a with
  | ⟨0, _⟩ => show p.val = 0; omega
  | ⟨1, _⟩ => rfl
  | ⟨2, _⟩ => rfl

/-- Segment 0 of the reference's result is the expert at rows 0–1023. -/
theorem seg0_apply (x : FVec Ideal S1x4096x4096 .f32) (g u : FVec Ideal S4096x11008 .f32) (dw : FVec Ideal S11008x4096 .f32)
    (p : Fin 1) (r : Fin 1024) (d : Fin 4096) :
    val_main_v5 (F := Ideal) x g u dw (ix3 p r d) = mlp x g u dw (⟨r.val, by omega⟩ : Fin 4096) d := by
  have e : val_main_v5 (F := Ideal) x g u dw = expert (val_main_v0 (F := Ideal) x) g u dw := rfl
  rw [e, expert_apply]
  simp only [slice0_apply]
  rfl

/-- Rows 1024–2047 of the hidden states, as the reference slices them: row r of the slice is row 1024 + r of the whole. -/
theorem slice1_apply (x : FVec Ideal S1x4096x4096 .f32) (p : Fin 1) (r : Fin 1024) (c : Fin 4096) :
    val_main_v6 (F := Ideal) x (ix3 p r c) = x (ix3 (0 : Fin 1) (⟨1024 + r.val, by omega⟩ : Fin 4096) c) := by
  rw [val_main_v6_apply]
  refine congrArg x (funext fun a => Fin.ext ?_)
  match a with
  | ⟨0, _⟩ => show p.val = 0; omega
  | ⟨1, _⟩ => rfl
  | ⟨2, _⟩ => rfl

/-- Segment 1 of the reference's result is the expert at rows 1024–2047. -/
theorem seg1_apply (x : FVec Ideal S1x4096x4096 .f32) (g u : FVec Ideal S4096x11008 .f32) (dw : FVec Ideal S11008x4096 .f32)
    (p : Fin 1) (r : Fin 1024) (d : Fin 4096) :
    val_main_v11 (F := Ideal) x g u dw (ix3 p r d) = mlp x g u dw (⟨1024 + r.val, by omega⟩ : Fin 4096) d := by
  have e : val_main_v11 (F := Ideal) x g u dw = expert (val_main_v6 (F := Ideal) x) g u dw := rfl
  rw [e, expert_apply]
  simp only [slice1_apply]
  rfl

/-- Rows 2048–3071 of the hidden states, as the reference slices them: row r of the slice is row 2048 + r of the whole. -/
theorem slice2_apply (x : FVec Ideal S1x4096x4096 .f32) (p : Fin 1) (r : Fin 1024) (c : Fin 4096) :
    val_main_v12 (F := Ideal) x (ix3 p r c) = x (ix3 (0 : Fin 1) (⟨2048 + r.val, by omega⟩ : Fin 4096) c) := by
  rw [val_main_v12_apply]
  refine congrArg x (funext fun a => Fin.ext ?_)
  match a with
  | ⟨0, _⟩ => show p.val = 0; omega
  | ⟨1, _⟩ => rfl
  | ⟨2, _⟩ => rfl

/-- Segment 2 of the reference's result is the expert at rows 2048–3071. -/
theorem seg2_apply (x : FVec Ideal S1x4096x4096 .f32) (g u : FVec Ideal S4096x11008 .f32) (dw : FVec Ideal S11008x4096 .f32)
    (p : Fin 1) (r : Fin 1024) (d : Fin 4096) :
    val_main_v17 (F := Ideal) x g u dw (ix3 p r d) = mlp x g u dw (⟨2048 + r.val, by omega⟩ : Fin 4096) d := by
  have e : val_main_v17 (F := Ideal) x g u dw = expert (val_main_v12 (F := Ideal) x) g u dw := rfl
  rw [e, expert_apply]
  simp only [slice2_apply]
  rfl

/-- Rows 3072–4095 of the hidden states, as the reference slices them: row r of the slice is row 3072 + r of the whole. -/
theorem slice3_apply (x : FVec Ideal S1x4096x4096 .f32) (p : Fin 1) (r : Fin 1024) (c : Fin 4096) :
    val_main_v18 (F := Ideal) x (ix3 p r c) = x (ix3 (0 : Fin 1) (⟨3072 + r.val, by omega⟩ : Fin 4096) c) := by
  rw [val_main_v18_apply]
  refine congrArg x (funext fun a => Fin.ext ?_)
  match a with
  | ⟨0, _⟩ => show p.val = 0; omega
  | ⟨1, _⟩ => rfl
  | ⟨2, _⟩ => rfl

/-- Segment 3 of the reference's result is the expert at rows 3072–4095. -/
theorem seg3_apply (x : FVec Ideal S1x4096x4096 .f32) (g u : FVec Ideal S4096x11008 .f32) (dw : FVec Ideal S11008x4096 .f32)
    (p : Fin 1) (r : Fin 1024) (d : Fin 4096) :
    val_main_v23 (F := Ideal) x g u dw (ix3 p r d) = mlp x g u dw (⟨3072 + r.val, by omega⟩ : Fin 4096) d := by
  have e : val_main_v23 (F := Ideal) x g u dw = expert (val_main_v18 (F := Ideal) x) g u dw := rfl
  rw [e, expert_apply]
  simp only [slice3_apply]
  rfl

end Cert.RefSide

end
-- ==== Proof.RefSide.lean ====
/-
  The reference computes the specification.

  The reference's result is the join, along the token rows, of four 1024-row pieces: piece s is one expert applied to rows
  [1024·s, 1024·s + 1024) of the hidden states — the vision expert for s = 0 and 2, the language expert for s = 1 and 3. An
  index (p, q, d) of the result lies in piece q / 1024 at row q − 1024·(q / 1024), and that piece there is the
  specification's `mlp` at row q (the segment lemmas). The specification `G` picks the expert by the parity of q / 1024:
  the same choice. So the joined array is `G` of the argument arrays, index by index; the token-type argument is not read.

  From this and the run of the reference's operations: every execution of the reference ends with its result buffer at `G`
  of the arguments' initial contents and the arguments unchanged; dropping the result gives the frame claim.
-/
import proofs.«171829_j90975997264556_2_alg».proof.Defs
import proofs.«171829_j90975997264556_2_alg».proof.Proof.RefSegments
import proofs.«171829_j90975997264556_2_alg».proof.Proof.Gen.Pre_finite_inputs

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.ValueIdx Cert.Mlp

/-- In an even 1024-row segment the specification is the vision expert. -/
theorem G_even (x : FVec Ideal S1x4096x4096 .f32) (lg lu : FVec Ideal S4096x11008 .f32) (ld : FVec Ideal S11008x4096 .f32)
    (vg vu : FVec Ideal S4096x11008 .f32) (vd : FVec Ideal S11008x4096 .f32) (p : Fin 1) (q d : Fin 4096)
    (h : q.val / 1024 % 2 = 0) : G x lg lu ld vg vu vd (ix3 p q d) = mlp x vg vu vd q d :=
  if_pos h

/-- In an odd 1024-row segment the specification is the language expert. -/
theorem G_odd (x : FVec Ideal S1x4096x4096 .f32) (lg lu : FVec Ideal S4096x11008 .f32) (ld : FVec Ideal S11008x4096 .f32)
    (vg vu : FVec Ideal S4096x11008 .f32) (vd : FVec Ideal S11008x4096 .f32) (p : Fin 1) (q d : Fin 4096)
    (h : q.val / 1024 % 2 = 1) : G x lg lu ld vg vu vd (ix3 p q d) = mlp x lg lu ld q d :=
  if_neg (by show ¬(q.val / 1024 % 2 = 0); omega)

/-- The join of four 1024-row pieces at a row of piece 0 reads piece 0. -/
theorem join0_apply (u0 u1 u2 u3 : FVec Ideal S1x1024x4096 .f32) (p : Fin 1) (q d : Fin 4096) (r : Fin 1024)
    (h : 0 + r.val = q.val) :
    concatenate S1x4096x4096 1 [⟨S1x1024x4096, u0⟩, ⟨S1x1024x4096, u1⟩, ⟨S1x1024x4096, u2⟩, ⟨S1x1024x4096, u3⟩]
        concatenates_S1x1024x4096_S1x1024x4096_S1x1024x4096_S1x1024x4096_S1x4096x4096_d1 (ix3 p q d)
      = u0 (ix3 p r d) :=
  concatenate_apply_piece (t := S1x4096x4096) (1 : Fin 3) _ _ (ix3 p q d) 0 (by simp) S1x1024x4096 u0 rfl rfl 0 rfl (ix3 p r d)
    (fun b hb => by
      match b with
      | ⟨0, _⟩ => rfl
      | ⟨1, _⟩ => exact absurd rfl hb
      | ⟨2, _⟩ => rfl)
    (by exact h)

/-- The join of four 1024-row pieces at a row of piece 1 reads piece 1, 1024 rows up. -/
theorem join1_apply (u0 u1 u2 u3 : FVec Ideal S1x1024x4096 .f32) (p : Fin 1) (q d : Fin 4096) (r : Fin 1024)
    (h : 1024 + r.val = q.val) :
    concatenate S1x4096x4096 1 [⟨S1x1024x4096, u0⟩, ⟨S1x1024x4096, u1⟩, ⟨S1x1024x4096, u2⟩, ⟨S1x1024x4096, u3⟩]
        concatenates_S1x1024x4096_S1x1024x4096_S1x1024x4096_S1x1024x4096_S1x4096x4096_d1 (ix3 p q d)
      = u1 (ix3 p r d) :=
  concatenate_apply_piece (t := S1x4096x4096) (1 : Fin 3) _ _ (ix3 p q d) 1 (by simp) S1x1024x4096 u1 rfl rfl 1024 rfl (ix3 p r d)
    (fun b hb => by
      match b with
      | ⟨0, _⟩ => rfl
      | ⟨1, _⟩ => exact absurd rfl hb
      | ⟨2, _⟩ => rfl)
    (by exact h)

/-- The join of four 1024-row pieces at a row of piece 2 reads piece 2, 2048 rows up. -/
theorem join2_apply (u0 u1 u2 u3 : FVec Ideal S1x1024x4096 .f32) (p : Fin 1) (q d : Fin 4096) (r : Fin 1024)
    (h : 2048 + r.val = q.val) :
    concatenate S1x4096x4096 1 [⟨S1x1024x4096, u0⟩, ⟨S1x1024x4096, u1⟩, ⟨S1x1024x4096, u2⟩, ⟨S1x1024x4096, u3⟩]
        concatenates_S1x1024x4096_S1x1024x4096_S1x1024x4096_S1x1024x4096_S1x4096x4096_d1 (ix3 p q d)
      = u2 (ix3 p r d) :=
  concatenate_apply_piece (t := S1x4096x4096) (1 : Fin 3) _ _ (ix3 p q d) 2 (by simp) S1x1024x4096 u2 rfl rfl 2048 rfl (ix3 p r d)
    (fun b hb => by
      match b with
      | ⟨0, _⟩ => rfl
      | ⟨1, _⟩ => exact absurd rfl hb
      | ⟨2, _⟩ => rfl)
    (by exact h)

/-- The join of four 1024-row pieces at a row of piece 3 reads piece 3, 3072 rows up. -/
theorem join3_apply (u0 u1 u2 u3 : FVec Ideal S1x1024x4096 .f32) (p : Fin 1) (q d : Fin 4096) (r : Fin 1024)
    (h : 3072 + r.val = q.val) :
    concatenate S1x4096x4096 1 [⟨S1x1024x4096, u0⟩, ⟨S1x1024x4096, u1⟩, ⟨S1x1024x4096, u2⟩, ⟨S1x1024x4096, u3⟩]
        concatenates_S1x1024x4096_S1x1024x4096_S1x1024x4096_S1x1024x4096_S1x4096x4096_d1 (ix3 p q d)
      = u3 (ix3 p r d) :=
  concatenate_apply_piece (t := S1x4096x4096) (1 : Fin 3) _ _ (ix3 p q d) 3 (by simp) S1x1024x4096 u3 rfl rfl 3072 rfl (ix3 p r d)
    (fun b hb => by
      match b with
      | ⟨0, _⟩ => rfl
      | ⟨1, _⟩ => exact absurd rfl hb
      | ⟨2, _⟩ => rfl)
    (by exact h)

/-- The reference's result, as a function of its argument arrays, is the specification. -/
theorem result_eq (a0 : FVec Ideal S1x4096x4096 .f32) (a2 a3 : FVec Ideal S4096x11008 .f32) (a4 : FVec Ideal S11008x4096 .f32)
    (a5 a6 : FVec Ideal S4096x11008 .f32) (a7 : FVec Ideal S11008x4096 .f32) :
    val_main_v24 (F := Ideal) a0 a2 a3 a4 a5 a6 a7 = G a0 a2 a3 a4 a5 a6 a7 := by
  funext j
  obtain ⟨p, q, d, rfl⟩ : ∃ (p : Fin 1) (q : Fin 4096) (d : Fin 4096), j = ix3 p q d := ⟨j 0, j 1, j 2, eq_ix3 j⟩
  unfold val_main_v24
  have hq : q.val < 4096 := q.isLt
  rcases (by omega : q.val / 1024 = 0 ∨ q.val / 1024 = 1 ∨ q.val / 1024 = 2 ∨ q.val / 1024 = 3) with h | h | h | h
  · -- rows 0–1023: piece 0, at row q
    rw [join0_apply _ _ _ _ p q d (⟨q.val, by omega⟩ : Fin 1024) (by show 0 + q.val = q.val; omega), seg0_apply, G_even a0 a2 a3 a4 a5 a6 a7 p q d (by omega)]
  · -- rows 1024–2047: piece 1, at row q − 1024
    rw [join1_apply _ _ _ _ p q d (⟨q.val - 1024, by omega⟩ : Fin 1024) (by show 1024 + (q.val - 1024) = q.val; omega), seg1_apply, G_odd a0 a2 a3 a4 a5 a6 a7 p q d (by omega)]
    exact congrArg (fun r => mlp a0 a2 a3 a4 r d) (Fin.ext (by show 1024 + (q.val - 1024) = q.val; omega))
  · -- rows 2048–3071: piece 2, at row q − 2048
    rw [join2_apply _ _ _ _ p q d (⟨q.val - 2048, by omega⟩ : Fin 1024) (by show 2048 + (q.val - 2048) = q.val; omega), seg2_apply, G_even a0 a2 a3 a4 a5 a6 a7 p q d (by omega)]
    exact congrArg (fun r => mlp a0 a5 a6 a7 r d) (Fin.ext (by show 2048 + (q.val - 2048) = q.val; omega))
  · -- rows 3072–4095: piece 3, at row q − 3072
    rw [join3_apply _ _ _ _ p q d (⟨q.val - 3072, by omega⟩ : Fin 1024) (by show 3072 + (q.val - 3072) = q.val; omega), seg3_apply, G_odd a0 a2 a3 a4 a5 a6 a7 p q d (by omega)]
    exact congrArg (fun r => mlp a0 a2 a3 a4 r d) (Fin.ext (by show 3072 + (q.val - 3072) = q.val; omega))

/-- Every execution of the reference ends with its result at the specification of the arguments' initial contents, and
    the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v24) = G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans ((val_main_v24_eq m' c).trans (result_eq _ _ _ _ _ _ _)), (h c).2⟩)
    (Cert.ReferenceIdeal.Value.run (F := Ideal) m' ρ')

/-- The reference runs and leaves its arguments unchanged: its run with the result dropped. -/
theorem frame : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.RefSide

end
-- ==== Proof.lean ====
/-
  The certificate's five claims. Two experts' gated feed-forward layers are applied to alternating 1024-row
  segments of the hidden states; the kernel computes each expert's rows in a call of its own, accumulating the
  sum over the 11008 hidden units in 86 groups of 128 into a resident output block, and interleaves the two
  results' halves; the reference computes each segment with whole contractions and concatenates. On the extended
  reals both are the function `Cert.Mlp.G` of the argument arrays: the only law between them is the regrouping of
  one sum, so the inputs' finiteness is never used.
-/
import proofs.«171829_j90975997264556_2_alg».proof.Defs
import proofs.«171829_j90975997264556_2_alg».proof.Proof.Gen.Kernel
import proofs.«171829_j90975997264556_2_alg».proof.Proof.Gen.KernelIdeal
import proofs.«171829_j90975997264556_2_alg».proof.Proof.Gen.ReferenceIdeal
import proofs.«171829_j90975997264556_2_alg».proof.Proof.Gen.Pre_finite_inputs
import proofs.«171829_j90975997264556_2_alg».proof.Proof.KRegions
import proofs.«171829_j90975997264556_2_alg».proof.Proof.KIRegions
import proofs.«171829_j90975997264556_2_alg».proof.Proof.KIFinal
import proofs.«171829_j90975997264556_2_alg».proof.Proof.KIFinalO0
import proofs.«171829_j90975997264556_2_alg».proof.Proof.KIFinalO1
import proofs.«171829_j90975997264556_2_alg».proof.Proof.RefSide
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs to the end and leaves its arguments as launched. -/
theorem frame_k : Cert.frame_Kernel := fun m ρ _ => Cert.Kernel.Fr.frame m ρ
/-- So does its idealization. -/
theorem frame_ki : Cert.frame_KernelIdeal := fun m ρ _ => Cert.KernelIdeal.Fr.frame m ρ

/-- The reference runs to the end and leaves its arguments as launched. -/
theorem frame_ri : Cert.frame_ReferenceIdeal := Cert.RefSide.frame
/-- The ideal pass rewrote no operation of the kernel: there is nothing to preserve. -/
theorem preserves : Cert.preserves_Kernel_KernelIdeal := trivial

open Cert.KernelIdeal Cert.KernelIdeal.Gen Cert.KernelIdeal.Fr in
/-- On the extended reals, from memories that agree on the arguments, the kernel's result buffer and the reference's
    both end at the specification `Cert.Mlp.G` of the kernel's argument arrays, and the arguments end as launched. -/
theorem algebraic : Cert.algebraic_KernelIdeal_ReferenceIdeal := by
  intro m g m' g' _ hagree
  have hfin0 : ∀ c, (dat0 (V1 m) c).arrAt 4 cfg0.N = Gv2 m c := fun c => final_o0 m c
  have hfin1 : ∀ c, (dat1 (V2 m) c).arrAt 4 cfg1.N = Gv3 m c := fun c => final_o1 m c
  refine ⟨fun c => Cert.Mlp.G (aX m c) (aLG m c) (aLU m c) (aLD m c) (aVG m c) (aVU m c) (aVD m c),
    kernel_run m g hfin0 hfin1, ?_⟩
  refine (θ_run Cert.ReferenceIdeal.defs _ _).mono (fun _ h c => ⟨(h c).1.trans ?_, (h c).2⟩) (Cert.RefSide.run m' g')
  rw [(hagree c).1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
